-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S1000000 : Shape := ⟨1, ![1000000]⟩
abbrev S1000000x2 : Shape := ⟨2, ![1000000, 2]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S66x32 : Shape := ⟨2, ![66, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S66x32 : S_.BroadcastsInDim S66x32 (![] : Fin 0 → Fin S66x32.rank)
  reducesTo_S66x32_S_d0_1 : S66x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S32 .f32) (main_arg16 : FVec F S32x1 .f32) (main_arg17 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg15
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg16
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S32 .f32) (main_arg12 : FVec F S32x1 .f32) (main_arg13 : FVec F S1 .f32) (main_arg14 : FVec F S32x32 .f32) (main_arg15 : FVec F S32 .f32) (main_arg16 : FVec F S32x1 .f32) (main_arg17 : FVec F S1 .f32) (main_v33 : IVec S_ 1) : IVec S_ 1 :=
  let main_v34 : FVec F S32 .f32 := Host.absf main_arg11
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg12
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32x32 .f32 := Host.absf main_arg14
  let main_cst_18 : FVec F S_ .f32 := constant S_ .f32 0x7F800000#32
  let main_v50 : FVec F S32x32 .f32 := broadcastInDim S32x32 ![] bcast_S_S32x32 main_cst_18
  fn_part3 (F := F) main_arg15 main_arg16 main_arg17 main_v48 main_v49 main_v50

def fn_part1 {F : FTy → Type} [FloatOps F] (main_arg8 : FVec F S32x32 .f32) (main_arg9 : FVec F S32 .f32) (main_arg10 : FVec F S66x32 .f32) (main_arg11 : FVec F S32 .f32) (main_arg12 : FVec F S32x1 .f32) (main_arg13 : FVec F S1 .f32) (main_arg14 : FVec F S32x32 .f32) (main_arg15 : FVec F S32 .f32) (main_arg16 : FVec F S32x1 .f32) (main_arg17 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg8
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg9
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S66x32 .f32 := Host.absf main_arg10
  let main_cst_10 : FVec F S_ .f32 := constant S_ .f32 0x7F800000#32
  let main_v30 : FVec F S66x32 .f32 := broadcastInDim S66x32 ![] bcast_S_S66x32 main_cst_10
  let main_v31 : IVec S66x32 1 := cmpf .olt main_v29 main_v30
  let main_c_11 : IVec S_ 1 := constantI S_ 1 1#1
  let main_v32 : IVec S_ 1 := (fun x v => Host.reduce IntOp.andi x v reducesTo_S66x32_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x128 .f32) (main_arg1 : IVec S2x3200000 32) (main_arg2 : IVec S1000000 32) (main_arg3 : IVec S1000000 32) (main_arg4 : FVec F S1000000x2 .f32) (main_arg5 : IVec S50000 32) (main_arg6 : FVec F S128x32 .f32) (main_arg7 : FVec F S32 .f32) (main_arg8 : FVec F S32x32 .f32) (main_arg9 : FVec F S32 .f32) (main_arg10 : FVec F S66x32 .f32) (main_arg11 : FVec F S32 .f32) (main_arg12 : FVec F S32x1 .f32) (main_arg13 : FVec F S1 .f32) (main_arg14 : FVec F S32x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x2 .f32 := Host.absf main_arg4
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S128x32 .f32 := Host.absf main_arg6
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg7
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x3200000 : Shape := ⟨2, ![2, 3200000]⟩
abbrev S1000000 : Shape := ⟨1, ![1000000]⟩
abbrev S1000000x2 : Shape := ⟨2, ![1000000, 2]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S66x32 : Shape := ⟨2, ![66, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S10000x128 : Shape := ⟨2, ![10000, 128]⟩
abbrev S10000x32 : Shape := ⟨2, ![10000, 32]⟩
abbrev S3200000x32 : Shape := ⟨2, ![3200000, 32]⟩
abbrev S1x32 : Shape := ⟨2, ![1, 32]⟩
abbrev S10000x1 : Shape := ⟨2, ![10000, 1]⟩
abbrev S1000000x1 : Shape := ⟨2, ![1000000, 1]⟩
abbrev S1000000x32 : Shape := ⟨2, ![1000000, 32]⟩
abbrev S1000000x66 : Shape := ⟨2, ![1000000, 66]⟩
abbrev S1x1 : Shape := ⟨2, ![1, 1]⟩
abbrev S5000x66 : Shape := ⟨2, ![5000, 66]⟩
abbrev S5000x1 : Shape := ⟨2, ![5000, 1]⟩
abbrev S5000x32 : Shape := ⟨2, ![5000, 32]⟩
abbrev S50000x1 : Shape := ⟨2, ![50000, 1]⟩
abbrev S50000x32 : Shape := ⟨2, ![50000, 32]⟩

abbrev nBuf : Space → Nat
  | .hbm => 126
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S1000000, .i32⟩
  | .hbm, ⟨3, _⟩ => ⟨S1000000, .i32⟩
  | .hbm, ⟨4, _⟩ => ⟨S1000000x2, .f32⟩
  | .hbm, ⟨5, _⟩ => ⟨S50000, .i32⟩
  | .hbm, ⟨6, _⟩ => ⟨S128x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S66x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S32x32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x3200000, .i32⟩
  | .hbm, ⟨19, _⟩ => ⟨S3200000, .i32⟩
  | .hbm, ⟨20, _⟩ => ⟨S1x3200000, .i32⟩
  | .hbm, ⟨21, _⟩ => ⟨S3200000, .i32⟩
  | .hbm, ⟨22, _⟩ => ⟨S_, .f32⟩
  | .hbm, ⟨23, _⟩ => ⟨S3200000, .f32⟩
  | .hbm, ⟨24, _⟩ => ⟨S_, .f32⟩
  | .hbm, ⟨25, _⟩ => ⟨S100000, .f32⟩
  | .hbm, ⟨26, _⟩ => ⟨S3200000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000, .f32⟩
  | .hbm, ⟨52, _⟩ => ⟨S3200000, .f32⟩
  | .hbm, ⟨53, _⟩ => ⟨S3200000x1, .f32⟩
  | .hbm, ⟨54, _⟩ => ⟨S100000x32, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x32, .f32⟩
  | .hbm, ⟨64, _⟩ => ⟨S3200000x32, .f32⟩
  | .hbm, ⟨65, _⟩ => ⟨S3200000x32, .f32⟩
  | .hbm, ⟨66, _⟩ => ⟨S_, .f32⟩
  | .hbm, ⟨67, _⟩ => ⟨S100000x32, .f32⟩
  | .hbm, ⟨68, _⟩ => ⟨S3200000x1, .i32⟩
  | .hbm, ⟨69, _⟩ => ⟨S100000x32, .f32⟩
  | .hbm, ⟨70, _⟩ => ⟨S1x32, .f32⟩
  | .hbm, ⟨71, _⟩ => ⟨S100000x32, .f32⟩
  | .hbm, ⟨72, _⟩ => ⟨S100000x32, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x32, .f32⟩
  | .hbm, ⟨82, _⟩ => ⟨S3200000x32, .f32⟩
  | .hbm, ⟨83, _⟩ => ⟨S3200000x32, .f32⟩
  | .hbm, ⟨84, _⟩ => ⟨S_, .f32⟩
  | .hbm, ⟨85, _⟩ => ⟨S100000x32, .f32⟩
  | .hbm, ⟨86, _⟩ => ⟨S3200000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x32, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x32, .f32⟩
  | .hbm, ⟨108, _⟩ => ⟨S1000000x66, .f32⟩
  | .hbm, ⟨109, _⟩ => ⟨S1x32, .f32⟩
  | .hbm, ⟨110, _⟩ => ⟨S1x1, .f32⟩
  | .hbm, ⟨111, _⟩ => ⟨S1000000x1, .f32⟩
  | .hbm, ⟨112, _⟩ => ⟨S1000000, .f32⟩
  | .hbm, ⟨113, _⟩ => ⟨S_, .i32⟩
  | .hbm, ⟨114, _⟩ => ⟨S50000, .i32⟩
  | .hbm, ⟨115, _⟩ => ⟨S50000, .i1⟩
  | .hbm, ⟨116, _⟩ => ⟨S_, .i32⟩
  | .hbm, ⟨117, _⟩ => ⟨S50000, .i32⟩
  | .hbm, ⟨118, _⟩ => ⟨S50000, .i32⟩
  | .hbm, ⟨119, _⟩ => ⟨S50000, .i32⟩
  | .hbm, ⟨120, _⟩ => ⟨S50000x1, .i32⟩
  | .hbm, ⟨121, _⟩ => ⟨S50000x32, .f32⟩
  | .hbm, ⟨122, _⟩ => ⟨S1x32, .f32⟩
  | .hbm, ⟨123, _⟩ => ⟨S1x1, .f32⟩
  | .hbm, ⟨124, _⟩ => ⟨S50000x1, .f32⟩
  | .hbm, ⟨125, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S5000x66, .f32⟩
  | .local _ .vmem, ⟨29, _⟩ => ⟨S5000x66, .f32⟩
  | .local _ .vmem, ⟨30, _⟩ => ⟨S66x32, .f32⟩
  | .local _ .vmem, ⟨31, _⟩ => ⟨S1x32, .f32⟩
  | .local _ .vmem, ⟨32, _⟩ => ⟨S32x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | .local _ .vmem, ⟨36, _⟩ => ⟨S5000x32, .f32⟩
  | .local _ .vmem, ⟨37, _⟩ => ⟨S5000x32, .f32⟩
  | .local _ .vmem, ⟨38, _⟩ => ⟨S32x32, .f32⟩
  | .local _ .vmem, ⟨39, _⟩ => ⟨S1x32, .f32⟩
  | .local _ .vmem, ⟨40, _⟩ => ⟨S32x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x66 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S66x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x32_S1000000x32_S1000000x2_S1000000x66_d1 : Shape.Concatenates [S1000000x32, S1000000x32, S1000000x2] S1000000x66 1
  shapeCasts_S1_S1x1 : S1.ShapeCasts S1x1
  inb_S5000x66_S5000x66_0_0 : ∀ a, (![0, 0] : Fin 2 → Nat) a + S5000x66.size a ≤ S5000x66.size a
  h_S5000x66 : 0 < S5000x66.numel
  shapeCasts_S5000x66_S5000x66 : S5000x66.ShapeCasts S5000x66
  inb_S66x32_S66x32_0_0 : ∀ a, (![0, 0] : Fin 2 → Nat) a + S66x32.size a ≤ S66x32.size a
  h_S66x32 : 0 < S66x32.numel
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S1000000x1_S1000000 : S1000000x1.ShapeCasts S1000000
  bcast_S_S50000 : S_.BroadcastsInDim S50000 (![] : Fin 0 → Fin S50000.rank)
  bcast_S50000_S50000x1_0 : S50000.BroadcastsInDim S50000x1 (![0] : Fin 1 → Fin S50000x1.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  shapeCasts_S50000x1_S50000 : S50000x1.ShapeCasts S50000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x32_S10000x32_1_0_0_1_n_n_wf : DotDims.WF S10000x128 S128x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x32_S10000x32_1_0_0_1_n_n_wf : DotDims.WF S10000x32 S32x32 S10000x32 [1] [0] [0] [1] [] []
  gather_S100000x32_S1000000x1_S1000000x32_1_0_n_n_0_1_132_wf : GatherDims.WF S100000x32 S1000000x1 S1000000x32 [1] [0] [] [0] [] 1 ![1, 32]
  dot_S5000x66_S66x32_S5000x32_1_0_0_1_n_n_wf : DotDims.WF S5000x66 S66x32 S5000x32 [1] [0] [0] [1] [] []
  dot_S5000x32_S32x1_S5000x1_1_0_0_1_n_n_wf : DotDims.WF S5000x32 S32x1 S5000x1 [1] [0] [0] [1] [] []
  gather_S100000x32_S50000x1_S50000x32_1_0_n_n_0_1_132_wf : GatherDims.WF S100000x32 S50000x1 S50000x32 [1] [0] [] [0] [] 1 ![1, 32]
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S100000x32.size a
  hwx3_4 : ∀ i : grid3.Coords, EltTy.bits .f32 = 32 ∨ (Rect.block (s := S100000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x66.size a ≤ S1000000x66.size a
  hwx4_0 : ∀ i : grid4.Coords, EltTy.bits .f32 = 32 ∨ (Rect.block (s := S1000000x66) S5000x66.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S66x32.size a ≤ S66x32.size a
  hwx4_1 : ∀ i : grid4.Coords, EltTy.bits .f32 = 32 ∨ (Rect.block (s := S66x32) S66x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S1000000x1.size a
  hwx4_5 : ∀ i : grid4.Coords, EltTy.bits .f32 = 32 ∨ (Rect.block (s := S1000000x1) S5000x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x1.size a ≤ S32x1.size a
  hwx5_3 : ∀ i : grid5.Coords, EltTy.bits .f32 = 32 ∨ (Rect.block (s := S32x1) S32x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .f32 = 32 ∨ (Rect.block (s := S50000x1) S5000x1.size (cc5_transform_5 i) (hinb5_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S5000x66_S66x32_S5000x32_1_0_0_1_n_n : DotDims S5000x66 S66x32 S5000x32 where
  lhsContracting := [1]
  rhsContracting := [0]
  lhsNonContracting := [0]
  rhsNonContracting := [1]
  lhsBatch := []
  rhsBatch := []
  wf := dot_S5000x66_S66x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S5000x66.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S66x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v84) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S32x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S1000000 : Shape := ⟨1, ![1000000]⟩
abbrev S1000000x2 : Shape := ⟨2, ![1000000, 2]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S66x32 : Shape := ⟨2, ![66, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S1000000x1 : Shape := ⟨2, ![1000000, 1]⟩
abbrev S1000000x32 : Shape := ⟨2, ![1000000, 32]⟩
abbrev S1000000x66 : Shape := ⟨2, ![1000000, 66]⟩
abbrev S1x1 : Shape := ⟨2, ![1, 1]⟩
abbrev S50000x1 : Shape := ⟨2, ![50000, 1]⟩
abbrev S50000x32 : Shape := ⟨2, ![50000, 32]⟩

abbrev nBuf : Space → Nat
  | .hbm => 188
  | .vmem => 0
  | .smem => 0
  | _ => 0

abbrev hbmTy0_0 (i : Nat) : BufTy := match i % 128 with
  | 0 => ⟨S100000x128, .f32⟩
  | 1 => ⟨S2x3200000, .i32⟩
  | 2 => ⟨S1000000, .i32⟩
  | 3 => ⟨S1000000, .i32⟩
  | 4 => ⟨S1000000x2, .f32⟩
  | 5 => ⟨S50000, .i32⟩
  | 6 => ⟨S128x32, .f32⟩
  | 7 => ⟨S32, .f32⟩
  | 8 => ⟨S32x32, .f32⟩
  | 9 => ⟨S32, .f32⟩
  | 10 => ⟨S66x32, .f32⟩
  | 11 => ⟨S32, .f32⟩
  | 12 => ⟨S32x1, .f32⟩
  | 13 => ⟨S1, .f32⟩
  | 14 => ⟨S32x32, .f32⟩
  | 15 => ⟨S32, .f32⟩
  | 16 => ⟨S32x1, .f32⟩
  | 17 => ⟨S1, .f32⟩
  | 18 => ⟨S1x3200000, .i32⟩
  | 19 => ⟨S3200000, .i32⟩
  | 20 => ⟨S1x3200000, .i32⟩
  | 21 => ⟨S3200000, .i32⟩
  | 22 => ⟨S100000x32, .f32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x32, .f32⟩
  | 61 => ⟨S3200000x1, .f32⟩
  | 62 => ⟨S3200000x32, .f32⟩
  | 63 => ⟨S3200000x32, .f32⟩
  | 64 => ⟨S_, .f32⟩
  | 65 => ⟨S100000x32, .f32⟩
  | 66 => ⟨S3200000x1, .i32⟩
  | 67 => ⟨S100000x32, .f32⟩
  | 68 => ⟨S100000, .f32⟩
  | 69 => ⟨S100000x1, .f32⟩
  | 70 => ⟨S100000x32, .f32⟩
  | 71 => ⟨S100000x32, .f32⟩
  | 72 => ⟨S100000x32, .f32⟩
  | 73 => ⟨S1x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S100000x32, .f32⟩
  | 80 => ⟨S_, .f32⟩
  | 81 => ⟨S3200000, .f32⟩
  | 82 => ⟨S_, .f32⟩
  | 83 => ⟨S100000, .f32⟩
  | 84 => ⟨S3200000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000, .f32⟩
  | 108 => ⟨S3200000, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x32, .f32⟩
  | 118 => ⟨S3200000x1, .f32⟩
  | 119 => ⟨S3200000x32, .f32⟩
  | 120 => ⟨S3200000x32, .f32⟩
  | 121 => ⟨S_, .f32⟩
  | 122 => ⟨S100000x32, .f32⟩
  | 123 => ⟨S3200000x1, .i32⟩
  | 124 => ⟨S100000x32, .f32⟩
  | 125 => ⟨S100000, .f32⟩
  | 126 => ⟨S100000x1, .f32⟩
  | 127 => ⟨S100000x32, .f32⟩
  | _ => ⟨S100000x128, .f32⟩

abbrev hbmTy0_1 (i : Nat) : BufTy := match i % 128 with
  | 0 => ⟨S100000x32, .f32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x32, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x32, .f32⟩
  | 26 => ⟨S1000000x66, .f32⟩
  | 27 => ⟨S1000000x32, .f32⟩
  | 28 => ⟨S1x32, .f32⟩
  | 29 => ⟨S1000000x32, .f32⟩
  | 30 => ⟨S1000000x32, .f32⟩
  | 31 => ⟨S_, .f32⟩
  | 32 => ⟨S1000000x32, .f32⟩
  | 33 => ⟨S1000000x32, .f32⟩
  | 34 => ⟨S1000000x1, .f32⟩
  | 35 => ⟨S1x1, .f32⟩
  | 36 => ⟨S1000000x1, .f32⟩
  | 37 => ⟨S1000000x1, .f32⟩
  | 38 => ⟨S1000000, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x32, .f32⟩
  | 48 => ⟨S50000x32, .f32⟩
  | 49 => ⟨S1x32, .f32⟩
  | 50 => ⟨S50000x32, .f32⟩
  | 51 => ⟨S50000x32, .f32⟩
  | 52 => ⟨S_, .f32⟩
  | 53 => ⟨S50000x32, .f32⟩
  | 54 => ⟨S50000x32, .f32⟩
  | 55 => ⟨S50000x1, .f32⟩
  | 56 => ⟨S1x1, .f32⟩
  | 57 => ⟨S50000x1, .f32⟩
  | 58 => ⟨S50000x1, .f32⟩
  | 59 => ⟨S50000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call1_cst : Ref sig .tc := ⟨.hbm, 133, rfl⟩
abbrev main_call1_v0 : Ref sig .tc := ⟨.hbm, 134, rfl⟩
abbrev main_v93 : Ref sig .tc := ⟨.hbm, 135, rfl⟩
abbrev main_c_18 : Ref sig .tc := ⟨.hbm, 136, rfl⟩
abbrev main_v94 : Ref sig .tc := ⟨.hbm, 137, rfl⟩
abbrev main_v95 : Ref sig .tc := ⟨.hbm, 138, rfl⟩
abbrev main_c_19 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_20 : Ref sig .tc := ⟨.hbm, 145, rfl⟩
abbrev main_v101 : Ref sig .tc := ⟨.hbm, 146, rfl⟩
abbrev main_v102 : Ref sig .tc := ⟨.hbm, 147, rfl⟩
abbrev main_c_21 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call2_cst : Ref sig .tc := ⟨.hbm, 159, rfl⟩
abbrev main_call2_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_22 : Ref sig .tc := ⟨.hbm, 167, rfl⟩
abbrev main_v119 : Ref sig .tc := ⟨.hbm, 168, rfl⟩
abbrev main_v120 : Ref sig .tc := ⟨.hbm, 169, rfl⟩
abbrev main_c_23 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_call3_cst : Ref sig .tc := ⟨.hbm, 180, rfl⟩
abbrev main_call3_v0 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x32_S1000000x32_S1000000x2_S1000000x66_d1 : Shape.Concatenates [S1000000x32, S1000000x32, S1000000x2] S1000000x66 1
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  bcast_S_S50000 : S_.BroadcastsInDim S50000 (![] : Fin 0 → Fin S50000.rank)
  bcast_S50000_S50000x1_0 : S50000.BroadcastsInDim S50000x1 (![0] : Fin 1 → Fin S50000x1.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1x1_S50000x1_0_1 : S1x1.BroadcastsInDim S50000x1 (![0, 1] : Fin 2 → Fin S50000x1.rank)
  shapeCasts_S50000x1_S50000 : S50000x1.ShapeCasts S50000
  dot_S100000x128_S128x32_S100000x32_1_0_0_1_n_n_wf : DotDims.WF S100000x128 S128x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  gather_S100000x32_S1000000x1_S1000000x32_1_0_n_n_0_1_132_wf : GatherDims.WF S100000x32 S1000000x1 S1000000x32 [1] [0] [] [0] [] 1 ![1, 32]
  dot_S1000000x66_S66x32_S1000000x32_1_0_0_1_n_n_wf : DotDims.WF S1000000x66 S66x32 S1000000x32 [1] [0] [0] [1] [] []
  dot_S1000000x32_S32x1_S1000000x1_1_0_0_1_n_n_wf : DotDims.WF S1000000x32 S32x1 S1000000x1 [1] [0] [0] [1] [] []
  gather_S100000x32_S50000x1_S50000x32_1_0_n_n_0_1_132_wf : GatherDims.WF S100000x32 S50000x1 S50000x32 [1] [0] [] [0] [] 1 ![1, 32]
  dot_S50000x32_S32x32_S50000x32_1_0_0_1_n_n_wf : DotDims.WF S50000x32 S32x32 S50000x32 [1] [0] [0] [1] [] []
  dot_S50000x32_S32x1_S50000x1_1_0_0_1_n_n_wf : DotDims.WF S50000x32 S32x1 S50000x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S1000000x66_S66x32_S1000000x32_1_0_0_1_n_n : DotDims S1000000x66 S66x32 S1000000x32 where
  lhsContracting := [1]
  rhsContracting := [0]
  lhsNonContracting := [0]
  rhsNonContracting := [1]
  lhsBatch := []
  rhsBatch := []
  wf := dot_S1000000x66_S66x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.K.Body0.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the matrix product's body, at the buffer contents found on entry

The region multiplies a block of rows of its first operand by its whole second operand and writes the
product block. Everything below is stated at a parameter `V`, the contents of the core's buffers when the
region is entered. At each grid point the two input staging buffers hold the operands' blocks read off `V`
(the second operand's block is the same at every point: it is moved in once and stays), and the body leaves
in the output staging buffer the product of those two blocks, whatever that buffer held before.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's rectangle at that point read off its array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point. This is true of any proof data whose
    array for the window is `V`'s and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds its block at every point, although it is moved in at the first
    point only: its block index never changes, so what was moved in at the first point is the block at every
    later one. Again for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output buffer -/

/-- The output staging buffer after the body, as a function of the two input blocks: the one store, of the
    product of what the two loads read, laid over the buffer. -/
def out0_2 (x0 : Vec F S10000x128 .f32) (x1 : Vec F S128x32 .f32) : Vec F S10000x32 .f32 :=
  View.canon [⟨r0_2, k0_pay1 (View.ld x0 r0_0) (View.ld x1 r0_1)⟩]

/-- The one store covers the whole output buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The body, run on whole staging buffers of which the two inputs read `x0` and `x1` and the output holds
    anything, reaches its continuation with the inputs unchanged and the output at `out0_2 x0 x1`. The body
    reads the output buffer once before it stores into it; the value read is not used. -/
theorem sound_kernel0 (c : Dev nD) (E : Set ℕ) (i : grid0.Coords) (arg1 : Memref sig .tc .vmem S10000x128 .f32) (harg1 : arg1.IsWhole) (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core `c`: the arrays are `V`'s; after the body at point `t` each input buffer holds its
    block and the output buffer holds `out0_2` of the two input blocks; the invariant is that the rest of the
    core's scoped memory and its generator register are untouched; nothing is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is given at point `t`: the invariant, what is owed, and each window's current staging buffer
    at what the proof data say it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it gives back: the same with each buffer at what the proof data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant
    and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the combine-and-rectify body, at arbitrary entry contents

The region's grid has ten points. Five windows: inputs 0, 1, 2 (blocks of ten thousand rows), input 3
(one row of thirty-two, the same block at every point), output 4 (a block of ten thousand rows).
At entry contents `V` the body at a point maps the four input blocks to
`max (x0 + x1 * x2 + x3) 0` (the third operand spread along the columns, the fourth along the rows)
and leaves the input buffers as it found them.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's array at the entry contents, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data whose array is the entry contents and whose body leaves the
    block in place, the current buffer holds the block at every point, whether the point fetches it
    or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data whose array is the entry contents and whose body leaves the
    block in place, the current buffer holds the block at every point, whether the point fetches it
    or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data whose array is the entry contents and whose body leaves the
    block in place, the current buffer holds the block at every point, whether the point fetches it
    or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data whose array is the entry contents and whose body leaves the
    block in place, the current buffer holds the block at every point, whether the point fetches it
    or not (this window is fetched at the first point only; its block index never moves). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_0 : Rect S10000x32 := Rect.unit (s := S10000x32) ![0, 0] S10000x32.size inb_S10000x32_S10000x32_0_0
abbrev r1_1 : Rect S10000x1 := Rect.unit (s := S10000x1) ![0, 0] S10000x1.size inb_S10000x1_S10000x1_0_0
abbrev r1_2 : Rect S1x32 := Rect.unit (s := S1x32) ![0, 0] S1x32.size inb_S1x32_S1x32_0_0

/-! ## What the body leaves in the output buffer -/

/-- The output buffer after the body, as a function of the four input blocks: one store of the whole
    buffer, its payload the rectified combination of the four loads. -/
def out1_4 (x0 : Vec F S10000x32 .f32) (x1 : Vec F S10000x32 .f32) (x2 : Vec F S10000x1 .f32) (x3 : Vec F S1x32 .f32) : Vec F S10000x32 .f32 :=
  View.canon [⟨r1_0, k1_pay1 (View.ld x0 r1_0) (View.ld x1 r1_0) (View.ld x2 r1_1) (View.ld x3 r1_2)⟩]

/-- The one store is the whole buffer, so it covers every index. -/
theorem cover1_4 (p0 : Vec F S10000x32 .f32) (y : S10000x32.Idx) :
    ∃ pc ∈ ([⟨r1_0, p0⟩] : List (View.Piece (Elt F) S10000x32 .f32)), y ∈ pc.1.set :=
  View.cover_of_tiled [⟨r1_0, p0⟩] S10000x32.size (by rfl) y

/-! ## The triple of the body -/

set_option maxHeartbeats 1000000 in
/-- On whole buffers, the four inputs holding `x0 … x3` and the output holding anything, the body runs to
    a state where the inputs are unchanged and the output holds `out1_4 x0 x1 x2 x3`. The body reads
    the output buffer once before it stores; the value read is not used. -/
theorem sound_kernel1 (c : Dev nD) (E : Set ℕ) (i : grid1.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S1x32 .f32) (harg4 : arg4.IsWhole) (arg5 : Memref sig .tc .vmem S10000x32 .f32) (harg5 : arg5.IsWhole)
    (x0 : Vec F S10000x32 .f32) (x1 : Vec F S10000x32 .f32) (x2 : Vec F S10000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_relu_kernel i arg1 harg1 arg2 harg2 arg3 harg3 arg4 harg4 arg5 harg5) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the region -/

/-- The proof data on core `c`: the arrays at the entry contents; after the body at point `t` each
    input buffer at its block and the output buffer at `out1_4` of the input blocks; the invariant
    that of a body touching only its windows; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple of the body applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the matrix product's body, at the buffer contents found on entry

The region multiplies a block of rows of its first operand by its whole second operand and writes the
product block. Everything below is stated at a parameter `V`, the contents of the core's buffers when the
region is entered. At each grid point the two input staging buffers hold the operands' blocks read off `V`
(the second operand's block is the same at every point: it is moved in once and stays), and the body leaves
in the output staging buffer the product of those two blocks, whatever that buffer held before.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's rectangle at that point read off its array in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point. This is true of any proof data whose
    array for the window is `V`'s and whose body leaves the block where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's staging buffer holds its block at every point, although it is moved in at the first
    point only: its block index never changes, so what was moved in at the first point is the block at every
    later one. Again for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is the whole of its buffer -/

abbrev r2_0 : Rect S10000x32 := Rect.unit (s := S10000x32) ![0, 0] S10000x32.size inb_S10000x32_S10000x32_0_0
abbrev r2_1 : Rect S32x32 := Rect.unit (s := S32x32) ![0, 0] S32x32.size inb_S32x32_S32x32_0_0
abbrev r2_2 : Rect S10000x32 := Rect.unit (s := S10000x32) ![0, 0] S10000x32.size inb_S10000x32_S10000x32_0_0

/-! ## What the body leaves in the output buffer -/

/-- The output staging buffer after the body, as a function of the two input blocks: the one store, of the
    product of what the two loads read, laid over the buffer. -/
def out2_2 (x0 : Vec F S10000x32 .f32) (x1 : Vec F S32x32 .f32) : Vec F S10000x32 .f32 :=
  View.canon [⟨r2_2, k2_pay1 (View.ld x0 r2_0) (View.ld x1 r2_1)⟩]

/-- The one store covers the whole output buffer. -/
theorem cover2_2 (p0 : Vec F S10000x32 .f32) (y : S10000x32.Idx) :
    ∃ pc ∈ ([⟨r2_2, p0⟩] : List (View.Piece (Elt F) S10000x32 .f32)), y ∈ pc.1.set :=
  View.cover_of_tiled [⟨r2_2, p0⟩] S10000x32.size (by rfl) y

/-! ## The body's triple -/

set_option maxHeartbeats 1000000 in
/-- The body, run on whole staging buffers of which the two inputs read `x0` and `x1` and the output holds
    anything, reaches its continuation with the inputs unchanged and the output at `out2_2 x0 x1`. The body
    reads the output buffer once before it stores into it; the value read is not used. -/
theorem sound_kernel2 (c : Dev nD) (E : Set ℕ) (i : grid2.Coords) (arg1 : Memref sig .tc .vmem S10000x32 .f32) (harg1 : arg1.IsWhole) (arg2 : Memref sig .tc .vmem S32x32 .f32) (harg2 : arg2.IsWhole) (arg3 : Memref sig .tc .vmem S10000x32 .f32) (harg3 : arg3.IsWhole)
    (x0 : Vec F S10000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data on core `c`: the arrays are `V`'s; after the body at point `t` each input buffer holds its
    block and the output buffer holds `out2_2` of the two input blocks; the invariant is that the rest of the
    core's scoped memory and its generator register are untouched; nothing is owed; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the body is given at point `t`: the invariant, what is owed, and each window's current staging buffer
    at what the proof data say it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it gives back: the same with each buffer at what the proof data say it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant
    and what is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the combine-and-rectify body, at arbitrary entry contents

The region's grid has ten points. Five windows: inputs 0, 1, 2 (blocks of ten thousand rows), input 3
(one row of thirty-two, the same block at every point), output 4 (a block of ten thousand rows).
At entry contents `V` the body at a point maps the four input blocks to
`max (x0 + x1 * x2 + x3) 0` (the third operand spread along the columns, the fourth along the rows)
and leaves the input buffers as it found them.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's array at the entry contents, read through the
    block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data whose array is the entry contents and whose body leaves the
    block in place, the current buffer holds the block at every point, whether the point fetches it
    or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data whose array is the entry contents and whose body leaves the
    block in place, the current buffer holds the block at every point, whether the point fetches it
    or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: for any proof data whose array is the entry contents and whose body leaves the
    block in place, the current buffer holds the block at every point, whether the point fetches it
    or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: for any proof data whose array is the entry contents and whose body leaves the
    block in place, the current buffer holds the block at every point, whether the point fetches it
    or not (this window is fetched at the first point only; its block index never moves). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0

/-! ## What the body leaves in the output buffer -/

/-- The output buffer after the body, as a function of the four input blocks: one store of the whole
    buffer, its payload the rectified combination of the four loads. -/
def out3_4 (x0 : Vec F S10000x32 .f32) (x1 : Vec F S10000x32 .f32) (x2 : Vec F S10000x1 .f32) (x3 : Vec F S1x32 .f32) : Vec F S10000x32 .f32 :=
  View.canon [⟨r3_0, k3_pay1 (View.ld x0 r3_0) (View.ld x1 r3_0) (View.ld x2 r3_1) (View.ld x3 r3_2)⟩]

/-- The one store is the whole buffer, so it covers every index. -/
theorem cover3_4 (p0 : Vec F S10000x32 .f32) (y : S10000x32.Idx) :
    ∃ pc ∈ ([⟨r3_0, p0⟩] : List (View.Piece (Elt F) S10000x32 .f32)), y ∈ pc.1.set :=
  View.cover_of_tiled [⟨r3_0, p0⟩] S10000x32.size (by rfl) y

/-! ## The triple of the body -/

set_option maxHeartbeats 1000000 in
/-- On whole buffers, the four inputs holding `x0 … x3` and the output holding anything, the body runs to
    a state where the inputs are unchanged and the output holds `out3_4 x0 x1 x2 x3`. The body reads
    the output buffer once before it stores; the value read is not used. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S1x32 .f32) (harg4 : arg4.IsWhole) (arg5 : Memref sig .tc .vmem S10000x32 .f32) (harg5 : arg5.IsWhole)
    (x0 : Vec F S10000x32 .f32) (x1 : Vec F S10000x32 .f32) (x2 : Vec F S10000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_relu_kernel i arg1 harg1 arg2 harg2 arg3 harg3 arg4 harg4 arg5 harg5) K := by
  simp only [cc3__combine_relu_kernel_eq_skeleton]; unfold cc3__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the region -/

/-- The proof data on core `c`: the arrays at the entry contents; after the body at point `t` each
    input buffer at its block and the output buffer at `out3_4` of the input blocks; the invariant
    that of a body touching only its windows; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the triple of the body applies; the
    invariant and what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Body4.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the two-layer perceptron kernel on a grid of 200 points

Six windows: inputs 0..4 (the row block, the first layer's weights and bias, the second layer's weights and bias) and
output 5 (the row block's column of results). Everything is stated at a parameter `V`, the buffer contents when the
region is entered. Per point: each window's block, what the body leaves in the output's buffer as a function of the
input blocks, the body's triple, the proof data, and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched it
    there (an unfetched point has the block index of the point before it, and the body leaves the block in place), for
    any proof data whose array is `V`'s (`hA`) and whose body leaves the block in place (`hafter`). The window is
    uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not the pipeline fetched it
    there (an unfetched point has the block index of the point before it, and the body leaves the block in place), for
    any proof data whose array is `V`'s (`hA`) and whose body leaves the block in place (`hafter`). The window is
    uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether or not the pipeline fetched it
    there (an unfetched point has the block index of the point before it, and the body leaves the block in place), for
    any proof data whose array is `V`'s (`hA`) and whose body leaves the block in place (`hafter`). The window is
    uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether or not the pipeline fetched it
    there (an unfetched point has the block index of the point before it, and the body leaves the block in place), for
    any proof data whose array is `V`'s (`hA`) and whose body leaves the block in place (`hafter`). The window is
    uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether or not the pipeline fetched it
    there (an unfetched point has the block index of the point before it, and the body leaves the block in place), for
    any proof data whose array is `V`'s (`hA`) and whose body leaves the block in place (`hafter`). The window is
    uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read, and the output written, whole -/

abbrev r4_0 : Rect S5000x66 := Rect.unit (s := S5000x66) ![0, 0] S5000x66.size inb_S5000x66_S5000x66_0_0
abbrev r4_1 : Rect S66x32 := Rect.unit (s := S66x32) ![0, 0] S66x32.size inb_S66x32_S66x32_0_0
abbrev r4_2 : Rect S1x32 := Rect.unit (s := S1x32) ![0, 0] S1x32.size inb_S1x32_S1x32_0_0
abbrev r4_3 : Rect S32x1 := Rect.unit (s := S32x1) ![0, 0] S32x1.size inb_S32x1_S32x1_0_0
abbrev r4_4 : Rect S1x1 := Rect.unit (s := S1x1) ![0, 0] S1x1.size inb_S1x1_S1x1_0_0
abbrev r4_5 : Rect S5000x1 := Rect.unit (s := S5000x1) ![0, 0] S5000x1.size inb_S5000x1_S5000x1_0_0

/-! ## What the body leaves in the output window's buffer -/

/-- Window 5's staging buffer after the body, from the input windows' blocks: its one store, of the value computed
    from the five blocks read. -/
def out4_5 (x0 : Vec F S5000x66 .f32) (x1 : Vec F S66x32 .f32) (x2 : Vec F S1x32 .f32) (x3 : Vec F S32x1 .f32) (x4 : Vec F S1x1 .f32) : Vec F S5000x1 .f32 :=
  View.canon [⟨r4_5, k4_pay1 (View.ld x0 r4_0) (View.ld x1 r4_1) (View.ld x2 r4_2) (View.ld x3 r4_3) (View.ld x4 r4_4)⟩]

/-- The one store is of the whole buffer, so it covers it. -/
theorem cover4_5 (p0 : Vec F S5000x1 .f32) (y : S5000x1.Idx) :
    ∃ pc ∈ ([⟨r4_5, p0⟩] : List (View.Piece (Elt F) S5000x1 .f32)), y ∈ pc.1.set :=
  View.cover_of_tiled [⟨r4_5, p0⟩] S5000x1.size (by rfl) y

/-! ## The body's triple -/

set_option maxHeartbeats 1000000 in
/-- The kernel body on whole staging memrefs, the inputs' at read contents `xW` and the output's at anything, runs to
    the continuation holding the inputs' as they were and the output's at `out4_5` of the inputs'. The body reads
    the output's buffer once before the store; the value read is not used. -/
theorem sound_kernel4 (c : Dev nD) (E : Set ℕ) (i : grid4.Coords) (arg1 : Memref sig .tc .vmem S5000x66 .f32) (harg1 : arg1.IsWhole) (arg2 : Memref sig .tc .vmem S66x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x66 .f32) (x1 : Vec F S66x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp2_kernel i arg1 harg1 arg2 harg2 arg3 harg3 arg4 harg4 arg5 harg5 arg6 harg6) K := by
  simp only [cc4__mlp2_kernel_eq_skeleton]; unfold cc4__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point
    `t` each input's buffer at its block and the output's at `out4_5` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Body5.lean ====
import proofs.«178605_j21560735825958_2_alg».proof.Proof.Gen.Kernel.Launch
import proofs.«178605_j21560735825958_2_alg».proof.Proof.Gen.Kernel.Skeleton
import proofs.«178605_j21560735825958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the two-layer perceptron kernel on a grid of 10 points

Six windows: inputs 0..4 (the row block, the first layer's weights and bias, the second layer's weights and bias) and
output 5 (the row block's column of results). Everything is stated at a parameter `V`, the buffer contents when the
region is entered. Per point: each window's block, what the body leaves in the output's buffer as a function of the
input blocks, the body's triple, the proof data, and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there (an unfetched point has the block index of the point before it, and the body leaves the block in place), for
    any proof data whose array is `V`'s (`hA`) and whose body leaves the block in place (`hafter`). The window is
    uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there (an unfetched point has the block index of the point before it, and the body leaves the block in place), for
    any proof data whose array is `V`'s (`hA`) and whose body leaves the block in place (`hafter`). The window is
    uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there (an unfetched point has the block index of the point before it, and the body leaves the block in place), for
    any proof data whose array is `V`'s (`hA`) and whose body leaves the block in place (`hafter`). The window is
    uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there (an unfetched point has the block index of the point before it, and the body leaves the block in place), for
    any proof data whose array is `V`'s (`hA`) and whose body leaves the block in place (`hafter`). The window is
    uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there (an unfetched point has the block index of the point before it, and the body leaves the block in place), for
    any proof data whose array is `V`'s (`hA`) and whose body leaves the block in place (`hafter`). The window is
    uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S5000x32 := Rect.unit (s := S5000x32) ![0, 0] S5000x32.size inb_S5000x32_S5000x32_0_0
abbrev r5_1 : Rect S32x32 := Rect.unit (s := S32x32) ![0, 0] S32x32.size inb_S32x32_S32x32_0_0
abbrev r5_2 : Rect S1x32 := Rect.unit (s := S1x32) ![0, 0] S1x32.size inb_S1x32_S1x32_0_0
abbrev r5_3 : Rect S32x1 := Rect.unit (s := S32x1) ![0, 0] S32x1.size inb_S32x1_S32x1_0_0
abbrev r5_4 : Rect S1x1 := Rect.unit (s := S1x1) ![0, 0] S1x1.size inb_S1x1_S1x1_0_0
abbrev r5_5 : Rect S5000x1 := Rect.unit (s := S5000x1) ![0, 0] S5000x1.size inb_S5000x1_S5000x1_0_0

/-! ## What the body leaves in the output window's buffer -/

/-- Window 5's staging buffer after the body, from the input windows' blocks: its one store, of the value computed
    from the five blocks read. -/
def out5_5 (x0 : Vec F S5000x32 .f32) (x1 : Vec F S32x32 .f32) (x2 : Vec F S1x32 .f32) (x3 : Vec F S32x1 .f32) (x4 : Vec F S1x1 .f32) : Vec F S5000x1 .f32 :=
  View.canon [⟨r5_5, k5_pay1 (View.ld x0 r5_0) (View.ld x1 r5_1) (View.ld x2 r5_2) (View.ld x3 r5_3) (View.ld x4 r5_4)⟩]

/-- The one store is of the whole buffer, so it covers it. -/
theorem cover5_5 (p0 : Vec F S5000x1 .f32) (y : S5000x1.Idx) :
    ∃ pc ∈ ([⟨r5_5, p0⟩] : List (View.Piece (Elt F) S5000x1 .f32)), y ∈ pc.1.set :=
  View.cover_of_tiled [⟨r5_5, p0⟩] S5000x1.size (by rfl) y

/-! ## The body's triple -/

set_option maxHeartbeats 1000000 in
/-- The kernel body on whole staging memrefs, the inputs' at read contents `xW` and the output's at anything, runs to
    the continuation holding the inputs' as they were and the output's at `out5_5` of the inputs'. The body reads
    the output's buffer once before the store; the value read is not used. -/
theorem sound_kernel5 (c : Dev nD) (E : Set ℕ) (i : grid5.Coords) (arg1 : Memref sig .tc .vmem S5000x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x32 .f32) (x1 : Vec F S32x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp2_kernel i arg1 harg1 arg2 harg2 arg3 harg3 arg4 harg4 arg5 harg5 arg6 harg6) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Run.lean ====
/-
  The run of @main as twelve items — seven stretches of host operations and six kernel regions — from the launch
  memory to the return: the contents of the TensorCore's buffers at every boundary between two items (a stretch
  applies its operations to the contents before it; a region changes exactly one array, its result, to what its
  write-backs leave and keeps every other buffer), each region entered by splitting its arrays out of the buffers
  and left by putting them back, and the final memory read against the last boundary's contents. Every weakly fair
  execution terminates and ends with each buffer at the last boundary's contents; no item writes an argument array.
-/
import proofs.«178605_j21560735825958_2_alg».proof.Proof.K.Body0
import proofs.«178605_j21560735825958_2_alg».proof.Proof.K.Body1
import proofs.«178605_j21560735825958_2_alg».proof.Proof.K.Body2
import proofs.«178605_j21560735825958_2_alg».proof.Proof.K.Body3
import proofs.«178605_j21560735825958_2_alg».proof.Proof.K.Body4
import proofs.«178605_j21560735825958_2_alg».proof.Proof.K.Body5
import proofs.«178605_j21560735825958_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A boundary's contents read at the TensorCore's references (what a region's proof data take). -/
abbrev Vt (W : Dev nD → Valuation τ sig (Elt F)) : (c : Dev nD) → (b : Ref sig .tc) → Buf (Elt F) ((c : Thread nD τ).loc b) := fun c b => W c b

/-- At launch. -/
def B0 : Dev nD → Valuation τ sig (Elt F) := fun c b => m (c, b)
/-- After the first stretch: the first matmul's entry. -/
def B1 : Dev nD → Valuation τ sig (Elt F) := fun c => StableHlo.after hostOps0 (B0 m c)
/-- What the first matmul leaves in its result array. -/
def o2 (c : Dev nD) : Buf (Elt F) ((c : Thread nD τ).loc main_v29) := (dat0 (Vt (B1 m)) c).arrAt 2 cfg0.N
def B2 : Dev nD → Valuation τ sig (Elt F) := fun c => Function.update (B1 m c) main_v29 (o2 m c)
def B3 : Dev nD → Valuation τ sig (Elt F) := fun c => StableHlo.after hostOps1 (B2 m c)
/-- What the first combine leaves in its result array. -/
def o4 (c : Dev nD) : Buf (Elt F) ((c : Thread nD τ).loc main_v43) := (dat1 (Vt (B3 m)) c).arrAt 4 cfg1.N
def B4 : Dev nD → Valuation τ sig (Elt F) := fun c => Function.update (B3 m c) main_v43 (o4 m c)
/-- What the second matmul leaves in its result array. -/
def o5 (c : Dev nD) : Buf (Elt F) ((c : Thread nD τ).loc main_v44) := (dat2 (Vt (B4 m)) c).arrAt 2 cfg2.N
def B5 : Dev nD → Valuation τ sig (Elt F) := fun c => Function.update (B4 m c) main_v44 (o5 m c)
def B6 : Dev nD → Valuation τ sig (Elt F) := fun c => StableHlo.after hostOps3 (B5 m c)
/-- What the second combine leaves in its result array. -/
def o7 (c : Dev nD) : Buf (Elt F) ((c : Thread nD τ).loc main_v58) := (dat3 (Vt (B6 m)) c).arrAt 4 cfg3.N
def B7 : Dev nD → Valuation τ sig (Elt F) := fun c => Function.update (B6 m c) main_v58 (o7 m c)
def B8 : Dev nD → Valuation τ sig (Elt F) := fun c => StableHlo.after hostOps4 (B7 m c)
/-- What the edge head leaves in its result array. -/
def o9 (c : Dev nD) : Buf (Elt F) ((c : Thread nD τ).loc main_v76) := (dat4 (Vt (B8 m)) c).arrAt 5 cfg4.N
def B9 : Dev nD → Valuation τ sig (Elt F) := fun c => Function.update (B8 m c) main_v76 (o9 m c)
def B10 : Dev nD → Valuation τ sig (Elt F) := fun c => StableHlo.after hostOps5 (B9 m c)
/-- What the gene head leaves in its result array. -/
def o11 (c : Dev nD) : Buf (Elt F) ((c : Thread nD τ).loc main_v87) := (dat5 (Vt (B10 m)) c).arrAt 5 cfg5.N
def B11 : Dev nD → Valuation τ sig (Elt F) := fun c => Function.update (B10 m c) main_v87 (o11 m c)
def B12 : Dev nD → Valuation τ sig (Elt F) := fun c => StableHlo.after hostOps6 (B11 m c)

/-- Region 0 changes no buffer but its result array, -/
theorem B2_ne (c : Dev nD) (b : Ref sig .tc) (h : b ≠ main_v29) : B2 m c b = B1 m c b := by
  unfold B2; exact Function.update_of_ne (StableHlo.devRef_ne_of_ne h) _ _
/-- which it leaves at its write-backs' fold. -/
theorem B2_self (c : Dev nD) : B2 m c main_v29 = o2 m c := by
  unfold B2; simp only [Function.update_self]
/-- Region 1 changes no buffer but its result array, -/
theorem B4_ne (c : Dev nD) (b : Ref sig .tc) (h : b ≠ main_v43) : B4 m c b = B3 m c b := by
  unfold B4; exact Function.update_of_ne (StableHlo.devRef_ne_of_ne h) _ _
/-- which it leaves at its write-backs' fold. -/
theorem B4_self (c : Dev nD) : B4 m c main_v43 = o4 m c := by
  unfold B4; simp only [Function.update_self]
/-- Region 2 changes no buffer but its result array, -/
theorem B5_ne (c : Dev nD) (b : Ref sig .tc) (h : b ≠ main_v44) : B5 m c b = B4 m c b := by
  unfold B5; exact Function.update_of_ne (StableHlo.devRef_ne_of_ne h) _ _
/-- which it leaves at its write-backs' fold. -/
theorem B5_self (c : Dev nD) : B5 m c main_v44 = o5 m c := by
  unfold B5; simp only [Function.update_self]
/-- Region 3 changes no buffer but its result array, -/
theorem B7_ne (c : Dev nD) (b : Ref sig .tc) (h : b ≠ main_v58) : B7 m c b = B6 m c b := by
  unfold B7; exact Function.update_of_ne (StableHlo.devRef_ne_of_ne h) _ _
/-- which it leaves at its write-backs' fold. -/
theorem B7_self (c : Dev nD) : B7 m c main_v58 = o7 m c := by
  unfold B7; simp only [Function.update_self]
/-- Region 4 changes no buffer but its result array, -/
theorem B9_ne (c : Dev nD) (b : Ref sig .tc) (h : b ≠ main_v76) : B9 m c b = B8 m c b := by
  unfold B9; exact Function.update_of_ne (StableHlo.devRef_ne_of_ne h) _ _
/-- which it leaves at its write-backs' fold. -/
theorem B9_self (c : Dev nD) : B9 m c main_v76 = o9 m c := by
  unfold B9; simp only [Function.update_self]
/-- Region 5 changes no buffer but its result array, -/
theorem B11_ne (c : Dev nD) (b : Ref sig .tc) (h : b ≠ main_v87) : B11 m c b = B10 m c b := by
  unfold B11; exact Function.update_of_ne (StableHlo.devRef_ne_of_ne h) _ _
/-- which it leaves at its write-backs' fold. -/
theorem B11_self (c : Dev nD) : B11 m c main_v87 = o11 m c := by
  unfold B11; simp only [Function.update_self]

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vt (B1 m)) c
  | ⟨1, _⟩ => fun c => dat1 (Vt (B3 m)) c
  | ⟨2, _⟩ => fun c => dat2 (Vt (B4 m)) c
  | ⟨3, _⟩ => fun c => dat3 (Vt (B6 m)) c
  | ⟨4, _⟩ => fun c => dat4 (Vt (B8 m)) c
  | ⟨5, _⟩ => fun c => dat5 (Vt (B10 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

/-- Region 0's arrays after it: the inputs as entered, the result at its write-backs' fold — the exit contents. -/
theorem hF0 (c : Dev nD) (w : Fin cfg0.W) : (dat0 (Vt (B1 m)) c).arrAt w cfg0.N = Vt (B2 m) c (Pipeline.arrRef spec0 w) := by
  fin_cases w
  · exact ((dat0 (Vt (B1 m)) c).arrAt_in _ rfl _).trans ((A_eq0 (Vt (B1 m)) c _).trans (B2_ne m c _ (by decide)).symm)
  · exact ((dat0 (Vt (B1 m)) c).arrAt_in _ rfl _).trans ((A_eq0 (Vt (B1 m)) c _).trans (B2_ne m c _ (by decide)).symm)
  · exact (B2_self m c).symm
theorem hrest0 (c : Dev nD) : ∀ b, b ∉ Finset.univ.image (Pipeline.arrRef spec0) → Vt (B2 m) c b = Vt (B1 m) c b :=
  fun b hb => B2_ne m c b fun h => hb (h ▸ Finset.mem_image.mpr ⟨2, Finset.mem_univ _, rfl⟩)

set_option backward.isDefEq.respectTransparency.types false in
/-- Region 0 over the thread state: entered from every unscoped buffer at the contents before it, left at the
    contents after it; its arrays split out of the buffers and put back; the generator register passes through the
    region's invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (B1 m)) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vt (B1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt (B1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt (B1 m) c) (Vt (B2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it: the inputs as entered, the result at its write-backs' fold — the exit contents. -/
theorem hF1 (c : Dev nD) (w : Fin cfg1.W) : (dat1 (Vt (B3 m)) c).arrAt w cfg1.N = Vt (B4 m) c (Pipeline.arrRef spec1 w) := by
  fin_cases w
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact (B4_self m c).symm
theorem hrest1 (c : Dev nD) : ∀ b, b ∉ Finset.univ.image (Pipeline.arrRef spec1) → Vt (B4 m) c b = Vt (B3 m) c b :=
  fun b hb => B4_ne m c b fun h => hb (h ▸ Finset.mem_image.mpr ⟨4, Finset.mem_univ _, rfl⟩)

set_option backward.isDefEq.respectTransparency.types false in
/-- Region 1 over the thread state: entered from every unscoped buffer at the contents before it, left at the
    contents after it; its arrays split out of the buffers and put back; the generator register passes through the
    region's invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (B3 m)) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (Vt (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt (B3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt (B3 m) c) (Vt (B4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it: the inputs as entered, the result at its write-backs' fold — the exit contents. -/
theorem hF2 (c : Dev nD) (w : Fin cfg2.W) : (dat2 (Vt (B4 m)) c).arrAt w cfg2.N = Vt (B5 m) c (Pipeline.arrRef spec2 w) := by
  fin_cases w
  · exact ((dat2 (Vt (B4 m)) c).arrAt_in _ rfl _).trans ((A_eq2 (Vt (B4 m)) c _).trans (B5_ne m c _ (by decide)).symm)
  · exact ((dat2 (Vt (B4 m)) c).arrAt_in _ rfl _).trans ((A_eq2 (Vt (B4 m)) c _).trans (B5_ne m c _ (by decide)).symm)
  · exact (B5_self m c).symm
theorem hrest2 (c : Dev nD) : ∀ b, b ∉ Finset.univ.image (Pipeline.arrRef spec2) → Vt (B5 m) c b = Vt (B4 m) c b :=
  fun b hb => B5_ne m c b fun h => hb (h ▸ Finset.mem_image.mpr ⟨2, Finset.mem_univ _, rfl⟩)

set_option backward.isDefEq.respectTransparency.types false in
/-- Region 2 over the thread state: entered from every unscoped buffer at the contents before it, left at the
    contents after it; its arrays split out of the buffers and put back; the generator register passes through the
    region's invariant; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (B4 m)) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (Vt (B4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt (B4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt (B4 m) c) (Vt (B5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it: the inputs as entered, the result at its write-backs' fold — the exit contents. -/
theorem hF3 (c : Dev nD) (w : Fin cfg3.W) : (dat3 (Vt (B6 m)) c).arrAt w cfg3.N = Vt (B7 m) c (Pipeline.arrRef spec3 w) := by
  fin_cases w
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact (B7_self m c).symm
theorem hrest3 (c : Dev nD) : ∀ b, b ∉ Finset.univ.image (Pipeline.arrRef spec3) → Vt (B7 m) c b = Vt (B6 m) c b :=
  fun b hb => B7_ne m c b fun h => hb (h ▸ Finset.mem_image.mpr ⟨4, Finset.mem_univ _, rfl⟩)

set_option backward.isDefEq.respectTransparency.types false in
/-- Region 3 over the thread state: entered from every unscoped buffer at the contents before it, left at the
    contents after it; its arrays split out of the buffers and put back; the generator register passes through the
    region's invariant; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (B6 m)) c).loose
  hwaits := Pipeline.hwaits_of_owed_zero _ _ _ _ L lv 3 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec3 c (Vt (B6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt (B6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt (B6 m) c) (Vt (B7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4's arrays after it: the inputs as entered, the result at its write-backs' fold — the exit contents. -/
theorem hF4 (c : Dev nD) (w : Fin cfg4.W) : (dat4 (Vt (B8 m)) c).arrAt w cfg4.N = Vt (B9 m) c (Pipeline.arrRef spec4 w) := by
  fin_cases w
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact (B9_self m c).symm
theorem hrest4 (c : Dev nD) : ∀ b, b ∉ Finset.univ.image (Pipeline.arrRef spec4) → Vt (B9 m) c b = Vt (B8 m) c b :=
  fun b hb => B9_ne m c b fun h => hb (h ▸ Finset.mem_image.mpr ⟨5, Finset.mem_univ _, rfl⟩)

set_option backward.isDefEq.respectTransparency.types false in
/-- Region 4 over the thread state: entered from every unscoped buffer at the contents before it, left at the
    contents after it; its arrays split out of the buffers and put back; the generator register passes through the
    region's invariant; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (B8 m)) c).loose
  hwaits := Pipeline.hwaits_of_owed_zero _ _ _ _ L lv 4 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec4 c (Vt (B8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt (B8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt (B8 m) c) (Vt (B9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 5's arrays after it: the inputs as entered, the result at its write-backs' fold — the exit contents. -/
theorem hF5 (c : Dev nD) (w : Fin cfg5.W) : (dat5 (Vt (B10 m)) c).arrAt w cfg5.N = Vt (B11 m) c (Pipeline.arrRef spec5 w) := by
  fin_cases w
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact (B11_self m c).symm
theorem hrest5 (c : Dev nD) : ∀ b, b ∉ Finset.univ.image (Pipeline.arrRef spec5) → Vt (B11 m) c b = Vt (B10 m) c b :=
  fun b hb => B11_ne m c b fun h => hb (h ▸ Finset.mem_image.mpr ⟨5, Finset.mem_univ _, rfl⟩)

set_option backward.isDefEq.respectTransparency.types false in
/-- Region 5 over the thread state: entered from every unscoped buffer at the contents before it, left at the
    contents after it; its arrays split out of the buffers and put back; the generator register passes through the
    region's invariant; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (B10 m)) c).loose
  hwaits := Pipeline.hwaits_of_owed_zero _ _ _ _ L lv 5 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec5 c (Vt (B10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt (B10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt (B10 m) c) (Vt (B11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## No item writes an argument -/

/-- A reference that no stretch writes and that is no region's result holds its launch contents at the end. -/
theorem B12_of (c : Dev nD) (r : Ref sig .tc) (h0 : r ∉ hostOps0_W) (h1 : r ∉ hostOps1_W) (h3 : r ∉ hostOps3_W) (h4 : r ∉ hostOps4_W)
    (h5 : r ∉ hostOps5_W) (h6 : r ∉ hostOps6_W)
    (g2 : r ≠ main_v29) (g4 : r ≠ main_v43) (g5 : r ≠ main_v44) (g7 : r ≠ main_v58) (g9 : r ≠ main_v76) (g11 : r ≠ main_v87) :
    B12 m c r = m ((c : Thread nD τ).loc r) :=
  (StableHlo.after_of_writes_sub hostOps6 _ hostOps6_writes h6).trans <| (B11_ne m c r g11).trans <|
  (StableHlo.after_of_writes_sub hostOps5 _ hostOps5_writes h5).trans <| (B9_ne m c r g9).trans <|
  (StableHlo.after_of_writes_sub hostOps4 _ hostOps4_writes h4).trans <| (B7_ne m c r g7).trans <|
  (StableHlo.after_of_writes_sub hostOps3 _ hostOps3_writes h3).trans <| (B5_ne m c r g5).trans <| (B4_ne m c r g4).trans <|
  (StableHlo.after_of_writes_sub hostOps1 _ hostOps1_writes h1).trans <| (B2_ne m c r g2).trans <|
  (StableHlo.after_of_writes_sub hostOps0 _ hostOps0_writes h0).trans rfl

theorem B12_main_arg0 (c : Dev nD) : B12 m c main_arg0 = m ((c : Thread nD τ).loc main_arg0) :=
  B12_of m c main_arg0 (by decide) (by decide) (by decide) (by decide) (by decide) (by decide) (by decide) (by decide) (by decide) (by decide) (by decide) (by decide)
theorem B12_main_arg1 (c : Dev nD) : B12 m c main_arg1 = m ((c : Thread nD τ).loc main_arg1) :=
  B12_of m c main_arg1 (by decide) (by decide) (by decide) (by decide) (by decide) (by decide) (by decide) (by decide) (by decide) (by decide) (by decide) (by decide)
theorem B12_main_arg2 (c : Dev nD) : B12 m c main_arg2 = m ((c : Thread nD τ).loc main_arg2) :=
  B12_of m c main_arg2 (by decide) (by decide) (by decide) (by decide) (by decide) (by decide) (by decide) (by decide) (by decide) (by decide) (by decide) (by decide)
theorem B12_main_arg3 (c : Dev nD) : B12 m c main_arg3 = m ((c : Thread nD τ).loc main_arg3) :=
  B12_of m c main_arg3 (by decide) (by decide) (by decide) (by decide) (by decide) (by decide) (by decide) (by decide) (by decide) (by decide) (by decide) (by decide)
theorem B12_main_arg4 (c : Dev nD) : B12 m c main_arg4 = m ((c : Thread nD τ).loc main_arg4) :=
  B12_of m c main_arg4 (by decide) (by decide) (by decide) (by decide) (by decide) (by decide) (by decide) (by decide) (by decide) (by decide) (by decide) (by decide)
theorem B12_main_arg5 (c : Dev nD) : B12 m c main_arg5 = m ((c : Thread nD τ).loc main_arg5) :=
  B12_of m c main_arg5 (by decide) (by decide) (by decide) (by decide) (by decide) (by decide) (by decide) (by decide) (by decide) (by decide) (by decide) (by decide)
theorem B12_main_arg6 (c : Dev nD) : B12 m c main_arg6 = m ((c : Thread nD τ).loc main_arg6) :=
  B12_of m c main_arg6 (by decide) (by decide) (by decide) (by decide) (by decide) (by decide) (by decide) (by decide) (by decide) (by decide) (by decide) (by decide)
theorem B12_main_arg7 (c : Dev nD) : B12 m c main_arg7 = m ((c : Thread nD τ).loc main_arg7) :=
  B12_of m c main_arg7 (by decide) (by decide) (by decide) (by decide) (by decide) (by decide) (by decide) (by decide) (by decide) (by decide) (by decide) (by decide)
theorem B12_main_arg8 (c : Dev nD) : B12 m c main_arg8 = m ((c : Thread nD τ).loc main_arg8) :=
  B12_of m c main_arg8 (by decide) (by decide) (by decide) (by decide) (by decide) (by decide) (by decide) (by decide) (by decide) (by decide) (by decide) (by decide)
theorem B12_main_arg9 (c : Dev nD) : B12 m c main_arg9 = m ((c : Thread nD τ).loc main_arg9) :=
  B12_of m c main_arg9 (by decide) (by decide) (by decide) (by decide) (by decide) (by decide) (by decide) (by decide) (by decide) (by decide) (by decide) (by decide)
theorem B12_main_arg10 (c : Dev nD) : B12 m c main_arg10 = m ((c : Thread nD τ).loc main_arg10) :=
  B12_of m c main_arg10 (by decide) (by decide) (by decide) (by decide) (by decide) (by decide) (by decide) (by decide) (by decide) (by decide) (by decide) (by decide)
theorem B12_main_arg11 (c : Dev nD) : B12 m c main_arg11 = m ((c : Thread nD τ).loc main_arg11) :=
  B12_of m c main_arg11 (by decide) (by decide) (by decide) (by decide) (by decide) (by decide) (by decide) (by decide) (by decide) (by decide) (by decide) (by decide)
theorem B12_main_arg12 (c : Dev nD) : B12 m c main_arg12 = m ((c : Thread nD τ).loc main_arg12) :=
  B12_of m c main_arg12 (by decide) (by decide) (by decide) (by decide) (by decide) (by decide) (by decide) (by decide) (by decide) (by decide) (by decide) (by decide)
theorem B12_main_arg13 (c : Dev nD) : B12 m c main_arg13 = m ((c : Thread nD τ).loc main_arg13) :=
  B12_of m c main_arg13 (by decide) (by decide) (by decide) (by decide) (by decide) (by decide) (by decide) (by decide) (by decide) (by decide) (by decide) (by decide)
theorem B12_main_arg14 (c : Dev nD) : B12 m c main_arg14 = m ((c : Thread nD τ).loc main_arg14) :=
  B12_of m c main_arg14 (by decide) (by decide) (by decide) (by decide) (by decide) (by decide) (by decide) (by decide) (by decide) (by decide) (by decide) (by decide)
theorem B12_main_arg15 (c : Dev nD) : B12 m c main_arg15 = m ((c : Thread nD τ).loc main_arg15) :=
  B12_of m c main_arg15 (by decide) (by decide) (by decide) (by decide) (by decide) (by decide) (by decide) (by decide) (by decide) (by decide) (by decide) (by decide)
theorem B12_main_arg16 (c : Dev nD) : B12 m c main_arg16 = m ((c : Thread nD τ).loc main_arg16) :=
  B12_of m c main_arg16 (by decide) (by decide) (by decide) (by decide) (by decide) (by decide) (by decide) (by decide) (by decide) (by decide) (by decide) (by decide)
theorem B12_main_arg17 (c : Dev nD) : B12 m c main_arg17 = m ((c : Thread nD τ).loc main_arg17) :=
  B12_of m c main_arg17 (by decide) (by decide) (by decide) (by decide) (by decide) (by decide) (by decide) (by decide) (by decide) (by decide) (by decide) (by decide)

/-! ## @main as items, and the launch -/

/-- @main's twelve items in order. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m),
    .host (hseg hostOps3 hostOps3_sub hostOps3_fresh (B5 m)),
    .region (reg3 m),
    .host (hseg hostOps4 hostOps4_sub hostOps4_fresh (B7 m)),
    .region (reg4 m),
    .host (hseg hostOps5 hostOps5_sub hostOps5_fresh (B9 m)),
    .region (reg5 m),
    .host (hseg hostOps6 hostOps6_sub hostOps6_fresh (B11 m)) ]

/-- @main is the run of its items. -/
theorem main_run (c : Dev nD) : main (F := F) c = Pipeline.Seg.run (items m) := (main_chain c).trans (by chain_rfl)

set_option backward.isDefEq.respectTransparency.types false in
/-- THE RUN: from any memory with zero counters every weakly fair execution of @main on the TensorCores terminates,
    nothing faulting, and every final state has each unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B12 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (B12 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨Hh, HSI⟩
      unfold StableHlo.held
      imodintro
      iapply (pointsTo_read_all (Pipeline.ucRefs τ sig) (fun b => (((c : Thread nD τ)).1, b)) (B12 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (B12_main_arg0 m c),
    (h c _ (mem_uc main_arg1 (by decide))).trans (B12_main_arg1 m c),
    (h c _ (mem_uc main_arg2 (by decide))).trans (B12_main_arg2 m c),
    (h c _ (mem_uc main_arg3 (by decide))).trans (B12_main_arg3 m c),
    (h c _ (mem_uc main_arg4 (by decide))).trans (B12_main_arg4 m c),
    (h c _ (mem_uc main_arg5 (by decide))).trans (B12_main_arg5 m c),
    (h c _ (mem_uc main_arg6 (by decide))).trans (B12_main_arg6 m c),
    (h c _ (mem_uc main_arg7 (by decide))).trans (B12_main_arg7 m c),
    (h c _ (mem_uc main_arg8 (by decide))).trans (B12_main_arg8 m c),
    (h c _ (mem_uc main_arg9 (by decide))).trans (B12_main_arg9 m c),
    (h c _ (mem_uc main_arg10 (by decide))).trans (B12_main_arg10 m c),
    (h c _ (mem_uc main_arg11 (by decide))).trans (B12_main_arg11 m c),
    (h c _ (mem_uc main_arg12 (by decide))).trans (B12_main_arg12 m c),
    (h c _ (mem_uc main_arg13 (by decide))).trans (B12_main_arg13 m c),
    (h c _ (mem_uc main_arg14 (by decide))).trans (B12_main_arg14 m c),
    (h c _ (mem_uc main_arg15 (by decide))).trans (B12_main_arg15 m c),
    (h c _ (mem_uc main_arg16 (by decide))).trans (B12_main_arg16 m c),
    (h c _ (mem_uc main_arg17 (by decide))).trans (B12_main_arg17 m c)⟩) (run_main m ρ)

end Cert.Kernel.Fr

end
-- ==== Proof.KI.Body0.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the matrix product's body, at the buffer contents found on entry

The region multiplies a block of rows of its first operand by its whole second operand and writes the
product block. Everything below is stated at a parameter `V`, the contents of the core's buffers when the
region is entered. At each grid point the two input staging buffers hold the operands' blocks read off `V`
(the second operand's block is the same at every point: it is moved in once and stays), and the body leaves
in the output staging buffer the product of those two blocks, whatever that buffer held before.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's rectangle at that point read off its array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point. This is true of any proof data whose
    array for the window is `V`'s and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds its block at every point, although it is moved in at the first
    point only: its block index never changes, so what was moved in at the first point is the block at every
    later one. Again for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output buffer -/

/-- The output staging buffer after the body, as a function of the two input blocks: the one store, of the
    product of what the two loads read, laid over the buffer. -/
def out0_2 (x0 : Vec F S10000x128 .f32) (x1 : Vec F S128x32 .f32) : Vec F S10000x32 .f32 :=
  View.canon [⟨r0_2, k0_pay1 (View.ld x0 r0_0) (View.ld x1 r0_1)⟩]

/-- The one store covers the whole output buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The body, run on whole staging buffers of which the two inputs read `x0` and `x1` and the output holds
    anything, reaches its continuation with the inputs unchanged and the output at `out0_2 x0 x1`. The body
    reads the output buffer once before it stores into it; the value read is not used. -/
theorem sound_kernel0 (c : Dev nD) (E : Set ℕ) (i : grid0.Coords) (arg1 : Memref sig .tc .vmem S10000x128 .f32) (harg1 : arg1.IsWhole) (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core `c`: the arrays are `V`'s; after the body at point `t` each input buffer holds its
    block and the output buffer holds `out0_2` of the two input blocks; the invariant is that the rest of the
    core's scoped memory and its generator register are untouched; nothing is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is given at point `t`: the invariant, what is owed, and each window's current staging buffer
    at what the proof data say it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it gives back: the same with each buffer at what the proof data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant
    and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the combine-and-rectify body, at arbitrary entry contents

The region's grid has ten points. Five windows: inputs 0, 1, 2 (blocks of ten thousand rows), input 3
(one row of thirty-two, the same block at every point), output 4 (a block of ten thousand rows).
At entry contents `V` the body at a point maps the four input blocks to
`max (x0 + x1 * x2 + x3) 0` (the third operand spread along the columns, the fourth along the rows)
and leaves the input buffers as it found them.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's array at the entry contents, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data whose array is the entry contents and whose body leaves the
    block in place, the current buffer holds the block at every point, whether the point fetches it
    or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data whose array is the entry contents and whose body leaves the
    block in place, the current buffer holds the block at every point, whether the point fetches it
    or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data whose array is the entry contents and whose body leaves the
    block in place, the current buffer holds the block at every point, whether the point fetches it
    or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data whose array is the entry contents and whose body leaves the
    block in place, the current buffer holds the block at every point, whether the point fetches it
    or not (this window is fetched at the first point only; its block index never moves). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_0 : Rect S10000x32 := Rect.unit (s := S10000x32) ![0, 0] S10000x32.size inb_S10000x32_S10000x32_0_0
abbrev r1_1 : Rect S10000x1 := Rect.unit (s := S10000x1) ![0, 0] S10000x1.size inb_S10000x1_S10000x1_0_0
abbrev r1_2 : Rect S1x32 := Rect.unit (s := S1x32) ![0, 0] S1x32.size inb_S1x32_S1x32_0_0

/-! ## What the body leaves in the output buffer -/

/-- The output buffer after the body, as a function of the four input blocks: one store of the whole
    buffer, its payload the rectified combination of the four loads. -/
def out1_4 (x0 : Vec F S10000x32 .f32) (x1 : Vec F S10000x32 .f32) (x2 : Vec F S10000x1 .f32) (x3 : Vec F S1x32 .f32) : Vec F S10000x32 .f32 :=
  View.canon [⟨r1_0, k1_pay1 (View.ld x0 r1_0) (View.ld x1 r1_0) (View.ld x2 r1_1) (View.ld x3 r1_2)⟩]

/-- The one store is the whole buffer, so it covers every index. -/
theorem cover1_4 (p0 : Vec F S10000x32 .f32) (y : S10000x32.Idx) :
    ∃ pc ∈ ([⟨r1_0, p0⟩] : List (View.Piece (Elt F) S10000x32 .f32)), y ∈ pc.1.set :=
  View.cover_of_tiled [⟨r1_0, p0⟩] S10000x32.size (by rfl) y

/-! ## The triple of the body -/

set_option maxHeartbeats 1000000 in
/-- On whole buffers, the four inputs holding `x0 … x3` and the output holding anything, the body runs to
    a state where the inputs are unchanged and the output holds `out1_4 x0 x1 x2 x3`. The body reads
    the output buffer once before it stores; the value read is not used. -/
theorem sound_kernel1 (c : Dev nD) (E : Set ℕ) (i : grid1.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S1x32 .f32) (harg4 : arg4.IsWhole) (arg5 : Memref sig .tc .vmem S10000x32 .f32) (harg5 : arg5.IsWhole)
    (x0 : Vec F S10000x32 .f32) (x1 : Vec F S10000x32 .f32) (x2 : Vec F S10000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_relu_kernel i arg1 harg1 arg2 harg2 arg3 harg3 arg4 harg4 arg5 harg5) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the region -/

/-- The proof data on core `c`: the arrays at the entry contents; after the body at point `t` each
    input buffer at its block and the output buffer at `out1_4` of the input blocks; the invariant
    that of a body touching only its windows; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple of the body applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the matrix product's body, at the buffer contents found on entry

The region multiplies a block of rows of its first operand by its whole second operand and writes the
product block. Everything below is stated at a parameter `V`, the contents of the core's buffers when the
region is entered. At each grid point the two input staging buffers hold the operands' blocks read off `V`
(the second operand's block is the same at every point: it is moved in once and stays), and the body leaves
in the output staging buffer the product of those two blocks, whatever that buffer held before.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's rectangle at that point read off its array in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point. This is true of any proof data whose
    array for the window is `V`'s and whose body leaves the block where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's staging buffer holds its block at every point, although it is moved in at the first
    point only: its block index never changes, so what was moved in at the first point is the block at every
    later one. Again for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is the whole of its buffer -/

abbrev r2_0 : Rect S10000x32 := Rect.unit (s := S10000x32) ![0, 0] S10000x32.size inb_S10000x32_S10000x32_0_0
abbrev r2_1 : Rect S32x32 := Rect.unit (s := S32x32) ![0, 0] S32x32.size inb_S32x32_S32x32_0_0
abbrev r2_2 : Rect S10000x32 := Rect.unit (s := S10000x32) ![0, 0] S10000x32.size inb_S10000x32_S10000x32_0_0

/-! ## What the body leaves in the output buffer -/

/-- The output staging buffer after the body, as a function of the two input blocks: the one store, of the
    product of what the two loads read, laid over the buffer. -/
def out2_2 (x0 : Vec F S10000x32 .f32) (x1 : Vec F S32x32 .f32) : Vec F S10000x32 .f32 :=
  View.canon [⟨r2_2, k2_pay1 (View.ld x0 r2_0) (View.ld x1 r2_1)⟩]

/-- The one store covers the whole output buffer. -/
theorem cover2_2 (p0 : Vec F S10000x32 .f32) (y : S10000x32.Idx) :
    ∃ pc ∈ ([⟨r2_2, p0⟩] : List (View.Piece (Elt F) S10000x32 .f32)), y ∈ pc.1.set :=
  View.cover_of_tiled [⟨r2_2, p0⟩] S10000x32.size (by rfl) y

/-! ## The body's triple -/

set_option maxHeartbeats 1000000 in
/-- The body, run on whole staging buffers of which the two inputs read `x0` and `x1` and the output holds
    anything, reaches its continuation with the inputs unchanged and the output at `out2_2 x0 x1`. The body
    reads the output buffer once before it stores into it; the value read is not used. -/
theorem sound_kernel2 (c : Dev nD) (E : Set ℕ) (i : grid2.Coords) (arg1 : Memref sig .tc .vmem S10000x32 .f32) (harg1 : arg1.IsWhole) (arg2 : Memref sig .tc .vmem S32x32 .f32) (harg2 : arg2.IsWhole) (arg3 : Memref sig .tc .vmem S10000x32 .f32) (harg3 : arg3.IsWhole)
    (x0 : Vec F S10000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data on core `c`: the arrays are `V`'s; after the body at point `t` each input buffer holds its
    block and the output buffer holds `out2_2` of the two input blocks; the invariant is that the rest of the
    core's scoped memory and its generator register are untouched; nothing is owed; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the body is given at point `t`: the invariant, what is owed, and each window's current staging buffer
    at what the proof data say it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it gives back: the same with each buffer at what the proof data say it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant
    and what is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the combine-and-rectify body, at arbitrary entry contents

The region's grid has ten points. Five windows: inputs 0, 1, 2 (blocks of ten thousand rows), input 3
(one row of thirty-two, the same block at every point), output 4 (a block of ten thousand rows).
At entry contents `V` the body at a point maps the four input blocks to
`max (x0 + x1 * x2 + x3) 0` (the third operand spread along the columns, the fourth along the rows)
and leaves the input buffers as it found them.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at point `t`: the window's array at the entry contents, read through the
    block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data whose array is the entry contents and whose body leaves the
    block in place, the current buffer holds the block at every point, whether the point fetches it
    or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data whose array is the entry contents and whose body leaves the
    block in place, the current buffer holds the block at every point, whether the point fetches it
    or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: for any proof data whose array is the entry contents and whose body leaves the
    block in place, the current buffer holds the block at every point, whether the point fetches it
    or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: for any proof data whose array is the entry contents and whose body leaves the
    block in place, the current buffer holds the block at every point, whether the point fetches it
    or not (this window is fetched at the first point only; its block index never moves). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0

/-! ## What the body leaves in the output buffer -/

/-- The output buffer after the body, as a function of the four input blocks: one store of the whole
    buffer, its payload the rectified combination of the four loads. -/
def out3_4 (x0 : Vec F S10000x32 .f32) (x1 : Vec F S10000x32 .f32) (x2 : Vec F S10000x1 .f32) (x3 : Vec F S1x32 .f32) : Vec F S10000x32 .f32 :=
  View.canon [⟨r3_0, k3_pay1 (View.ld x0 r3_0) (View.ld x1 r3_0) (View.ld x2 r3_1) (View.ld x3 r3_2)⟩]

/-- The one store is the whole buffer, so it covers every index. -/
theorem cover3_4 (p0 : Vec F S10000x32 .f32) (y : S10000x32.Idx) :
    ∃ pc ∈ ([⟨r3_0, p0⟩] : List (View.Piece (Elt F) S10000x32 .f32)), y ∈ pc.1.set :=
  View.cover_of_tiled [⟨r3_0, p0⟩] S10000x32.size (by rfl) y

/-! ## The triple of the body -/

set_option maxHeartbeats 1000000 in
/-- On whole buffers, the four inputs holding `x0 … x3` and the output holding anything, the body runs to
    a state where the inputs are unchanged and the output holds `out3_4 x0 x1 x2 x3`. The body reads
    the output buffer once before it stores; the value read is not used. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S1x32 .f32) (harg4 : arg4.IsWhole) (arg5 : Memref sig .tc .vmem S10000x32 .f32) (harg5 : arg5.IsWhole)
    (x0 : Vec F S10000x32 .f32) (x1 : Vec F S10000x32 .f32) (x2 : Vec F S10000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_relu_kernel i arg1 harg1 arg2 harg2 arg3 harg3 arg4 harg4 arg5 harg5) K := by
  simp only [cc3__combine_relu_kernel_eq_skeleton]; unfold cc3__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the region -/

/-- The proof data on core `c`: the arrays at the entry contents; after the body at point `t` each
    input buffer at its block and the output buffer at `out3_4` of the input blocks; the invariant
    that of a body touching only its windows; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the triple of the body applies; the
    invariant and what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Body4.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the two-layer perceptron kernel on a grid of 200 points

Six windows: inputs 0..4 (the row block, the first layer's weights and bias, the second layer's weights and bias) and
output 5 (the row block's column of results). Everything is stated at a parameter `V`, the buffer contents when the
region is entered. Per point: each window's block, what the body leaves in the output's buffer as a function of the
input blocks, the body's triple, the proof data, and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched it
    there (an unfetched point has the block index of the point before it, and the body leaves the block in place), for
    any proof data whose array is `V`'s (`hA`) and whose body leaves the block in place (`hafter`). The window is
    uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not the pipeline fetched it
    there (an unfetched point has the block index of the point before it, and the body leaves the block in place), for
    any proof data whose array is `V`'s (`hA`) and whose body leaves the block in place (`hafter`). The window is
    uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether or not the pipeline fetched it
    there (an unfetched point has the block index of the point before it, and the body leaves the block in place), for
    any proof data whose array is `V`'s (`hA`) and whose body leaves the block in place (`hafter`). The window is
    uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether or not the pipeline fetched it
    there (an unfetched point has the block index of the point before it, and the body leaves the block in place), for
    any proof data whose array is `V`'s (`hA`) and whose body leaves the block in place (`hafter`). The window is
    uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether or not the pipeline fetched it
    there (an unfetched point has the block index of the point before it, and the body leaves the block in place), for
    any proof data whose array is `V`'s (`hA`) and whose body leaves the block in place (`hafter`). The window is
    uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read, and the output written, whole -/

abbrev r4_0 : Rect S5000x66 := Rect.unit (s := S5000x66) ![0, 0] S5000x66.size inb_S5000x66_S5000x66_0_0
abbrev r4_1 : Rect S66x32 := Rect.unit (s := S66x32) ![0, 0] S66x32.size inb_S66x32_S66x32_0_0
abbrev r4_2 : Rect S1x32 := Rect.unit (s := S1x32) ![0, 0] S1x32.size inb_S1x32_S1x32_0_0
abbrev r4_3 : Rect S32x1 := Rect.unit (s := S32x1) ![0, 0] S32x1.size inb_S32x1_S32x1_0_0
abbrev r4_4 : Rect S1x1 := Rect.unit (s := S1x1) ![0, 0] S1x1.size inb_S1x1_S1x1_0_0
abbrev r4_5 : Rect S5000x1 := Rect.unit (s := S5000x1) ![0, 0] S5000x1.size inb_S5000x1_S5000x1_0_0

/-! ## What the body leaves in the output window's buffer -/

/-- Window 5's staging buffer after the body, from the input windows' blocks: its one store, of the value computed
    from the five blocks read. -/
def out4_5 (x0 : Vec F S5000x66 .f32) (x1 : Vec F S66x32 .f32) (x2 : Vec F S1x32 .f32) (x3 : Vec F S32x1 .f32) (x4 : Vec F S1x1 .f32) : Vec F S5000x1 .f32 :=
  View.canon [⟨r4_5, k4_pay1 (View.ld x0 r4_0) (View.ld x1 r4_1) (View.ld x2 r4_2) (View.ld x3 r4_3) (View.ld x4 r4_4)⟩]

/-- The one store is of the whole buffer, so it covers it. -/
theorem cover4_5 (p0 : Vec F S5000x1 .f32) (y : S5000x1.Idx) :
    ∃ pc ∈ ([⟨r4_5, p0⟩] : List (View.Piece (Elt F) S5000x1 .f32)), y ∈ pc.1.set :=
  View.cover_of_tiled [⟨r4_5, p0⟩] S5000x1.size (by rfl) y

/-! ## The body's triple -/

set_option maxHeartbeats 1000000 in
/-- The kernel body on whole staging memrefs, the inputs' at read contents `xW` and the output's at anything, runs to
    the continuation holding the inputs' as they were and the output's at `out4_5` of the inputs'. The body reads
    the output's buffer once before the store; the value read is not used. -/
theorem sound_kernel4 (c : Dev nD) (E : Set ℕ) (i : grid4.Coords) (arg1 : Memref sig .tc .vmem S5000x66 .f32) (harg1 : arg1.IsWhole) (arg2 : Memref sig .tc .vmem S66x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x66 .f32) (x1 : Vec F S66x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp2_kernel i arg1 harg1 arg2 harg2 arg3 harg3 arg4 harg4 arg5 harg5 arg6 harg6) K := by
  simp only [cc4__mlp2_kernel_eq_skeleton]; unfold cc4__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point
    `t` each input's buffer at its block and the output's at `out4_5` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Body5.lean ====
import proofs.«178605_j21560735825958_2_alg».proof.Proof.Gen.KernelIdeal.Launch
import proofs.«178605_j21560735825958_2_alg».proof.Proof.Gen.KernelIdeal.Skeleton
import proofs.«178605_j21560735825958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the two-layer perceptron kernel on a grid of 10 points

Six windows: inputs 0..4 (the row block, the first layer's weights and bias, the second layer's weights and bias) and
output 5 (the row block's column of results). Everything is stated at a parameter `V`, the buffer contents when the
region is entered. Per point: each window's block, what the body leaves in the output's buffer as a function of the
input blocks, the body's triple, the proof data, and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there (an unfetched point has the block index of the point before it, and the body leaves the block in place), for
    any proof data whose array is `V`'s (`hA`) and whose body leaves the block in place (`hafter`). The window is
    uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there (an unfetched point has the block index of the point before it, and the body leaves the block in place), for
    any proof data whose array is `V`'s (`hA`) and whose body leaves the block in place (`hafter`). The window is
    uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there (an unfetched point has the block index of the point before it, and the body leaves the block in place), for
    any proof data whose array is `V`'s (`hA`) and whose body leaves the block in place (`hafter`). The window is
    uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there (an unfetched point has the block index of the point before it, and the body leaves the block in place), for
    any proof data whose array is `V`'s (`hA`) and whose body leaves the block in place (`hafter`). The window is
    uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there (an unfetched point has the block index of the point before it, and the body leaves the block in place), for
    any proof data whose array is `V`'s (`hA`) and whose body leaves the block in place (`hafter`). The window is
    uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S5000x32 := Rect.unit (s := S5000x32) ![0, 0] S5000x32.size inb_S5000x32_S5000x32_0_0
abbrev r5_1 : Rect S32x32 := Rect.unit (s := S32x32) ![0, 0] S32x32.size inb_S32x32_S32x32_0_0
abbrev r5_2 : Rect S1x32 := Rect.unit (s := S1x32) ![0, 0] S1x32.size inb_S1x32_S1x32_0_0
abbrev r5_3 : Rect S32x1 := Rect.unit (s := S32x1) ![0, 0] S32x1.size inb_S32x1_S32x1_0_0
abbrev r5_4 : Rect S1x1 := Rect.unit (s := S1x1) ![0, 0] S1x1.size inb_S1x1_S1x1_0_0
abbrev r5_5 : Rect S5000x1 := Rect.unit (s := S5000x1) ![0, 0] S5000x1.size inb_S5000x1_S5000x1_0_0

/-! ## What the body leaves in the output window's buffer -/

/-- Window 5's staging buffer after the body, from the input windows' blocks: its one store, of the value computed
    from the five blocks read. -/
def out5_5 (x0 : Vec F S5000x32 .f32) (x1 : Vec F S32x32 .f32) (x2 : Vec F S1x32 .f32) (x3 : Vec F S32x1 .f32) (x4 : Vec F S1x1 .f32) : Vec F S5000x1 .f32 :=
  View.canon [⟨r5_5, k5_pay1 (View.ld x0 r5_0) (View.ld x1 r5_1) (View.ld x2 r5_2) (View.ld x3 r5_3) (View.ld x4 r5_4)⟩]

/-- The one store is of the whole buffer, so it covers it. -/
theorem cover5_5 (p0 : Vec F S5000x1 .f32) (y : S5000x1.Idx) :
    ∃ pc ∈ ([⟨r5_5, p0⟩] : List (View.Piece (Elt F) S5000x1 .f32)), y ∈ pc.1.set :=
  View.cover_of_tiled [⟨r5_5, p0⟩] S5000x1.size (by rfl) y

/-! ## The body's triple -/

set_option maxHeartbeats 1000000 in
/-- The kernel body on whole staging memrefs, the inputs' at read contents `xW` and the output's at anything, runs to
    the continuation holding the inputs' as they were and the output's at `out5_5` of the inputs'. The body reads
    the output's buffer once before the store; the value read is not used. -/
theorem sound_kernel5 (c : Dev nD) (E : Set ℕ) (i : grid5.Coords) (arg1 : Memref sig .tc .vmem S5000x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x32 .f32) (x1 : Vec F S32x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp2_kernel i arg1 harg1 arg2 harg2 arg3 harg3 arg4 harg4 arg5 harg5 arg6 harg6) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Run.lean ====
/-
  The run of @main as twelve items — seven stretches of host operations and six kernel regions — from the launch
  memory to the return: the contents of the TensorCore's buffers at every boundary between two items (a stretch
  applies its operations to the contents before it; a region changes exactly one array, its result, to what its
  write-backs leave and keeps every other buffer), each region entered by splitting its arrays out of the buffers
  and left by putting them back, and the final memory read against the last boundary's contents. Every weakly fair
  execution terminates and ends with each buffer at the last boundary's contents; no item writes an argument array.
-/
import proofs.«178605_j21560735825958_2_alg».proof.Proof.KI.Body0
import proofs.«178605_j21560735825958_2_alg».proof.Proof.KI.Body1
import proofs.«178605_j21560735825958_2_alg».proof.Proof.KI.Body2
import proofs.«178605_j21560735825958_2_alg».proof.Proof.KI.Body3
import proofs.«178605_j21560735825958_2_alg».proof.Proof.KI.Body4
import proofs.«178605_j21560735825958_2_alg».proof.Proof.KI.Body5
import proofs.«178605_j21560735825958_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A boundary's contents read at the TensorCore's references (what a region's proof data take). -/
abbrev Vt (W : Dev nD → Valuation τ sig (Elt F)) : (c : Dev nD) → (b : Ref sig .tc) → Buf (Elt F) ((c : Thread nD τ).loc b) := fun c b => W c b

/-- At launch. -/
def B0 : Dev nD → Valuation τ sig (Elt F) := fun c b => m (c, b)
/-- After the first stretch: the first matmul's entry. -/
def B1 : Dev nD → Valuation τ sig (Elt F) := fun c => StableHlo.after hostOps0 (B0 m c)
/-- What the first matmul leaves in its result array. -/
def o2 (c : Dev nD) : Buf (Elt F) ((c : Thread nD τ).loc main_v29) := (dat0 (Vt (B1 m)) c).arrAt 2 cfg0.N
def B2 : Dev nD → Valuation τ sig (Elt F) := fun c => Function.update (B1 m c) main_v29 (o2 m c)
def B3 : Dev nD → Valuation τ sig (Elt F) := fun c => StableHlo.after hostOps1 (B2 m c)
/-- What the first combine leaves in its result array. -/
def o4 (c : Dev nD) : Buf (Elt F) ((c : Thread nD τ).loc main_v43) := (dat1 (Vt (B3 m)) c).arrAt 4 cfg1.N
def B4 : Dev nD → Valuation τ sig (Elt F) := fun c => Function.update (B3 m c) main_v43 (o4 m c)
/-- What the second matmul leaves in its result array. -/
def o5 (c : Dev nD) : Buf (Elt F) ((c : Thread nD τ).loc main_v44) := (dat2 (Vt (B4 m)) c).arrAt 2 cfg2.N
def B5 : Dev nD → Valuation τ sig (Elt F) := fun c => Function.update (B4 m c) main_v44 (o5 m c)
def B6 : Dev nD → Valuation τ sig (Elt F) := fun c => StableHlo.after hostOps3 (B5 m c)
/-- What the second combine leaves in its result array. -/
def o7 (c : Dev nD) : Buf (Elt F) ((c : Thread nD τ).loc main_v58) := (dat3 (Vt (B6 m)) c).arrAt 4 cfg3.N
def B7 : Dev nD → Valuation τ sig (Elt F) := fun c => Function.update (B6 m c) main_v58 (o7 m c)
def B8 : Dev nD → Valuation τ sig (Elt F) := fun c => StableHlo.after hostOps4 (B7 m c)
/-- What the edge head leaves in its result array. -/
def o9 (c : Dev nD) : Buf (Elt F) ((c : Thread nD τ).loc main_v76) := (dat4 (Vt (B8 m)) c).arrAt 5 cfg4.N
def B9 : Dev nD → Valuation τ sig (Elt F) := fun c => Function.update (B8 m c) main_v76 (o9 m c)
def B10 : Dev nD → Valuation τ sig (Elt F) := fun c => StableHlo.after hostOps5 (B9 m c)
/-- What the gene head leaves in its result array. -/
def o11 (c : Dev nD) : Buf (Elt F) ((c : Thread nD τ).loc main_v87) := (dat5 (Vt (B10 m)) c).arrAt 5 cfg5.N
def B11 : Dev nD → Valuation τ sig (Elt F) := fun c => Function.update (B10 m c) main_v87 (o11 m c)
def B12 : Dev nD → Valuation τ sig (Elt F) := fun c => StableHlo.after hostOps6 (B11 m c)

/-- Region 0 changes no buffer but its result array, -/
theorem B2_ne (c : Dev nD) (b : Ref sig .tc) (h : b ≠ main_v29) : B2 m c b = B1 m c b := by
  unfold B2; exact Function.update_of_ne (StableHlo.devRef_ne_of_ne h) _ _
/-- which it leaves at its write-backs' fold. -/
theorem B2_self (c : Dev nD) : B2 m c main_v29 = o2 m c := by
  unfold B2; simp only [Function.update_self]
/-- Region 1 changes no buffer but its result array, -/
theorem B4_ne (c : Dev nD) (b : Ref sig .tc) (h : b ≠ main_v43) : B4 m c b = B3 m c b := by
  unfold B4; exact Function.update_of_ne (StableHlo.devRef_ne_of_ne h) _ _
/-- which it leaves at its write-backs' fold. -/
theorem B4_self (c : Dev nD) : B4 m c main_v43 = o4 m c := by
  unfold B4; simp only [Function.update_self]
/-- Region 2 changes no buffer but its result array, -/
theorem B5_ne (c : Dev nD) (b : Ref sig .tc) (h : b ≠ main_v44) : B5 m c b = B4 m c b := by
  unfold B5; exact Function.update_of_ne (StableHlo.devRef_ne_of_ne h) _ _
/-- which it leaves at its write-backs' fold. -/
theorem B5_self (c : Dev nD) : B5 m c main_v44 = o5 m c := by
  unfold B5; simp only [Function.update_self]
/-- Region 3 changes no buffer but its result array, -/
theorem B7_ne (c : Dev nD) (b : Ref sig .tc) (h : b ≠ main_v58) : B7 m c b = B6 m c b := by
  unfold B7; exact Function.update_of_ne (StableHlo.devRef_ne_of_ne h) _ _
/-- which it leaves at its write-backs' fold. -/
theorem B7_self (c : Dev nD) : B7 m c main_v58 = o7 m c := by
  unfold B7; simp only [Function.update_self]
/-- Region 4 changes no buffer but its result array, -/
theorem B9_ne (c : Dev nD) (b : Ref sig .tc) (h : b ≠ main_v76) : B9 m c b = B8 m c b := by
  unfold B9; exact Function.update_of_ne (StableHlo.devRef_ne_of_ne h) _ _
/-- which it leaves at its write-backs' fold. -/
theorem B9_self (c : Dev nD) : B9 m c main_v76 = o9 m c := by
  unfold B9; simp only [Function.update_self]
/-- Region 5 changes no buffer but its result array, -/
theorem B11_ne (c : Dev nD) (b : Ref sig .tc) (h : b ≠ main_v87) : B11 m c b = B10 m c b := by
  unfold B11; exact Function.update_of_ne (StableHlo.devRef_ne_of_ne h) _ _
/-- which it leaves at its write-backs' fold. -/
theorem B11_self (c : Dev nD) : B11 m c main_v87 = o11 m c := by
  unfold B11; simp only [Function.update_self]

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vt (B1 m)) c
  | ⟨1, _⟩ => fun c => dat1 (Vt (B3 m)) c
  | ⟨2, _⟩ => fun c => dat2 (Vt (B4 m)) c
  | ⟨3, _⟩ => fun c => dat3 (Vt (B6 m)) c
  | ⟨4, _⟩ => fun c => dat4 (Vt (B8 m)) c
  | ⟨5, _⟩ => fun c => dat5 (Vt (B10 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

/-- Region 0's arrays after it: the inputs as entered, the result at its write-backs' fold — the exit contents. -/
theorem hF0 (c : Dev nD) (w : Fin cfg0.W) : (dat0 (Vt (B1 m)) c).arrAt w cfg0.N = Vt (B2 m) c (Pipeline.arrRef spec0 w) := by
  fin_cases w
  · exact ((dat0 (Vt (B1 m)) c).arrAt_in _ rfl _).trans ((A_eq0 (Vt (B1 m)) c _).trans (B2_ne m c _ (by decide)).symm)
  · exact ((dat0 (Vt (B1 m)) c).arrAt_in _ rfl _).trans ((A_eq0 (Vt (B1 m)) c _).trans (B2_ne m c _ (by decide)).symm)
  · exact (B2_self m c).symm
theorem hrest0 (c : Dev nD) : ∀ b, b ∉ Finset.univ.image (Pipeline.arrRef spec0) → Vt (B2 m) c b = Vt (B1 m) c b :=
  fun b hb => B2_ne m c b fun h => hb (h ▸ Finset.mem_image.mpr ⟨2, Finset.mem_univ _, rfl⟩)

set_option backward.isDefEq.respectTransparency.types false in
/-- Region 0 over the thread state: entered from every unscoped buffer at the contents before it, left at the
    contents after it; its arrays split out of the buffers and put back; the generator register passes through the
    region's invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (B1 m)) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vt (B1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt (B1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt (B1 m) c) (Vt (B2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it: the inputs as entered, the result at its write-backs' fold — the exit contents. -/
theorem hF1 (c : Dev nD) (w : Fin cfg1.W) : (dat1 (Vt (B3 m)) c).arrAt w cfg1.N = Vt (B4 m) c (Pipeline.arrRef spec1 w) := by
  fin_cases w
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact ((dat1 (Vt (B3 m)) c).arrAt_in _ rfl _).trans ((A_eq1 (Vt (B3 m)) c _).trans (B4_ne m c _ (by decide)).symm)
  · exact (B4_self m c).symm
theorem hrest1 (c : Dev nD) : ∀ b, b ∉ Finset.univ.image (Pipeline.arrRef spec1) → Vt (B4 m) c b = Vt (B3 m) c b :=
  fun b hb => B4_ne m c b fun h => hb (h ▸ Finset.mem_image.mpr ⟨4, Finset.mem_univ _, rfl⟩)

set_option backward.isDefEq.respectTransparency.types false in
/-- Region 1 over the thread state: entered from every unscoped buffer at the contents before it, left at the
    contents after it; its arrays split out of the buffers and put back; the generator register passes through the
    region's invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (B3 m)) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (Vt (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt (B3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt (B3 m) c) (Vt (B4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it: the inputs as entered, the result at its write-backs' fold — the exit contents. -/
theorem hF2 (c : Dev nD) (w : Fin cfg2.W) : (dat2 (Vt (B4 m)) c).arrAt w cfg2.N = Vt (B5 m) c (Pipeline.arrRef spec2 w) := by
  fin_cases w
  · exact ((dat2 (Vt (B4 m)) c).arrAt_in _ rfl _).trans ((A_eq2 (Vt (B4 m)) c _).trans (B5_ne m c _ (by decide)).symm)
  · exact ((dat2 (Vt (B4 m)) c).arrAt_in _ rfl _).trans ((A_eq2 (Vt (B4 m)) c _).trans (B5_ne m c _ (by decide)).symm)
  · exact (B5_self m c).symm
theorem hrest2 (c : Dev nD) : ∀ b, b ∉ Finset.univ.image (Pipeline.arrRef spec2) → Vt (B5 m) c b = Vt (B4 m) c b :=
  fun b hb => B5_ne m c b fun h => hb (h ▸ Finset.mem_image.mpr ⟨2, Finset.mem_univ _, rfl⟩)

set_option backward.isDefEq.respectTransparency.types false in
/-- Region 2 over the thread state: entered from every unscoped buffer at the contents before it, left at the
    contents after it; its arrays split out of the buffers and put back; the generator register passes through the
    region's invariant; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (B4 m)) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec2 c (Vt (B4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt (B4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt (B4 m) c) (Vt (B5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it: the inputs as entered, the result at its write-backs' fold — the exit contents. -/
theorem hF3 (c : Dev nD) (w : Fin cfg3.W) : (dat3 (Vt (B6 m)) c).arrAt w cfg3.N = Vt (B7 m) c (Pipeline.arrRef spec3 w) := by
  fin_cases w
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact ((dat3 (Vt (B6 m)) c).arrAt_in _ rfl _).trans ((A_eq3 (Vt (B6 m)) c _).trans (B7_ne m c _ (by decide)).symm)
  · exact (B7_self m c).symm
theorem hrest3 (c : Dev nD) : ∀ b, b ∉ Finset.univ.image (Pipeline.arrRef spec3) → Vt (B7 m) c b = Vt (B6 m) c b :=
  fun b hb => B7_ne m c b fun h => hb (h ▸ Finset.mem_image.mpr ⟨4, Finset.mem_univ _, rfl⟩)

set_option backward.isDefEq.respectTransparency.types false in
/-- Region 3 over the thread state: entered from every unscoped buffer at the contents before it, left at the
    contents after it; its arrays split out of the buffers and put back; the generator register passes through the
    region's invariant; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (B6 m)) c).loose
  hwaits := Pipeline.hwaits_of_owed_zero _ _ _ _ L lv 3 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec3 c (Vt (B6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt (B6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt (B6 m) c) (Vt (B7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 4's arrays after it: the inputs as entered, the result at its write-backs' fold — the exit contents. -/
theorem hF4 (c : Dev nD) (w : Fin cfg4.W) : (dat4 (Vt (B8 m)) c).arrAt w cfg4.N = Vt (B9 m) c (Pipeline.arrRef spec4 w) := by
  fin_cases w
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact ((dat4 (Vt (B8 m)) c).arrAt_in _ rfl _).trans ((A_eq4 (Vt (B8 m)) c _).trans (B9_ne m c _ (by decide)).symm)
  · exact (B9_self m c).symm
theorem hrest4 (c : Dev nD) : ∀ b, b ∉ Finset.univ.image (Pipeline.arrRef spec4) → Vt (B9 m) c b = Vt (B8 m) c b :=
  fun b hb => B9_ne m c b fun h => hb (h ▸ Finset.mem_image.mpr ⟨5, Finset.mem_univ _, rfl⟩)

set_option backward.isDefEq.respectTransparency.types false in
/-- Region 4 over the thread state: entered from every unscoped buffer at the contents before it, left at the
    contents after it; its arrays split out of the buffers and put back; the generator register passes through the
    region's invariant; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (B8 m)) c).loose
  hwaits := Pipeline.hwaits_of_owed_zero _ _ _ _ L lv 4 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec4 c (Vt (B8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt (B8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt (B8 m) c) (Vt (B9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 5's arrays after it: the inputs as entered, the result at its write-backs' fold — the exit contents. -/
theorem hF5 (c : Dev nD) (w : Fin cfg5.W) : (dat5 (Vt (B10 m)) c).arrAt w cfg5.N = Vt (B11 m) c (Pipeline.arrRef spec5 w) := by
  fin_cases w
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact ((dat5 (Vt (B10 m)) c).arrAt_in _ rfl _).trans ((A_eq5 (Vt (B10 m)) c _).trans (B11_ne m c _ (by decide)).symm)
  · exact (B11_self m c).symm
theorem hrest5 (c : Dev nD) : ∀ b, b ∉ Finset.univ.image (Pipeline.arrRef spec5) → Vt (B11 m) c b = Vt (B10 m) c b :=
  fun b hb => B11_ne m c b fun h => hb (h ▸ Finset.mem_image.mpr ⟨5, Finset.mem_univ _, rfl⟩)

set_option backward.isDefEq.respectTransparency.types false in
/-- Region 5 over the thread state: entered from every unscoped buffer at the contents before it, left at the
    contents after it; its arrays split out of the buffers and put back; the generator register passes through the
    region's invariant; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (B10 m)) c).loose
  hwaits := Pipeline.hwaits_of_owed_zero _ _ _ _ L lv 5 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec5 c (Vt (B10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt (B10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt (B10 m) c) (Vt (B11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## No item writes an argument -/

/-- A reference that no stretch writes and that is no region's result holds its launch contents at the end. -/
theorem B12_of (c : Dev nD) (r : Ref sig .tc) (h0 : r ∉ hostOps0_W) (h1 : r ∉ hostOps1_W) (h3 : r ∉ hostOps3_W) (h4 : r ∉ hostOps4_W)
    (h5 : r ∉ hostOps5_W) (h6 : r ∉ hostOps6_W)
    (g2 : r ≠ main_v29) (g4 : r ≠ main_v43) (g5 : r ≠ main_v44) (g7 : r ≠ main_v58) (g9 : r ≠ main_v76) (g11 : r ≠ main_v87) :
    B12 m c r = m ((c : Thread nD τ).loc r) :=
  (StableHlo.after_of_writes_sub hostOps6 _ hostOps6_writes h6).trans <| (B11_ne m c r g11).trans <|
  (StableHlo.after_of_writes_sub hostOps5 _ hostOps5_writes h5).trans <| (B9_ne m c r g9).trans <|
  (StableHlo.after_of_writes_sub hostOps4 _ hostOps4_writes h4).trans <| (B7_ne m c r g7).trans <|
  (StableHlo.after_of_writes_sub hostOps3 _ hostOps3_writes h3).trans <| (B5_ne m c r g5).trans <| (B4_ne m c r g4).trans <|
  (StableHlo.after_of_writes_sub hostOps1 _ hostOps1_writes h1).trans <| (B2_ne m c r g2).trans <|
  (StableHlo.after_of_writes_sub hostOps0 _ hostOps0_writes h0).trans rfl

theorem B12_main_arg0 (c : Dev nD) : B12 m c main_arg0 = m ((c : Thread nD τ).loc main_arg0) :=
  B12_of m c main_arg0 (by decide) (by decide) (by decide) (by decide) (by decide) (by decide) (by decide) (by decide) (by decide) (by decide) (by decide) (by decide)
theorem B12_main_arg1 (c : Dev nD) : B12 m c main_arg1 = m ((c : Thread nD τ).loc main_arg1) :=
  B12_of m c main_arg1 (by decide) (by decide) (by decide) (by decide) (by decide) (by decide) (by decide) (by decide) (by decide) (by decide) (by decide) (by decide)
theorem B12_main_arg2 (c : Dev nD) : B12 m c main_arg2 = m ((c : Thread nD τ).loc main_arg2) :=
  B12_of m c main_arg2 (by decide) (by decide) (by decide) (by decide) (by decide) (by decide) (by decide) (by decide) (by decide) (by decide) (by decide) (by decide)
theorem B12_main_arg3 (c : Dev nD) : B12 m c main_arg3 = m ((c : Thread nD τ).loc main_arg3) :=
  B12_of m c main_arg3 (by decide) (by decide) (by decide) (by decide) (by decide) (by decide) (by decide) (by decide) (by decide) (by decide) (by decide) (by decide)
theorem B12_main_arg4 (c : Dev nD) : B12 m c main_arg4 = m ((c : Thread nD τ).loc main_arg4) :=
  B12_of m c main_arg4 (by decide) (by decide) (by decide) (by decide) (by decide) (by decide) (by decide) (by decide) (by decide) (by decide) (by decide) (by decide)
theorem B12_main_arg5 (c : Dev nD) : B12 m c main_arg5 = m ((c : Thread nD τ).loc main_arg5) :=
  B12_of m c main_arg5 (by decide) (by decide) (by decide) (by decide) (by decide) (by decide) (by decide) (by decide) (by decide) (by decide) (by decide) (by decide)
theorem B12_main_arg6 (c : Dev nD) : B12 m c main_arg6 = m ((c : Thread nD τ).loc main_arg6) :=
  B12_of m c main_arg6 (by decide) (by decide) (by decide) (by decide) (by decide) (by decide) (by decide) (by decide) (by decide) (by decide) (by decide) (by decide)
theorem B12_main_arg7 (c : Dev nD) : B12 m c main_arg7 = m ((c : Thread nD τ).loc main_arg7) :=
  B12_of m c main_arg7 (by decide) (by decide) (by decide) (by decide) (by decide) (by decide) (by decide) (by decide) (by decide) (by decide) (by decide) (by decide)
theorem B12_main_arg8 (c : Dev nD) : B12 m c main_arg8 = m ((c : Thread nD τ).loc main_arg8) :=
  B12_of m c main_arg8 (by decide) (by decide) (by decide) (by decide) (by decide) (by decide) (by decide) (by decide) (by decide) (by decide) (by decide) (by decide)
theorem B12_main_arg9 (c : Dev nD) : B12 m c main_arg9 = m ((c : Thread nD τ).loc main_arg9) :=
  B12_of m c main_arg9 (by decide) (by decide) (by decide) (by decide) (by decide) (by decide) (by decide) (by decide) (by decide) (by decide) (by decide) (by decide)
theorem B12_main_arg10 (c : Dev nD) : B12 m c main_arg10 = m ((c : Thread nD τ).loc main_arg10) :=
  B12_of m c main_arg10 (by decide) (by decide) (by decide) (by decide) (by decide) (by decide) (by decide) (by decide) (by decide) (by decide) (by decide) (by decide)
theorem B12_main_arg11 (c : Dev nD) : B12 m c main_arg11 = m ((c : Thread nD τ).loc main_arg11) :=
  B12_of m c main_arg11 (by decide) (by decide) (by decide) (by decide) (by decide) (by decide) (by decide) (by decide) (by decide) (by decide) (by decide) (by decide)
theorem B12_main_arg12 (c : Dev nD) : B12 m c main_arg12 = m ((c : Thread nD τ).loc main_arg12) :=
  B12_of m c main_arg12 (by decide) (by decide) (by decide) (by decide) (by decide) (by decide) (by decide) (by decide) (by decide) (by decide) (by decide) (by decide)
theorem B12_main_arg13 (c : Dev nD) : B12 m c main_arg13 = m ((c : Thread nD τ).loc main_arg13) :=
  B12_of m c main_arg13 (by decide) (by decide) (by decide) (by decide) (by decide) (by decide) (by decide) (by decide) (by decide) (by decide) (by decide) (by decide)
theorem B12_main_arg14 (c : Dev nD) : B12 m c main_arg14 = m ((c : Thread nD τ).loc main_arg14) :=
  B12_of m c main_arg14 (by decide) (by decide) (by decide) (by decide) (by decide) (by decide) (by decide) (by decide) (by decide) (by decide) (by decide) (by decide)
theorem B12_main_arg15 (c : Dev nD) : B12 m c main_arg15 = m ((c : Thread nD τ).loc main_arg15) :=
  B12_of m c main_arg15 (by decide) (by decide) (by decide) (by decide) (by decide) (by decide) (by decide) (by decide) (by decide) (by decide) (by decide) (by decide)
theorem B12_main_arg16 (c : Dev nD) : B12 m c main_arg16 = m ((c : Thread nD τ).loc main_arg16) :=
  B12_of m c main_arg16 (by decide) (by decide) (by decide) (by decide) (by decide) (by decide) (by decide) (by decide) (by decide) (by decide) (by decide) (by decide)
theorem B12_main_arg17 (c : Dev nD) : B12 m c main_arg17 = m ((c : Thread nD τ).loc main_arg17) :=
  B12_of m c main_arg17 (by decide) (by decide) (by decide) (by decide) (by decide) (by decide) (by decide) (by decide) (by decide) (by decide) (by decide) (by decide)

/-! ## @main as items, and the launch -/

/-- @main's twelve items in order. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m),
    .host (hseg hostOps3 hostOps3_sub hostOps3_fresh (B5 m)),
    .region (reg3 m),
    .host (hseg hostOps4 hostOps4_sub hostOps4_fresh (B7 m)),
    .region (reg4 m),
    .host (hseg hostOps5 hostOps5_sub hostOps5_fresh (B9 m)),
    .region (reg5 m),
    .host (hseg hostOps6 hostOps6_sub hostOps6_fresh (B11 m)) ]

/-- @main is the run of its items. -/
theorem main_run (c : Dev nD) : main (F := F) c = Pipeline.Seg.run (items m) := (main_chain c).trans (by chain_rfl)

set_option backward.isDefEq.respectTransparency.types false in
/-- THE RUN: from any memory with zero counters every weakly fair execution of @main on the TensorCores terminates,
    nothing faulting, and every final state has each unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B12 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (B12 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨Hh, HSI⟩
      unfold StableHlo.held
      imodintro
      iapply (pointsTo_read_all (Pipeline.ucRefs τ sig) (fun b => (((c : Thread nD τ)).1, b)) (B12 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (B12_main_arg0 m c),
    (h c _ (mem_uc main_arg1 (by decide))).trans (B12_main_arg1 m c),
    (h c _ (mem_uc main_arg2 (by decide))).trans (B12_main_arg2 m c),
    (h c _ (mem_uc main_arg3 (by decide))).trans (B12_main_arg3 m c),
    (h c _ (mem_uc main_arg4 (by decide))).trans (B12_main_arg4 m c),
    (h c _ (mem_uc main_arg5 (by decide))).trans (B12_main_arg5 m c),
    (h c _ (mem_uc main_arg6 (by decide))).trans (B12_main_arg6 m c),
    (h c _ (mem_uc main_arg7 (by decide))).trans (B12_main_arg7 m c),
    (h c _ (mem_uc main_arg8 (by decide))).trans (B12_main_arg8 m c),
    (h c _ (mem_uc main_arg9 (by decide))).trans (B12_main_arg9 m c),
    (h c _ (mem_uc main_arg10 (by decide))).trans (B12_main_arg10 m c),
    (h c _ (mem_uc main_arg11 (by decide))).trans (B12_main_arg11 m c),
    (h c _ (mem_uc main_arg12 (by decide))).trans (B12_main_arg12 m c),
    (h c _ (mem_uc main_arg13 (by decide))).trans (B12_main_arg13 m c),
    (h c _ (mem_uc main_arg14 (by decide))).trans (B12_main_arg14 m c),
    (h c _ (mem_uc main_arg15 (by decide))).trans (B12_main_arg15 m c),
    (h c _ (mem_uc main_arg16 (by decide))).trans (B12_main_arg16 m c),
    (h c _ (mem_uc main_arg17 (by decide))).trans (B12_main_arg17 m c)⟩) (run_main m ρ)

end Cert.KernelIdeal.Fr

end
-- ==== Proof.KI.Val0.lean ====
import proofs.«178605_j21560735825958_2_alg».proof.Proof.KI.Body0
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# Region 0 over the extended reals: the output array is the matrix product of the two input arrays

Over the extended reals a change of float format is the identity and a product accumulated into zero is a plain
sum, so the body's payload at entry `(r, n)` of a block is `∑ k, x (r, k) * y (k, n)`. Point `t` of the grid
works on rows `10000 t … 10000 t + 9999` of the first array and on the whole second array, and writes back rows
`10000 t … 10000 t + 9999` of the output. Entry `(10000 t + r, n)` of the product of the whole arrays is the same sum,
because row `r` of the block is row `10000 t + r` of the array. The 10 blocks cover the 100000 rows, so after
the region the output array is the product.
-/

noncomputable section

namespace Cert.KernelIdeal.Fr

open Cert.KernelIdeal Cert.KernelIdeal.Gen Idealize.ShloMosaic Idealize.ShloMosaic.TcCoe Idealize.SL.Sem
open Idealize.ShloMosaic.Pipeline (Dat)

/-! ## The product of a block at an entry -/

/-- Entry `(j 0, k)` of the left block. -/
abbrev lk0 (j : S10000x32.Idx) (k : Fin 128) : S10000x128.Idx := fun a => match a with
  | ⟨0, _⟩ => ⟨(j 0).val, (j 0).isLt⟩
  | ⟨1, _⟩ => ⟨k.val, k.isLt⟩
/-- Entry `(k, j 1)` of the right block. -/
abbrev rk0 (j : S10000x32.Idx) (k : Fin 128) : S128x32.Idx := fun a => match a with
  | ⟨0, _⟩ => ⟨k.val, k.isLt⟩
  | ⟨1, _⟩ => ⟨(j 1).val, (j 1).isLt⟩

/-- The left factor's row is the output's row, -/
theorem klhs0_0 (j : S10000x32.Idx) (q : dot_S10000x128_S128x32_S10000x32_1_0_0_1_n_n.contr.Idx) :
    (dot_S10000x128_S128x32_S10000x32_1_0_0_1_n_n.lhsIdx j q 0).val = (j 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- its column the position in the sum; -/
theorem klhs0_1 (j : S10000x32.Idx) (q : dot_S10000x128_S128x32_S10000x32_1_0_0_1_n_n.contr.Idx) :
    (dot_S10000x128_S128x32_S10000x32_1_0_0_1_n_n.lhsIdx j q 1).val = (q ⟨0, by decide⟩).val :=
  dot_S10000x128_S128x32_S10000x32_1_0_0_1_n_n.lhsIdx_val_of_single rfl j q
/-- the right factor's row is the position in the sum, -/
theorem krhs0_0 (j : S10000x32.Idx) (q : dot_S10000x128_S128x32_S10000x32_1_0_0_1_n_n.contr.Idx) :
    (dot_S10000x128_S128x32_S10000x32_1_0_0_1_n_n.rhsIdx j q 0).val = (q ⟨0, by decide⟩).val :=
  dot_S10000x128_S128x32_S10000x32_1_0_0_1_n_n.rhsIdx_val_of_single rfl j q
/-- its column the output's column. -/
theorem krhs0_1 (j : S10000x32.Idx) (q : dot_S10000x128_S128x32_S10000x32_1_0_0_1_n_n.contr.Idx) :
    (dot_S10000x128_S128x32_S10000x32_1_0_0_1_n_n.rhsIdx j q 1).val = (j 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The body's payload at an entry: the two roundings are the identity, the accumulator is zero, and what is
    left is the sum over the 128 positions of the products of the paired entries. -/
theorem pay0_apply (x0 : Vec Ideal S10000x128 .f32) (x1 : Vec Ideal S128x32 .f32) (j : S10000x32.Idx) :
    k0_pay1 (F := Ideal) x0 x1 j = ∑ k : Fin 128, x0 (lk0 j k) * x1 (rk0 j k) := by
  unfold k0_pay1
  refine (Ideal.matmul_constant_zero_apply dot_S10000x128_S128x32_S10000x32_1_0_0_1_n_n none _ _ j).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx j ((ValueIdx.contrEquiv1 dot_S10000x128_S128x32_S10000x32_1_0_0_1_n_n 128 rfl rfl).symm k) = lk0 j k := funext fun a => Fin.ext (by
    match a with
    | ⟨0, _⟩ => exact klhs0_0 _ _
    | ⟨1, _⟩ => exact (klhs0_1 _ _).trans hk)
  have er : dot_S10000x128_S128x32_S10000x32_1_0_0_1_n_n.rhsIdx j ((ValueIdx.contrEquiv1 dot_S10000x128_S128x32_S10000x32_1_0_0_1_n_n 128 rfl rfl).symm k) = rk0 j k := funext fun a => Fin.ext (by
    match a with
    | ⟨0, _⟩ => exact (krhs0_0 _ _).trans hk
    | ⟨1, _⟩ => exact krhs0_1 _ _)
  rw [el, er]
  rfl

/-! ## The product of the whole arrays at an entry -/

/-- Entry `(i 0, k)` of the left array. -/
abbrev lR0 (i : Cert.ReferenceIdeal.S100000x32.Idx) (k : Fin 128) : Cert.ReferenceIdeal.S100000x128.Idx := fun a => match a with
  | ⟨0, _⟩ => ⟨(i 0).val, (i 0).isLt⟩
  | ⟨1, _⟩ => ⟨k.val, k.isLt⟩
/-- Entry `(k, i 1)` of the right array. -/
abbrev rR0 (i : Cert.ReferenceIdeal.S100000x32.Idx) (k : Fin 128) : Cert.ReferenceIdeal.S128x32.Idx := fun a => match a with
  | ⟨0, _⟩ => ⟨k.val, k.isLt⟩
  | ⟨1, _⟩ => ⟨(i 1).val, (i 1).isLt⟩

theorem rlhs0_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x32_S100000x32_1_0_0_1_n_n.lhsBatch by decide), dif_pos (show (0 : Fin Cert.ReferenceIdeal.S100000x128.rank) ∈ Cert.ReferenceIdeal.dot_S100000x128_S128x32_S100000x32_1_0_0_1_n_n.lhsNonContracting by decide)]
  rfl
theorem rlhs0_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 1).val = (q ⟨0, by decide⟩).val :=
  Cert.ReferenceIdeal.dot_S100000x128_S128x32_S100000x32_1_0_0_1_n_n.lhsIdx_val_of_single rfl i q
theorem rrhs0_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 0).val = (q ⟨0, by decide⟩).val :=
  Cert.ReferenceIdeal.dot_S100000x128_S128x32_S100000x32_1_0_0_1_n_n.rhsIdx_val_of_single rfl i q
theorem rrhs0_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 1).val = (i 1).val := by
  unfold DotDims.rhsIdx
  rw [dif_neg (show ¬(1 : Fin Cert.ReferenceIdeal.S128x32.rank) ∈ Cert.ReferenceIdeal.dot_S100000x128_S128x32_S100000x32_1_0_0_1_n_n.rhsBatch by decide), dif_pos (show (1 : Fin Cert.ReferenceIdeal.S128x32.rank) ∈ Cert.ReferenceIdeal.dot_S100000x128_S128x32_S100000x32_1_0_0_1_n_n.rhsNonContracting by decide)]
  rfl

/-- The product of the whole arrays at an entry is the same sum over the 128 positions. -/
theorem prod0_apply (A : FVec Ideal Cert.ReferenceIdeal.S100000x128 .f32) (B : FVec Ideal Cert.ReferenceIdeal.S128x32 .f32) (i : Cert.ReferenceIdeal.S100000x32.Idx) :
    Host.dotGeneral (F := Ideal) Cert.ReferenceIdeal.dot_S100000x128_S128x32_S100000x32_1_0_0_1_n_n none A B i = ∑ k : Fin 128, A (lR0 i k) * B (rR0 i k) := by
  simp only [Host.dotGeneral]
  rw [Ideal.dotGeneral_apply, ← Equiv.sum_comp (ValueIdx.contrEquiv1 Cert.ReferenceIdeal.dot_S100000x128_S128x32_S100000x32_1_0_0_1_n_n 128 rfl rfl).symm]
  refine Finset.sum_congr rfl fun k _ => ?_
  have hk := ValueIdx.contrEquiv1_symm_val Cert.ReferenceIdeal.dot_S100000x128_S128x32_S100000x32_1_0_0_1_n_n 128 rfl rfl k
  have el : Cert.ReferenceIdeal.dot_S100000x128_S128x32_S100000x32_1_0_0_1_n_n.lhsIdx i ((ValueIdx.contrEquiv1 Cert.ReferenceIdeal.dot_S100000x128_S128x32_S100000x32_1_0_0_1_n_n 128 rfl rfl).symm k) = lR0 i k := funext fun a => Fin.ext (by
    match a with
    | ⟨0, _⟩ => exact rlhs0_0 _ _
    | ⟨1, _⟩ => exact (rlhs0_1 _ _).trans hk)
  have er : Cert.ReferenceIdeal.dot_S100000x128_S128x32_S100000x32_1_0_0_1_n_n.rhsIdx i ((ValueIdx.contrEquiv1 Cert.ReferenceIdeal.dot_S100000x128_S128x32_S100000x32_1_0_0_1_n_n 128 rfl rfl).symm k) = rR0 i k := funext fun a => Fin.ext (by
    match a with
    | ⟨0, _⟩ => exact (rrhs0_0 _ _).trans hk
    | ⟨1, _⟩ => exact rrhs0_1 _ _)
  rw [el, er]

/-- A block's product at entry `j` is the arrays' product at entry `i` as soon as row `j 0` of the left block is
    row `i 0` of the left array and column `j 1` of the right block is column `i 1` of the right array. -/
theorem point0 (A : FVec Ideal Cert.ReferenceIdeal.S100000x128 .f32) (B : FVec Ideal Cert.ReferenceIdeal.S128x32 .f32)
    (x0 : Vec Ideal S10000x128 .f32) (x1 : Vec Ideal S128x32 .f32) (j : S10000x32.Idx) (i : Cert.ReferenceIdeal.S100000x32.Idx)
    (h0 : ∀ k : Fin 128, x0 (lk0 j k) = A (lR0 i k)) (h1 : ∀ k : Fin 128, x1 (rk0 j k) = B (rR0 i k)) :
    k0_pay1 (F := Ideal) x0 x1 j = Host.dotGeneral (F := Ideal) Cert.ReferenceIdeal.dot_S100000x128_S128x32_S100000x32_1_0_0_1_n_n none A B i := by
  rw [pay0_apply, prod0_apply]
  exact Finset.sum_congr rfl fun k _ => by rw [h0 k, h1 k]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The block indices over the grid: at point `t` the left operand and the output are at block row `t`, the right
    operand always at its only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two input arrays as the region finds them. -/
abbrev G0 (c : Dev nD) : Buf (Elt Ideal) ((cfg0.win 2).arr.view.loc (c.tc : Thread nD τ)) :=
  Host.dotGeneral (F := Ideal) (φ₁ := .f32) (φ₂ := .f32) Cert.ReferenceIdeal.dot_S100000x128_S128x32_S100000x32_1_0_0_1_n_n none (V c main_arg0) (V c main_arg6)

/-- What point `t` writes back is block `t` of the product of the arrays. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x32) hz0]
  obtain ⟨e0, e1, e2, e3, e4, e5⟩ := idx_facts0 t
  funext j
  show k0_pay1 (F := Ideal) (iblk0 V c 0 t) (iblk0 V c 1 t) j = G0 V c (((cfg0.win 2).blk t).view.emb j)
  refine point0 (V c main_arg0) (V c main_arg6) _ _ j _ (fun k => ?_) (fun k => ?_)
  · show V c main_arg0 (((cfg0.win 0).blk t).view.emb (lk0 j k)) = V c main_arg0 (lR0 (((cfg0.win 2).blk t).view.emb j) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg6 (((cfg0.win 1).blk t).view.emb (rk0 j k)) = V c main_arg6 (rR0 (((cfg0.win 2).blk t).view.emb j) k)
    refine congrArg (V c main_arg6) (funext fun a => Fin.ext ?_)
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega

/-- An entry of the output array lies in point `t`'s block exactly when each coordinate is in the block's range. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v29).slice (win0_2.rect t)).set ↔ _
  rw [View.set_slice_whole, Rect.mem_set_unit]
  exact Iff.rfl

/-- Every entry of the output array is in some point's block: row `r` is in block `r / 10000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  let t : Fin cfg0.N := ⟨(i 0).val / 10000, by show (i 0).val / 10000 < grid0.N; omega⟩
  have ht : t.val = (i 0).val / 10000 := rfl
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the region the output array is the product of the two input arrays as the region found them. -/
theorem final0 (c : Dev nD) : (dat0 (F := Ideal) V c).arrAt 2 cfg0.N
    = Host.dotGeneral (F := Ideal) (φ₁ := .f32) (φ₂ := .f32) Cert.ReferenceIdeal.dot_S100000x128_S128x32_S100000x32_1_0_0_1_n_n none (V c main_arg0) (V c main_arg6) :=
  (dat0 (F := Ideal) V c).arrAt_eq_of_cover 2 (G0 V c) (fun t _ => flushed0_eq V c t) (cover0)

end Cert.KernelIdeal.Fr

end
-- ==== Proof.KI.Val1.lean ====
import proofs.«178605_j21560735825958_2_alg».proof.Proof.KI.Body1
import proofs.«178605_j21560735825958_2_alg».proof.ReferenceIdeal
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# Region 1: the output array as one expression of the arrays the region finds

At the exact values the body's payload is pointwise apart from two spreads: a one-column block along
the columns and a one-row block along the rows. Each point writes back one block of ten thousand
rows; the ten blocks tile the array, so the array ends at
`max (a0 + a1 * spread a2 + spread a3) 0` index by index.
-/

noncomputable section

namespace Cert.KernelIdeal.Fr

open Cert.KernelIdeal Cert.KernelIdeal.Gen
open Idealize.ShloMosaic Idealize.ShloMosaic.TcCoe Idealize.SL.Sem
open Idealize.ShloMosaic.Pipeline (Dat)

/-! ## Indices -/

theorem hz1 : (![0, 0] : Fin 2 → Nat) = fun _ => 0 := funext fun a => by fin_cases a <;> rfl

/-- Under an index of the array: the same row of the one-column operand, -/
def colA1 (i : S100000x32.Idx) : S100000x1.Idx := fun a => match a with
  | ⟨0, _⟩ => ⟨(i 0).val, (i 0).isLt⟩
  | ⟨1, _⟩ => ⟨0, Nat.one_pos⟩
/-- and the same column of the one-row operand. -/
def rowA1 (i : S100000x32.Idx) : S1x32.Idx := fun a => match a with
  | ⟨0, _⟩ => ⟨0, Nat.one_pos⟩
  | ⟨1, _⟩ => ⟨(i 1).val, (i 1).isLt⟩
/-- The same two maps under an index of a block. -/
def colB1 (j : S10000x32.Idx) : S10000x1.Idx := fun a => match a with
  | ⟨0, _⟩ => ⟨(j 0).val, (j 0).isLt⟩
  | ⟨1, _⟩ => ⟨0, Nat.one_pos⟩
def rowB1 (j : S10000x32.Idx) : S1x32.Idx := fun a => match a with
  | ⟨0, _⟩ => ⟨0, Nat.one_pos⟩
  | ⟨1, _⟩ => ⟨(j 1).val, (j 1).isLt⟩

/-! ## The two sides at an index -/

/-- The host expression of four arrays, -/
abbrev host1 (a0 a1 : S100000x32.Idx → Ideal .f32) (a2 : S100000x1.Idx → Ideal .f32) (a3 : S1x32.Idx → Ideal .f32) : S100000x32.Idx → Ideal .f32 :=
  maximumf (addf (addf a0 (mulf a1 (broadcastInDim Cert.ReferenceIdeal.S100000x32 ![0, 1] Cert.ReferenceIdeal.Facts₀.bcast_S100000x1_S100000x32_0_1 a2))) (broadcastInDim Cert.ReferenceIdeal.S100000x32 ![0, 1] Cert.ReferenceIdeal.Facts₀.bcast_S1x32_S100000x32_0_1 a3)) (broadcastInDim Cert.ReferenceIdeal.S100000x32 ![] Cert.ReferenceIdeal.Facts₀.bcast_S_S100000x32 (constant (F := Ideal) Cert.ReferenceIdeal.S_ .f32 0x00000000#32))

/-- read at an index: `max (a0 i + a1 i * a2 (row of i) + a3 (column of i)) 0`, the zero kept as its word. -/
theorem host1_apply (a0 a1 : S100000x32.Idx → Ideal .f32) (a2 : S100000x1.Idx → Ideal .f32) (a3 : S1x32.Idx → Ideal .f32) (i : S100000x32.Idx) :
    host1 a0 a1 a2 a3 i = max (a0 i + a1 i * a2 (colA1 i) + a3 (rowA1 i)) (Ideal.ofBits .f32 0x00000000#32) := by
  show FloatOps.maximumf (FloatOps.addf (FloatOps.addf (a0 i) (FloatOps.mulf (a1 i) (broadcastInDim Cert.ReferenceIdeal.S100000x32 ![0, 1] Cert.ReferenceIdeal.Facts₀.bcast_S100000x1_S100000x32_0_1 a2 i))) (broadcastInDim Cert.ReferenceIdeal.S100000x32 ![0, 1] Cert.ReferenceIdeal.Facts₀.bcast_S1x32_S100000x32_0_1 a3 i)) (broadcastInDim Cert.ReferenceIdeal.S100000x32 ![] Cert.ReferenceIdeal.Facts₀.bcast_S_S100000x32 (constant (F := Ideal) Cert.ReferenceIdeal.S_ .f32 0x00000000#32) i) = _
  rw [broadcastInDim_apply _ Cert.ReferenceIdeal.Facts₀.bcast_S100000x1_S100000x32_0_1 a2 i (colA1 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Facts₀.bcast_S1x32_S100000x32_0_1 a3 i (rowA1 i) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)]),
    broadcastInDim_apply _ Cert.ReferenceIdeal.Facts₀.bcast_S_S100000x32 (constant (F := Ideal) Cert.ReferenceIdeal.S_ .f32 0x00000000#32) i (fun a => a.elim0) (fun a => a.elim0)]
  rfl

/-- The payload of the body read at an index of the block: the same expression of the four loaded blocks. -/
theorem pay1_apply (x0 x1 : Vec Ideal S10000x32 .f32) (x2 : Vec Ideal S10000x1 .f32) (x3 : Vec Ideal S1x32 .f32) (j : S10000x32.Idx) :
    k1_pay1 x0 x1 x2 x3 j = max (x0 j + x1 j * x2 (colB1 j) + x3 (rowB1 j)) (Ideal.ofBits .f32 0x00000000#32) := by
  unfold k1_pay1
  simp only [shapeCast_self]
  show FloatOps.maximumf (FloatOps.addf (FloatOps.addf (x0 j) (FloatOps.mulf (x1 j) (broadcastTo S10000x32 x2 broadcasts_S10000x1_S10000x32 j))) (broadcastTo S10000x32 x3 broadcasts_S1x32_S10000x32 j)) (Ideal.ofBits .f32 0x00000000#32) = _
  rw [broadcastTo_apply x2 broadcasts_S10000x1_S10000x32 j (colB1 j) (fun a => match a with
      | ⟨0, _⟩ => by show (j 0).val = if (10000 : Nat) = 1 then 0 else (j 0).val; rw [if_neg (by decide)]
      | ⟨1, _⟩ => by show 0 = if (1 : Nat) = 1 then 0 else (j 1).val; rw [if_pos rfl]),
    broadcastTo_apply x3 broadcasts_S1x32_S10000x32 j (rowB1 j) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])]
  rfl

/-! ## The blocks of the windows inside their arrays -/

/-- The block indices over the grid: windows 0, 1, 2 and 4 are at block row `t`, window 3 stays at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Each input block, read where the output block's index says, is the array read at the output's place
    (the one-column operand at its row, the one-row operand at its column). -/
theorem emb1_0 (t : Fin cfg1.N) (j : S10000x32.Idx) : ((cfg1.win 0).blk t).view.emb j = ((cfg1.win 4).blk t).view.emb j := by
  obtain ⟨e00, e01, e10, e11, e20, e21, e30, e31, e40, e41⟩ := idx_facts1 t
  funext a; apply Fin.ext
  match a with
  | ⟨0, _⟩ => show win1_0.index t (0 : Fin 2) * 10000 + 1 * (j 0).val = win1_4.index t (0 : Fin 2) * 10000 + 1 * (j 0).val; omega
  | ⟨1, _⟩ => show win1_0.index t (1 : Fin 2) * 32 + 1 * (j 1).val = win1_4.index t (1 : Fin 2) * 32 + 1 * (j 1).val; omega

theorem emb1_1 (t : Fin cfg1.N) (j : S10000x32.Idx) : ((cfg1.win 1).blk t).view.emb j = ((cfg1.win 4).blk t).view.emb j := by
  obtain ⟨e00, e01, e10, e11, e20, e21, e30, e31, e40, e41⟩ := idx_facts1 t
  funext a; apply Fin.ext
  match a with
  | ⟨0, _⟩ => show win1_1.index t (0 : Fin 2) * 10000 + 1 * (j 0).val = win1_4.index t (0 : Fin 2) * 10000 + 1 * (j 0).val; omega
  | ⟨1, _⟩ => show win1_1.index t (1 : Fin 2) * 32 + 1 * (j 1).val = win1_4.index t (1 : Fin 2) * 32 + 1 * (j 1).val; omega

theorem emb1_2 (t : Fin cfg1.N) (j : S10000x32.Idx) : ((cfg1.win 2).blk t).view.emb (colB1 j) = colA1 (((cfg1.win 4).blk t).view.emb j) := by
  obtain ⟨e00, e01, e10, e11, e20, e21, e30, e31, e40, e41⟩ := idx_facts1 t
  funext a; apply Fin.ext
  match a with
  | ⟨0, _⟩ => show win1_2.index t (0 : Fin 2) * 10000 + 1 * (j 0).val = win1_4.index t (0 : Fin 2) * 10000 + 1 * (j 0).val; omega
  | ⟨1, _⟩ => show win1_2.index t (1 : Fin 2) * 1 + 1 * 0 = 0; omega

theorem emb1_3 (t : Fin cfg1.N) (j : S10000x32.Idx) : ((cfg1.win 3).blk t).view.emb (rowB1 j) = rowA1 (((cfg1.win 4).blk t).view.emb j) := by
  obtain ⟨e00, e01, e10, e11, e20, e21, e30, e31, e40, e41⟩ := idx_facts1 t
  funext a; apply Fin.ext
  match a with
  | ⟨0, _⟩ => show win1_3.index t (0 : Fin 2) * 1 + 1 * 0 = 0; omega
  | ⟨1, _⟩ => show win1_3.index t (1 : Fin 2) * 32 + 1 * (j 1).val = win1_4.index t (1 : Fin 2) * 32 + 1 * (j 1).val; omega

/-- The expression of the four input blocks at a block index is the host expression of the arrays at
    the place of that index in the output block. -/
theorem block1_eq (A0 A1 : S100000x32.Idx → Ideal .f32) (A2 : S100000x1.Idx → Ideal .f32) (A3 : S1x32.Idx → Ideal .f32) (t : Fin cfg1.N) (j : S10000x32.Idx) :
    max (A0 (((cfg1.win 0).blk t).view.emb j) + A1 (((cfg1.win 1).blk t).view.emb j) * A2 (((cfg1.win 2).blk t).view.emb (colB1 j)) + A3 (((cfg1.win 3).blk t).view.emb (rowB1 j))) (Ideal.ofBits .f32 0x00000000#32)
      = host1 A0 A1 A2 A3 (((cfg1.win 4).blk t).view.emb j) := by
  rw [host1_apply, emb1_0, emb1_1, emb1_2, emb1_3]

/-- An index of the array is in the output block of point `t` iff each coordinate is in the block's range. -/
theorem mem_blk1 (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v43).slice (win1_4.rect t)).set ↔ _
  rw [View.set_slice_whole, Rect.mem_set_unit]
  exact Iff.rfl

/-- Every index of the output array is in the block of the point `row / 10000`. -/
theorem cover1 (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 10 := N_1
  have ht : (i 0).val / 10000 < cfg1.N := by show (i 0).val / 10000 < grid1.N; rw [hN]; omega
  obtain ⟨e00, e01, e10, e11, e20, e21, e30, e31, e40, e41⟩ := idx_facts1 ⟨(i 0).val / 10000, ht⟩
  refine ⟨⟨(i 0).val / 10000, ht⟩, flush1_4 _, ?_⟩
  rw [mem_blk1]
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e40]; show (i 0).val / 10000 * 10000 ≤ (i 0).val ∧ (i 0).val < (i 0).val / 10000 * 10000 + 10000; omega
  | ⟨1, _⟩ =>
    show win1_4.index ⟨(i 0).val / 10000, ht⟩ (1 : Fin 2) * 32 ≤ (i 1).val ∧ (i 1).val < win1_4.index ⟨(i 0).val / 10000, ht⟩ (1 : Fin 2) * 32 + 32
    rw [e41]; omega

/-! ## From the blocks to the array -/

variable (V : (c : Dev nD) → (b : Ref sig .tc) → Buf (Elt Ideal) ((c : Thread nD τ).loc b))

/-- What point `t` writes back is block `t` of the host expression of the arrays the region finds. -/
theorem flushed1_eq (c : Dev nD) (t : Fin cfg1.N) :
    (dat1 (F := Ideal) V c).flushed 4 t = ((cfg1.win 4).blk t).view.read (Elt Ideal) (host1 (V c main_v41) (V c main_v29) (V c main_v12) (V c main_v42)) := by
  show (cfg1.win 4).cut (grid1.coords t) ((dat1 (F := Ideal) V c).after 4 t) = _
  rw [after1_4]
  unfold out1_4
  rw [View.canon_unit_zero hz1]
  simp only [View.ld_unit_zero (S := S10000x32) hz1, View.ld_unit_zero (S := S10000x1) hz1, View.ld_unit_zero (S := S1x32) hz1]
  funext j
  refine (pay1_apply (iblk1 V c 0 t) (iblk1 V c 1 t) (iblk1 V c 2 t) (iblk1 V c 3 t) j).trans ?_
  exact block1_eq (V c main_v41) (V c main_v29) (V c main_v12) (V c main_v42) t j

/-- The output array after the region: the host expression of the arrays the region finds. -/
theorem final1 (c : Dev nD) : (dat1 (F := Ideal) V c).arrAt 4 cfg1.N = (maximumf (addf (addf (V c main_v41) (mulf (V c main_v29) (broadcastInDim Cert.ReferenceIdeal.S100000x32 ![0, 1] Cert.ReferenceIdeal.Facts₀.bcast_S100000x1_S100000x32_0_1 (V c main_v12)))) (broadcastInDim Cert.ReferenceIdeal.S100000x32 ![0, 1] Cert.ReferenceIdeal.Facts₀.bcast_S1x32_S100000x32_0_1 (V c main_v42))) (broadcastInDim Cert.ReferenceIdeal.S100000x32 ![] Cert.ReferenceIdeal.Facts₀.bcast_S_S100000x32 (constant (F := Ideal) Cert.ReferenceIdeal.S_ .f32 0x00000000#32)) : Buf (Elt Ideal) ((c : Thread nD τ).loc main_v43)) :=
  (dat1 (F := Ideal) V c).arrAt_eq_of_cover 4 (host1 (V c main_v41) (V c main_v29) (V c main_v12) (V c main_v42)) (fun t _ => flushed1_eq V c t) cover1

end Cert.KernelIdeal.Fr

end
-- ==== Proof.KI.Val2.lean ====
import proofs.«178605_j21560735825958_2_alg».proof.Proof.KI.Body2
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# Region 2 over the extended reals: the output array is the matrix product of the two input arrays

Over the extended reals a change of float format is the identity and a product accumulated into zero is a plain
sum, so the body's payload at entry `(r, n)` of a block is `∑ k, x (r, k) * y (k, n)`. Point `t` of the grid
works on rows `10000 t … 10000 t + 9999` of the first array and on the whole second array, and writes back rows
`10000 t … 10000 t + 9999` of the output. Entry `(10000 t + r, n)` of the product of the whole arrays is the same sum,
because row `r` of the block is row `10000 t + r` of the array. The 10 blocks cover the 100000 rows, so after
the region the output array is the product.
-/

noncomputable section

namespace Cert.KernelIdeal.Fr

open Cert.KernelIdeal Cert.KernelIdeal.Gen Idealize.ShloMosaic Idealize.ShloMosaic.TcCoe Idealize.SL.Sem
open Idealize.ShloMosaic.Pipeline (Dat)

/-! ## The product of a block at an entry -/

/-- Entry `(j 0, k)` of the left block. -/
abbrev lk2 (j : S10000x32.Idx) (k : Fin 32) : S10000x32.Idx := fun a => match a with
  | ⟨0, _⟩ => ⟨(j 0).val, (j 0).isLt⟩
  | ⟨1, _⟩ => ⟨k.val, k.isLt⟩
/-- Entry `(k, j 1)` of the right block. -/
abbrev rk2 (j : S10000x32.Idx) (k : Fin 32) : S32x32.Idx := fun a => match a with
  | ⟨0, _⟩ => ⟨k.val, k.isLt⟩
  | ⟨1, _⟩ => ⟨(j 1).val, (j 1).isLt⟩

/-- The left factor's row is the output's row, -/
theorem klhs2_0 (j : S10000x32.Idx) (q : dot_S10000x32_S32x32_S10000x32_1_0_0_1_n_n.contr.Idx) :
    (dot_S10000x32_S32x32_S10000x32_1_0_0_1_n_n.lhsIdx j q 0).val = (j 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- its column the position in the sum; -/
theorem klhs2_1 (j : S10000x32.Idx) (q : dot_S10000x32_S32x32_S10000x32_1_0_0_1_n_n.contr.Idx) :
    (dot_S10000x32_S32x32_S10000x32_1_0_0_1_n_n.lhsIdx j q 1).val = (q ⟨0, by decide⟩).val :=
  dot_S10000x32_S32x32_S10000x32_1_0_0_1_n_n.lhsIdx_val_of_single rfl j q
/-- the right factor's row is the position in the sum, -/
theorem krhs2_0 (j : S10000x32.Idx) (q : dot_S10000x32_S32x32_S10000x32_1_0_0_1_n_n.contr.Idx) :
    (dot_S10000x32_S32x32_S10000x32_1_0_0_1_n_n.rhsIdx j q 0).val = (q ⟨0, by decide⟩).val :=
  dot_S10000x32_S32x32_S10000x32_1_0_0_1_n_n.rhsIdx_val_of_single rfl j q
/-- its column the output's column. -/
theorem krhs2_1 (j : S10000x32.Idx) (q : dot_S10000x32_S32x32_S10000x32_1_0_0_1_n_n.contr.Idx) :
    (dot_S10000x32_S32x32_S10000x32_1_0_0_1_n_n.rhsIdx j q 1).val = (j 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The body's payload at an entry: the two roundings are the identity, the accumulator is zero, and what is
    left is the sum over the 32 positions of the products of the paired entries. -/
theorem pay2_apply (x0 : Vec Ideal S10000x32 .f32) (x1 : Vec Ideal S32x32 .f32) (j : S10000x32.Idx) :
    k2_pay1 (F := Ideal) x0 x1 j = ∑ k : Fin 32, x0 (lk2 j k) * x1 (rk2 j k) := by
  unfold k2_pay1
  refine (Ideal.matmul_constant_zero_apply dot_S10000x32_S32x32_S10000x32_1_0_0_1_n_n none _ _ j).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx j ((ValueIdx.contrEquiv1 dot_S10000x32_S32x32_S10000x32_1_0_0_1_n_n 32 rfl rfl).symm k) = lk2 j k := funext fun a => Fin.ext (by
    match a with
    | ⟨0, _⟩ => exact klhs2_0 _ _
    | ⟨1, _⟩ => exact (klhs2_1 _ _).trans hk)
  have er : dot_S10000x32_S32x32_S10000x32_1_0_0_1_n_n.rhsIdx j ((ValueIdx.contrEquiv1 dot_S10000x32_S32x32_S10000x32_1_0_0_1_n_n 32 rfl rfl).symm k) = rk2 j k := funext fun a => Fin.ext (by
    match a with
    | ⟨0, _⟩ => exact (krhs2_0 _ _).trans hk
    | ⟨1, _⟩ => exact krhs2_1 _ _)
  rw [el, er]
  exact congrArg (fun z : EReal => z * x1 (rk2 j k)) (congrFun (shapeCast_self x0 shapeCasts_S10000x32_S10000x32) (lk2 j k))

/-! ## The product of the whole arrays at an entry -/

/-- Entry `(i 0, k)` of the left array. -/
abbrev lR2 (i : Cert.ReferenceIdeal.S100000x32.Idx) (k : Fin 32) : Cert.ReferenceIdeal.S100000x32.Idx := fun a => match a with
  | ⟨0, _⟩ => ⟨(i 0).val, (i 0).isLt⟩
  | ⟨1, _⟩ => ⟨k.val, k.isLt⟩
/-- Entry `(k, i 1)` of the right array. -/
abbrev rR2 (i : Cert.ReferenceIdeal.S100000x32.Idx) (k : Fin 32) : Cert.ReferenceIdeal.S32x32.Idx := fun a => match a with
  | ⟨0, _⟩ => ⟨k.val, k.isLt⟩
  | ⟨1, _⟩ => ⟨(i 1).val, (i 1).isLt⟩

theorem rlhs2_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem rlhs2_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem rrhs2_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem rrhs2_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-- The product of the whole arrays at an entry is the same sum over the 32 positions. -/
theorem prod2_apply (A : FVec Ideal Cert.ReferenceIdeal.S100000x32 .f32) (B : FVec Ideal Cert.ReferenceIdeal.S32x32 .f32) (i : Cert.ReferenceIdeal.S100000x32.Idx) :
    Host.dotGeneral (F := Ideal) Cert.ReferenceIdeal.dot_S100000x32_S32x32_S100000x32_1_0_0_1_n_n none A B i = ∑ k : Fin 32, A (lR2 i k) * B (rR2 i k) := by
  simp only [Host.dotGeneral]
  rw [Ideal.dotGeneral_apply, ← Equiv.sum_comp (ValueIdx.contrEquiv1 Cert.ReferenceIdeal.dot_S100000x32_S32x32_S100000x32_1_0_0_1_n_n 32 rfl rfl).symm]
  refine Finset.sum_congr rfl fun k _ => ?_
  have hk := ValueIdx.contrEquiv1_symm_val Cert.ReferenceIdeal.dot_S100000x32_S32x32_S100000x32_1_0_0_1_n_n 32 rfl rfl k
  have el : Cert.ReferenceIdeal.dot_S100000x32_S32x32_S100000x32_1_0_0_1_n_n.lhsIdx i ((ValueIdx.contrEquiv1 Cert.ReferenceIdeal.dot_S100000x32_S32x32_S100000x32_1_0_0_1_n_n 32 rfl rfl).symm k) = lR2 i k := funext fun a => Fin.ext (by
    match a with
    | ⟨0, _⟩ => exact rlhs2_0 _ _
    | ⟨1, _⟩ => exact (rlhs2_1 _ _).trans hk)
  have er : Cert.ReferenceIdeal.dot_S100000x32_S32x32_S100000x32_1_0_0_1_n_n.rhsIdx i ((ValueIdx.contrEquiv1 Cert.ReferenceIdeal.dot_S100000x32_S32x32_S100000x32_1_0_0_1_n_n 32 rfl rfl).symm k) = rR2 i k := funext fun a => Fin.ext (by
    match a with
    | ⟨0, _⟩ => exact (rrhs2_0 _ _).trans hk
    | ⟨1, _⟩ => exact rrhs2_1 _ _)
  rw [el, er]

/-- A block's product at entry `j` is the arrays' product at entry `i` as soon as row `j 0` of the left block is
    row `i 0` of the left array and column `j 1` of the right block is column `i 1` of the right array. -/
theorem point2 (A : FVec Ideal Cert.ReferenceIdeal.S100000x32 .f32) (B : FVec Ideal Cert.ReferenceIdeal.S32x32 .f32)
    (x0 : Vec Ideal S10000x32 .f32) (x1 : Vec Ideal S32x32 .f32) (j : S10000x32.Idx) (i : Cert.ReferenceIdeal.S100000x32.Idx)
    (h0 : ∀ k : Fin 32, x0 (lk2 j k) = A (lR2 i k)) (h1 : ∀ k : Fin 32, x1 (rk2 j k) = B (rR2 i k)) :
    k2_pay1 (F := Ideal) x0 x1 j = Host.dotGeneral (F := Ideal) Cert.ReferenceIdeal.dot_S100000x32_S32x32_S100000x32_1_0_0_1_n_n none A B i := by
  rw [pay2_apply, prod2_apply]
  exact Finset.sum_congr rfl fun k _ => by rw [h0 k, h1 k]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The block indices over the grid: at point `t` the left operand and the output are at block row `t`, the right
    operand always at its only block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the two input arrays as the region finds them. -/
abbrev G2 (c : Dev nD) : Buf (Elt Ideal) ((cfg2.win 2).arr.view.loc (c.tc : Thread nD τ)) :=
  Host.dotGeneral (F := Ideal) (φ₁ := .f32) (φ₂ := .f32) Cert.ReferenceIdeal.dot_S100000x32_S32x32_S100000x32_1_0_0_1_n_n none (V c main_v43) (V c main_arg8)

/-- What point `t` writes back is block `t` of the product of the arrays. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S10000x32) hz2, View.ld_unit_zero (S := S32x32) hz2]
  obtain ⟨e0, e1, e2, e3, e4, e5⟩ := idx_facts2 t
  funext j
  show k2_pay1 (F := Ideal) (iblk2 V c 0 t) (iblk2 V c 1 t) j = G2 V c (((cfg2.win 2).blk t).view.emb j)
  refine point2 (V c main_v43) (V c main_arg8) _ _ j _ (fun k => ?_) (fun k => ?_)
  · show V c main_v43 (((cfg2.win 0).blk t).view.emb (lk2 j k)) = V c main_v43 (lR2 (((cfg2.win 2).blk t).view.emb j) k)
    refine congrArg (V c main_v43) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 32 + 1 * k.val = k.val; omega
  · show V c main_arg8 (((cfg2.win 1).blk t).view.emb (rk2 j k)) = V c main_arg8 (rR2 (((cfg2.win 2).blk t).view.emb j) k)
    refine congrArg (V c main_arg8) (funext fun a => Fin.ext ?_)
    match a with
    | ⟨0, _⟩ => show win2_1.index t (0 : Fin 2) * 32 + 1 * k.val = k.val; omega
    | ⟨1, _⟩ => show win2_1.index t (1 : Fin 2) * 32 + 1 * (j 1).val = win2_2.index t (1 : Fin 2) * 32 + 1 * (j 1).val; omega

/-- An entry of the output array lies in point `t`'s block exactly when each coordinate is in the block's range. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v44).slice (win2_2.rect t)).set ↔ _
  rw [View.set_slice_whole, Rect.mem_set_unit]
  exact Iff.rfl

/-- Every entry of the output array is in some point's block: row `r` is in block `r / 10000`. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; omega⟩
  have ht : t.val = (i 0).val / 10000 := rfl
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After the region the output array is the product of the two input arrays as the region found them. -/
theorem final2 (c : Dev nD) : (dat2 (F := Ideal) V c).arrAt 2 cfg2.N
    = Host.dotGeneral (F := Ideal) (φ₁ := .f32) (φ₂ := .f32) Cert.ReferenceIdeal.dot_S100000x32_S32x32_S100000x32_1_0_0_1_n_n none (V c main_v43) (V c main_arg8) :=
  (dat2 (F := Ideal) V c).arrAt_eq_of_cover 2 (G2 V c) (fun t _ => flushed2_eq V c t) (cover2)

end Cert.KernelIdeal.Fr

end
-- ==== Proof.KI.Val3.lean ====
import proofs.«178605_j21560735825958_2_alg».proof.Proof.KI.Body3
import proofs.«178605_j21560735825958_2_alg».proof.ReferenceIdeal
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-!
# Region 3: the output array as one expression of the arrays the region finds

At the exact values the body's payload is pointwise apart from two spreads: a one-column block along
the columns and a one-row block along the rows. Each point writes back one block of ten thousand
rows; the ten blocks tile the array, so the array ends at
`max (a0 + a1 * spread a2 + spread a3) 0` index by index.
-/

noncomputable section

namespace Cert.KernelIdeal.Fr

open Cert.KernelIdeal Cert.KernelIdeal.Gen
open Idealize.ShloMosaic Idealize.ShloMosaic.TcCoe Idealize.SL.Sem
open Idealize.ShloMosaic.Pipeline (Dat)

/-! ## Indices -/

theorem hz3 : (![0, 0] : Fin 2 → Nat) = fun _ => 0 := funext fun a => by fin_cases a <;> rfl

/-- Under an index of the array: the same row of the one-column operand, -/
def colA3 (i : S100000x32.Idx) : S100000x1.Idx := fun a => match a with
  | ⟨0, _⟩ => ⟨(i 0).val, (i 0).isLt⟩
  | ⟨1, _⟩ => ⟨0, Nat.one_pos⟩
/-- and the same column of the one-row operand. -/
def rowA3 (i : S100000x32.Idx) : S1x32.Idx := fun a => match a with
  | ⟨0, _⟩ => ⟨0, Nat.one_pos⟩
  | ⟨1, _⟩ => ⟨(i 1).val, (i 1).isLt⟩
/-- The same two maps under an index of a block. -/
def colB3 (j : S10000x32.Idx) : S10000x1.Idx := fun a => match a with
  | ⟨0, _⟩ => ⟨(j 0).val, (j 0).isLt⟩
  | ⟨1, _⟩ => ⟨0, Nat.one_pos⟩
def rowB3 (j : S10000x32.Idx) : S1x32.Idx := fun a => match a with
  | ⟨0, _⟩ => ⟨0, Nat.one_pos⟩
  | ⟨1, _⟩ => ⟨(j 1).val, (j 1).isLt⟩

/-! ## The two sides at an index -/

/-- The host expression of four arrays, -/
abbrev host3 (a0 a1 : S100000x32.Idx → Ideal .f32) (a2 : S100000x1.Idx → Ideal .f32) (a3 : S1x32.Idx → Ideal .f32) : S100000x32.Idx → Ideal .f32 :=
  maximumf (addf (addf a0 (mulf a1 (broadcastInDim Cert.ReferenceIdeal.S100000x32 ![0, 1] Cert.ReferenceIdeal.Facts₀.bcast_S100000x1_S100000x32_0_1 a2))) (broadcastInDim Cert.ReferenceIdeal.S100000x32 ![0, 1] Cert.ReferenceIdeal.Facts₀.bcast_S1x32_S100000x32_0_1 a3)) (broadcastInDim Cert.ReferenceIdeal.S100000x32 ![] Cert.ReferenceIdeal.Facts₀.bcast_S_S100000x32 (constant (F := Ideal) Cert.ReferenceIdeal.S_ .f32 0x00000000#32))

/-- read at an index: `max (a0 i + a1 i * a2 (row of i) + a3 (column of i)) 0`, the zero kept as its word. -/
theorem host3_apply (a0 a1 : S100000x32.Idx → Ideal .f32) (a2 : S100000x1.Idx → Ideal .f32) (a3 : S1x32.Idx → Ideal .f32) (i : S100000x32.Idx) :
    host3 a0 a1 a2 a3 i = max (a0 i + a1 i * a2 (colA3 i) + a3 (rowA3 i)) (Ideal.ofBits .f32 0x00000000#32) := by
  show FloatOps.maximumf (FloatOps.addf (FloatOps.addf (a0 i) (FloatOps.mulf (a1 i) (broadcastInDim Cert.ReferenceIdeal.S100000x32 ![0, 1] Cert.ReferenceIdeal.Facts₀.bcast_S100000x1_S100000x32_0_1 a2 i))) (broadcastInDim Cert.ReferenceIdeal.S100000x32 ![0, 1] Cert.ReferenceIdeal.Facts₀.bcast_S1x32_S100000x32_0_1 a3 i)) (broadcastInDim Cert.ReferenceIdeal.S100000x32 ![] Cert.ReferenceIdeal.Facts₀.bcast_S_S100000x32 (constant (F := Ideal) Cert.ReferenceIdeal.S_ .f32 0x00000000#32) i) = _
  rw [broadcastInDim_apply _ Cert.ReferenceIdeal.Facts₀.bcast_S100000x1_S100000x32_0_1 a2 i (colA3 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Facts₀.bcast_S1x32_S100000x32_0_1 a3 i (rowA3 i) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)]),
    broadcastInDim_apply _ Cert.ReferenceIdeal.Facts₀.bcast_S_S100000x32 (constant (F := Ideal) Cert.ReferenceIdeal.S_ .f32 0x00000000#32) i (fun a => a.elim0) (fun a => a.elim0)]
  rfl

/-- The payload of the body read at an index of the block: the same expression of the four loaded blocks. -/
theorem pay3_apply (x0 x1 : Vec Ideal S10000x32 .f32) (x2 : Vec Ideal S10000x1 .f32) (x3 : Vec Ideal S1x32 .f32) (j : S10000x32.Idx) :
    k3_pay1 x0 x1 x2 x3 j = max (x0 j + x1 j * x2 (colB3 j) + x3 (rowB3 j)) (Ideal.ofBits .f32 0x00000000#32) := by
  unfold k3_pay1
  simp only [shapeCast_self]
  show FloatOps.maximumf (FloatOps.addf (FloatOps.addf (x0 j) (FloatOps.mulf (x1 j) (broadcastTo S10000x32 x2 broadcasts_S10000x1_S10000x32 j))) (broadcastTo S10000x32 x3 broadcasts_S1x32_S10000x32 j)) (Ideal.ofBits .f32 0x00000000#32) = _
  rw [broadcastTo_apply x2 broadcasts_S10000x1_S10000x32 j (colB3 j) (fun a => match a with
      | ⟨0, _⟩ => by show (j 0).val = if (10000 : Nat) = 1 then 0 else (j 0).val; rw [if_neg (by decide)]
      | ⟨1, _⟩ => by show 0 = if (1 : Nat) = 1 then 0 else (j 1).val; rw [if_pos rfl]),
    broadcastTo_apply x3 broadcasts_S1x32_S10000x32 j (rowB3 j) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])]
  rfl

/-! ## The blocks of the windows inside their arrays -/

/-- The block indices over the grid: windows 0, 1, 2 and 4 are at block row `t`, window 3 stays at its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Each input block, read where the output block's index says, is the array read at the output's place
    (the one-column operand at its row, the one-row operand at its column). -/
theorem emb3_0 (t : Fin cfg3.N) (j : S10000x32.Idx) : ((cfg3.win 0).blk t).view.emb j = ((cfg3.win 4).blk t).view.emb j := by
  obtain ⟨e00, e01, e10, e11, e20, e21, e30, e31, e40, e41⟩ := idx_facts3 t
  funext a; apply Fin.ext
  match a with
  | ⟨0, _⟩ => show win3_0.index t (0 : Fin 2) * 10000 + 1 * (j 0).val = win3_4.index t (0 : Fin 2) * 10000 + 1 * (j 0).val; omega
  | ⟨1, _⟩ => show win3_0.index t (1 : Fin 2) * 32 + 1 * (j 1).val = win3_4.index t (1 : Fin 2) * 32 + 1 * (j 1).val; omega

theorem emb3_1 (t : Fin cfg3.N) (j : S10000x32.Idx) : ((cfg3.win 1).blk t).view.emb j = ((cfg3.win 4).blk t).view.emb j := by
  obtain ⟨e00, e01, e10, e11, e20, e21, e30, e31, e40, e41⟩ := idx_facts3 t
  funext a; apply Fin.ext
  match a with
  | ⟨0, _⟩ => show win3_1.index t (0 : Fin 2) * 10000 + 1 * (j 0).val = win3_4.index t (0 : Fin 2) * 10000 + 1 * (j 0).val; omega
  | ⟨1, _⟩ => show win3_1.index t (1 : Fin 2) * 32 + 1 * (j 1).val = win3_4.index t (1 : Fin 2) * 32 + 1 * (j 1).val; omega

theorem emb3_2 (t : Fin cfg3.N) (j : S10000x32.Idx) : ((cfg3.win 2).blk t).view.emb (colB3 j) = colA3 (((cfg3.win 4).blk t).view.emb j) := by
  obtain ⟨e00, e01, e10, e11, e20, e21, e30, e31, e40, e41⟩ := idx_facts3 t
  funext a; apply Fin.ext
  match a with
  | ⟨0, _⟩ => show win3_2.index t (0 : Fin 2) * 10000 + 1 * (j 0).val = win3_4.index t (0 : Fin 2) * 10000 + 1 * (j 0).val; omega
  | ⟨1, _⟩ => show win3_2.index t (1 : Fin 2) * 1 + 1 * 0 = 0; omega

theorem emb3_3 (t : Fin cfg3.N) (j : S10000x32.Idx) : ((cfg3.win 3).blk t).view.emb (rowB3 j) = rowA3 (((cfg3.win 4).blk t).view.emb j) := by
  obtain ⟨e00, e01, e10, e11, e20, e21, e30, e31, e40, e41⟩ := idx_facts3 t
  funext a; apply Fin.ext
  match a with
  | ⟨0, _⟩ => show win3_3.index t (0 : Fin 2) * 1 + 1 * 0 = 0; omega
  | ⟨1, _⟩ => show win3_3.index t (1 : Fin 2) * 32 + 1 * (j 1).val = win3_4.index t (1 : Fin 2) * 32 + 1 * (j 1).val; omega

/-- The expression of the four input blocks at a block index is the host expression of the arrays at
    the place of that index in the output block. -/
theorem block3_eq (A0 A1 : S100000x32.Idx → Ideal .f32) (A2 : S100000x1.Idx → Ideal .f32) (A3 : S1x32.Idx → Ideal .f32) (t : Fin cfg3.N) (j : S10000x32.Idx) :
    max (A0 (((cfg3.win 0).blk t).view.emb j) + A1 (((cfg3.win 1).blk t).view.emb j) * A2 (((cfg3.win 2).blk t).view.emb (colB3 j)) + A3 (((cfg3.win 3).blk t).view.emb (rowB3 j))) (Ideal.ofBits .f32 0x00000000#32)
      = host3 A0 A1 A2 A3 (((cfg3.win 4).blk t).view.emb j) := by
  rw [host3_apply, emb3_0, emb3_1, emb3_2, emb3_3]

/-- An index of the array is in the output block of point `t` iff each coordinate is in the block's range. -/
theorem mem_blk3 (t : Fin cfg3.N) (i : S100000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v58).slice (win3_4.rect t)).set ↔ _
  rw [View.set_slice_whole, Rect.mem_set_unit]
  exact Iff.rfl

/-- Every index of the output array is in the block of the point `row / 10000`. -/
theorem cover3 (i : S100000x32.Idx) : ∃ t : Fin cfg3.N, (cfg3.win 4).flush t = true ∧ i ∈ ((cfg3.win 4).blk t).view.set := by
  have hi0 : (i 0).val < 100000 := (i 0).isLt
  have hi1 : (i 1).val < 32 := (i 1).isLt
  have hN : grid3.N = 10 := N_3
  have ht : (i 0).val / 10000 < cfg3.N := by show (i 0).val / 10000 < grid3.N; rw [hN]; omega
  obtain ⟨e00, e01, e10, e11, e20, e21, e30, e31, e40, e41⟩ := idx_facts3 ⟨(i 0).val / 10000, ht⟩
  refine ⟨⟨(i 0).val / 10000, ht⟩, flush3_4 _, ?_⟩
  rw [mem_blk3]
  intro a
  match a with
  | ⟨0, _⟩ =>
    show win3_4.index ⟨(i 0).val / 10000, ht⟩ (0 : Fin 2) * 10000 ≤ (i 0).val ∧ (i 0).val < win3_4.index ⟨(i 0).val / 10000, ht⟩ (0 : Fin 2) * 10000 + 10000
    rw [e40]; show (i 0).val / 10000 * 10000 ≤ (i 0).val ∧ (i 0).val < (i 0).val / 10000 * 10000 + 10000; omega
  | ⟨1, _⟩ =>
    show win3_4.index ⟨(i 0).val / 10000, ht⟩ (1 : Fin 2) * 32 ≤ (i 1).val ∧ (i 1).val < win3_4.index ⟨(i 0).val / 10000, ht⟩ (1 : Fin 2) * 32 + 32
    rw [e41]; omega

/-! ## From the blocks to the array -/

variable (V : (c : Dev nD) → (b : Ref sig .tc) → Buf (Elt Ideal) ((c : Thread nD τ).loc b))

/-- What point `t` writes back is block `t` of the host expression of the arrays the region finds. -/
theorem flushed3_eq (c : Dev nD) (t : Fin cfg3.N) :
    (dat3 (F := Ideal) V c).flushed 4 t = ((cfg3.win 4).blk t).view.read (Elt Ideal) (host3 (V c main_v56) (V c main_v44) (V c main_v12) (V c main_v57)) := by
  show (cfg3.win 4).cut (grid3.coords t) ((dat3 (F := Ideal) V c).after 4 t) = _
  rw [after3_4]
  unfold out3_4
  rw [View.canon_unit_zero hz3]
  simp only [View.ld_unit_zero (S := S10000x32) hz3, View.ld_unit_zero (S := S10000x1) hz3, View.ld_unit_zero (S := S1x32) hz3]
  funext j
  refine (pay3_apply (iblk3 V c 0 t) (iblk3 V c 1 t) (iblk3 V c 2 t) (iblk3 V c 3 t) j).trans ?_
  exact block3_eq (V c main_v56) (V c main_v44) (V c main_v12) (V c main_v57) t j

/-- The output array after the region: the host expression of the arrays the region finds. -/
theorem final3 (c : Dev nD) : (dat3 (F := Ideal) V c).arrAt 4 cfg3.N = (maximumf (addf (addf (V c main_v56) (mulf (V c main_v44) (broadcastInDim Cert.ReferenceIdeal.S100000x32 ![0, 1] Cert.ReferenceIdeal.Facts₀.bcast_S100000x1_S100000x32_0_1 (V c main_v12)))) (broadcastInDim Cert.ReferenceIdeal.S100000x32 ![0, 1] Cert.ReferenceIdeal.Facts₀.bcast_S1x32_S100000x32_0_1 (V c main_v57))) (broadcastInDim Cert.ReferenceIdeal.S100000x32 ![] Cert.ReferenceIdeal.Facts₀.bcast_S_S100000x32 (constant (F := Ideal) Cert.ReferenceIdeal.S_ .f32 0x00000000#32)) : Buf (Elt Ideal) ((c : Thread nD τ).loc main_v58)) :=
  (dat3 (F := Ideal) V c).arrAt_eq_of_cover 4 (host3 (V c main_v56) (V c main_v44) (V c main_v12) (V c main_v57)) (fun t _ => flushed3_eq V c t) cover3

end Cert.KernelIdeal.Fr

end
-- ==== Proof.KI.Val4.lean ====
import proofs.«178605_j21560735825958_2_alg».proof.Proof.KI.Body4
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

/-!
# Region 4 at the ideal values: the output array as one host expression

The body computes, on each row of its block, the two-layer perceptron `max (x W₁ + b₁) 0 · W₂ + b₂`; the host
expression computes the same on each row of the whole array. Both are read at an index as the same double sum, the
blocks are matched with the rows of the arrays, and the blocks cover the output.
-/

theorem hz4 : (![0, 0] : Fin 2 → Nat) = fun _ => 0 := funext fun a => by fin_cases a <;> rfl

/-! The dot `dot_S5000x66_S66x32_S5000x32_1_0_0_1_n_n`: [5000, 66] by [66, 32], contracting the left operand's columns with the right
    operand's rows. At result index (p, c) and contraction position k the operands are read at (p, k) and (k, c). -/
theorem dk4a_l0 (i : S5000x32.Idx) (q : dot_S5000x66_S66x32_S5000x32_1_0_0_1_n_n.contr.Idx) : (dot_S5000x66_S66x32_S5000x32_1_0_0_1_n_n.lhsIdx i q 0).val = (i 0).val := by
  unfold DotDims.lhsIdx
  rw [dif_neg (show ¬(0 : Fin S5000x66.rank) ∈ dot_S5000x66_S66x32_S5000x32_1_0_0_1_n_n.lhsBatch by decide), dif_pos (show (0 : Fin S5000x66.rank) ∈ dot_S5000x66_S66x32_S5000x32_1_0_0_1_n_n.lhsNonContracting by decide)]
  rfl
theorem dk4a_l1 (i : S5000x32.Idx) (q : dot_S5000x66_S66x32_S5000x32_1_0_0_1_n_n.contr.Idx) : (dot_S5000x66_S66x32_S5000x32_1_0_0_1_n_n.lhsIdx i q 1).val = (q ⟨0, by decide⟩).val :=
  dot_S5000x66_S66x32_S5000x32_1_0_0_1_n_n.lhsIdx_val_of_single rfl i q
theorem dk4a_r0 (i : S5000x32.Idx) (q : dot_S5000x66_S66x32_S5000x32_1_0_0_1_n_n.contr.Idx) : (dot_S5000x66_S66x32_S5000x32_1_0_0_1_n_n.rhsIdx i q 0).val = (q ⟨0, by decide⟩).val :=
  dot_S5000x66_S66x32_S5000x32_1_0_0_1_n_n.rhsIdx_val_of_single rfl i q
theorem dk4a_r1 (i : S5000x32.Idx) (q : dot_S5000x66_S66x32_S5000x32_1_0_0_1_n_n.contr.Idx) : (dot_S5000x66_S66x32_S5000x32_1_0_0_1_n_n.rhsIdx i q 1).val = (i 1).val := by
  unfold DotDims.rhsIdx
  rw [dif_neg (show ¬(1 : Fin S66x32.rank) ∈ dot_S5000x66_S66x32_S5000x32_1_0_0_1_n_n.rhsBatch by decide), dif_pos (show (1 : Fin S66x32.rank) ∈ dot_S5000x66_S66x32_S5000x32_1_0_0_1_n_n.rhsNonContracting by decide)]
  rfl
/-- The contraction's sum re-indexed by the one contracted coordinate. -/
theorem dk4a_sum (l : S5000x66.Idx → EReal) (r : S66x32.Idx → EReal) (p : Fin 5000) (c : Fin 32) :
    ∑ q : dot_S5000x66_S66x32_S5000x32_1_0_0_1_n_n.contr.Idx, l (dot_S5000x66_S66x32_S5000x32_1_0_0_1_n_n.lhsIdx (ix2 p c) q) * r (dot_S5000x66_S66x32_S5000x32_1_0_0_1_n_n.rhsIdx (ix2 p c) q)
      = ∑ k : Fin 66, l (ix2 p k) * r (ix2 k c) := by
  rw [← Equiv.sum_comp (contrEquiv1 dot_S5000x66_S66x32_S5000x32_1_0_0_1_n_n 66 rfl rfl).symm]
  refine Finset.sum_congr rfl fun k _ => ?_
  have hk := contrEquiv1_symm_val dot_S5000x66_S66x32_S5000x32_1_0_0_1_n_n 66 rfl rfl k
  have el : dot_S5000x66_S66x32_S5000x32_1_0_0_1_n_n.lhsIdx (ix2 p c) ((contrEquiv1 dot_S5000x66_S66x32_S5000x32_1_0_0_1_n_n 66 rfl rfl).symm k) = ix2 p k := funext fun a => Fin.ext (by
    match a with
    | ⟨0, _⟩ => exact dk4a_l0 _ _
    | ⟨1, _⟩ => exact (dk4a_l1 _ _).trans hk)
  have er : dot_S5000x66_S66x32_S5000x32_1_0_0_1_n_n.rhsIdx (ix2 p c) ((contrEquiv1 dot_S5000x66_S66x32_S5000x32_1_0_0_1_n_n 66 rfl rfl).symm k) = ix2 k c := funext fun a => Fin.ext (by
    match a with
    | ⟨0, _⟩ => exact (dk4a_r0 _ _).trans hk
    | ⟨1, _⟩ => exact dk4a_r1 _ _)
  rw [el, er]

/-! The dot `dot_S5000x32_S32x1_S5000x1_1_0_0_1_n_n`: [5000, 32] by [32, 1], contracting the left operand's columns with the right
    operand's rows. At result index (p, c) and contraction position k the operands are read at (p, k) and (k, c). -/
theorem dk4b_l0 (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem dk4b_l1 (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
theorem dk4b_r0 (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
theorem dk4b_r1 (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl
/-- The contraction's sum re-indexed by the one contracted coordinate. -/
theorem dk4b_sum (l : S5000x32.Idx → EReal) (r : S32x1.Idx → EReal) (p : Fin 5000) (c : Fin 1) :
    ∑ q : dot_S5000x32_S32x1_S5000x1_1_0_0_1_n_n.contr.Idx, l (dot_S5000x32_S32x1_S5000x1_1_0_0_1_n_n.lhsIdx (ix2 p c) q) * r (dot_S5000x32_S32x1_S5000x1_1_0_0_1_n_n.rhsIdx (ix2 p c) q)
      = ∑ k : Fin 32, l (ix2 p k) * r (ix2 k c) := by
  rw [← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p c) ((contrEquiv1 dot_S5000x32_S32x1_S5000x1_1_0_0_1_n_n 32 rfl rfl).symm k) = ix2 p k := funext fun a => Fin.ext (by
    match a with
    | ⟨0, _⟩ => exact dk4b_l0 _ _
    | ⟨1, _⟩ => exact (dk4b_l1 _ _).trans hk)
  have er : dot_S5000x32_S32x1_S5000x1_1_0_0_1_n_n.rhsIdx (ix2 p c) ((contrEquiv1 dot_S5000x32_S32x1_S5000x1_1_0_0_1_n_n 32 rfl rfl).symm k) = ix2 k c := funext fun a => Fin.ext (by
    match a with
    | ⟨0, _⟩ => exact (dk4b_r0 _ _).trans hk
    | ⟨1, _⟩ => exact dk4b_r1 _ _)
  rw [el, er]

/-! The dot `Cert.ReferenceIdeal.dot_S1000000x66_S66x32_S1000000x32_1_0_0_1_n_n`: [1000000, 66] by [66, 32], contracting the left operand's columns with the right
    operand's rows. At result index (p, c) and contraction position k the operands are read at (p, k) and (k, c). -/
theorem dh4a_l0 (i : Cert.ReferenceIdeal.S1000000x32.Idx) (q : Cert.ReferenceIdeal.dot_S1000000x66_S66x32_S1000000x32_1_0_0_1_n_n.contr.Idx) : (Cert.ReferenceIdeal.dot_S1000000x66_S66x32_S1000000x32_1_0_0_1_n_n.lhsIdx i q 0).val = (i 0).val := by
  unfold DotDims.lhsIdx
  rw [dif_neg (show ¬(0 : Fin Cert.ReferenceIdeal.S1000000x66.rank) ∈ Cert.ReferenceIdeal.dot_S1000000x66_S66x32_S1000000x32_1_0_0_1_n_n.lhsBatch by decide), dif_pos (show (0 : Fin Cert.ReferenceIdeal.S1000000x66.rank) ∈ Cert.ReferenceIdeal.dot_S1000000x66_S66x32_S1000000x32_1_0_0_1_n_n.lhsNonContracting by decide)]
  rfl
theorem dh4a_l1 (i : Cert.ReferenceIdeal.S1000000x32.Idx) (q : Cert.ReferenceIdeal.dot_S1000000x66_S66x32_S1000000x32_1_0_0_1_n_n.contr.Idx) : (Cert.ReferenceIdeal.dot_S1000000x66_S66x32_S1000000x32_1_0_0_1_n_n.lhsIdx i q 1).val = (q ⟨0, by decide⟩).val :=
  Cert.ReferenceIdeal.dot_S1000000x66_S66x32_S1000000x32_1_0_0_1_n_n.lhsIdx_val_of_single rfl i q
theorem dh4a_r0 (i : Cert.ReferenceIdeal.S1000000x32.Idx) (q : Cert.ReferenceIdeal.dot_S1000000x66_S66x32_S1000000x32_1_0_0_1_n_n.contr.Idx) : (Cert.ReferenceIdeal.dot_S1000000x66_S66x32_S1000000x32_1_0_0_1_n_n.rhsIdx i q 0).val = (q ⟨0, by decide⟩).val :=
  Cert.ReferenceIdeal.dot_S1000000x66_S66x32_S1000000x32_1_0_0_1_n_n.rhsIdx_val_of_single rfl i q
theorem dh4a_r1 (i : Cert.ReferenceIdeal.S1000000x32.Idx) (q : Cert.ReferenceIdeal.dot_S1000000x66_S66x32_S1000000x32_1_0_0_1_n_n.contr.Idx) : (Cert.ReferenceIdeal.dot_S1000000x66_S66x32_S1000000x32_1_0_0_1_n_n.rhsIdx i q 1).val = (i 1).val := by
  unfold DotDims.rhsIdx
  rw [dif_neg (show ¬(1 : Fin Cert.ReferenceIdeal.S66x32.rank) ∈ Cert.ReferenceIdeal.dot_S1000000x66_S66x32_S1000000x32_1_0_0_1_n_n.rhsBatch by decide), dif_pos (show (1 : Fin Cert.ReferenceIdeal.S66x32.rank) ∈ Cert.ReferenceIdeal.dot_S1000000x66_S66x32_S1000000x32_1_0_0_1_n_n.rhsNonContracting by decide)]
  rfl
/-- The contraction's sum re-indexed by the one contracted coordinate. -/
theorem dh4a_sum (l : Cert.ReferenceIdeal.S1000000x66.Idx → EReal) (r : Cert.ReferenceIdeal.S66x32.Idx → EReal) (p : Fin 1000000) (c : Fin 32) :
    ∑ q : Cert.ReferenceIdeal.dot_S1000000x66_S66x32_S1000000x32_1_0_0_1_n_n.contr.Idx, l (Cert.ReferenceIdeal.dot_S1000000x66_S66x32_S1000000x32_1_0_0_1_n_n.lhsIdx (ix2 p c) q) * r (Cert.ReferenceIdeal.dot_S1000000x66_S66x32_S1000000x32_1_0_0_1_n_n.rhsIdx (ix2 p c) q)
      = ∑ k : Fin 66, l (ix2 p k) * r (ix2 k c) := by
  rw [← Equiv.sum_comp (contrEquiv1 Cert.ReferenceIdeal.dot_S1000000x66_S66x32_S1000000x32_1_0_0_1_n_n 66 rfl rfl).symm]
  refine Finset.sum_congr rfl fun k _ => ?_
  have hk := contrEquiv1_symm_val Cert.ReferenceIdeal.dot_S1000000x66_S66x32_S1000000x32_1_0_0_1_n_n 66 rfl rfl k
  have el : Cert.ReferenceIdeal.dot_S1000000x66_S66x32_S1000000x32_1_0_0_1_n_n.lhsIdx (ix2 p c) ((contrEquiv1 Cert.ReferenceIdeal.dot_S1000000x66_S66x32_S1000000x32_1_0_0_1_n_n 66 rfl rfl).symm k) = ix2 p k := funext fun a => Fin.ext (by
    match a with
    | ⟨0, _⟩ => exact dh4a_l0 _ _
    | ⟨1, _⟩ => exact (dh4a_l1 _ _).trans hk)
  have er : Cert.ReferenceIdeal.dot_S1000000x66_S66x32_S1000000x32_1_0_0_1_n_n.rhsIdx (ix2 p c) ((contrEquiv1 Cert.ReferenceIdeal.dot_S1000000x66_S66x32_S1000000x32_1_0_0_1_n_n 66 rfl rfl).symm k) = ix2 k c := funext fun a => Fin.ext (by
    match a with
    | ⟨0, _⟩ => exact (dh4a_r0 _ _).trans hk
    | ⟨1, _⟩ => exact dh4a_r1 _ _)
  rw [el, er]

/-! The dot `Cert.ReferenceIdeal.dot_S1000000x32_S32x1_S1000000x1_1_0_0_1_n_n`: [1000000, 32] by [32, 1], contracting the left operand's columns with the right
    operand's rows. At result index (p, c) and contraction position k the operands are read at (p, k) and (k, c). -/
theorem dh4b_l0 (i : Cert.ReferenceIdeal.S1000000x1.Idx) (q : Cert.ReferenceIdeal.dot_S1000000x32_S32x1_S1000000x1_1_0_0_1_n_n.contr.Idx) : (Cert.ReferenceIdeal.dot_S1000000x32_S32x1_S1000000x1_1_0_0_1_n_n.lhsIdx i q 0).val = (i 0).val := by
  unfold DotDims.lhsIdx
  rw [dif_neg (show ¬(0 : Fin Cert.ReferenceIdeal.S1000000x32.rank) ∈ Cert.ReferenceIdeal.dot_S1000000x32_S32x1_S1000000x1_1_0_0_1_n_n.lhsBatch by decide), dif_pos (show (0 : Fin Cert.ReferenceIdeal.S1000000x32.rank) ∈ Cert.ReferenceIdeal.dot_S1000000x32_S32x1_S1000000x1_1_0_0_1_n_n.lhsNonContracting by decide)]
  rfl
theorem dh4b_l1 (i : Cert.ReferenceIdeal.S1000000x1.Idx) (q : Cert.ReferenceIdeal.dot_S1000000x32_S32x1_S1000000x1_1_0_0_1_n_n.contr.Idx) : (Cert.ReferenceIdeal.dot_S1000000x32_S32x1_S1000000x1_1_0_0_1_n_n.lhsIdx i q 1).val = (q ⟨0, by decide⟩).val :=
  Cert.ReferenceIdeal.dot_S1000000x32_S32x1_S1000000x1_1_0_0_1_n_n.lhsIdx_val_of_single rfl i q
theorem dh4b_r0 (i : Cert.ReferenceIdeal.S1000000x1.Idx) (q : Cert.ReferenceIdeal.dot_S1000000x32_S32x1_S1000000x1_1_0_0_1_n_n.contr.Idx) : (Cert.ReferenceIdeal.dot_S1000000x32_S32x1_S1000000x1_1_0_0_1_n_n.rhsIdx i q 0).val = (q ⟨0, by decide⟩).val :=
  Cert.ReferenceIdeal.dot_S1000000x32_S32x1_S1000000x1_1_0_0_1_n_n.rhsIdx_val_of_single rfl i q
theorem dh4b_r1 (i : Cert.ReferenceIdeal.S1000000x1.Idx) (q : Cert.ReferenceIdeal.dot_S1000000x32_S32x1_S1000000x1_1_0_0_1_n_n.contr.Idx) : (Cert.ReferenceIdeal.dot_S1000000x32_S32x1_S1000000x1_1_0_0_1_n_n.rhsIdx i q 1).val = (i 1).val := by
  unfold DotDims.rhsIdx
  rw [dif_neg (show ¬(1 : Fin Cert.ReferenceIdeal.S32x1.rank) ∈ Cert.ReferenceIdeal.dot_S1000000x32_S32x1_S1000000x1_1_0_0_1_n_n.rhsBatch by decide), dif_pos (show (1 : Fin Cert.ReferenceIdeal.S32x1.rank) ∈ Cert.ReferenceIdeal.dot_S1000000x32_S32x1_S1000000x1_1_0_0_1_n_n.rhsNonContracting by decide)]
  rfl
/-- The contraction's sum re-indexed by the one contracted coordinate. -/
theorem dh4b_sum (l : Cert.ReferenceIdeal.S1000000x32.Idx → EReal) (r : Cert.ReferenceIdeal.S32x1.Idx → EReal) (p : Fin 1000000) (c : Fin 1) :
    ∑ q : Cert.ReferenceIdeal.dot_S1000000x32_S32x1_S1000000x1_1_0_0_1_n_n.contr.Idx, l (Cert.ReferenceIdeal.dot_S1000000x32_S32x1_S1000000x1_1_0_0_1_n_n.lhsIdx (ix2 p c) q) * r (Cert.ReferenceIdeal.dot_S1000000x32_S32x1_S1000000x1_1_0_0_1_n_n.rhsIdx (ix2 p c) q)
      = ∑ k : Fin 32, l (ix2 p k) * r (ix2 k c) := by
  rw [← Equiv.sum_comp (contrEquiv1 Cert.ReferenceIdeal.dot_S1000000x32_S32x1_S1000000x1_1_0_0_1_n_n 32 rfl rfl).symm]
  refine Finset.sum_congr rfl fun k _ => ?_
  have hk := contrEquiv1_symm_val Cert.ReferenceIdeal.dot_S1000000x32_S32x1_S1000000x1_1_0_0_1_n_n 32 rfl rfl k
  have el : Cert.ReferenceIdeal.dot_S1000000x32_S32x1_S1000000x1_1_0_0_1_n_n.lhsIdx (ix2 p c) ((contrEquiv1 Cert.ReferenceIdeal.dot_S1000000x32_S32x1_S1000000x1_1_0_0_1_n_n 32 rfl rfl).symm k) = ix2 p k := funext fun a => Fin.ext (by
    match a with
    | ⟨0, _⟩ => exact dh4b_l0 _ _
    | ⟨1, _⟩ => exact (dh4b_l1 _ _).trans hk)
  have er : Cert.ReferenceIdeal.dot_S1000000x32_S32x1_S1000000x1_1_0_0_1_n_n.rhsIdx (ix2 p c) ((contrEquiv1 Cert.ReferenceIdeal.dot_S1000000x32_S32x1_S1000000x1_1_0_0_1_n_n 32 rfl rfl).symm k) = ix2 k c := funext fun a => Fin.ext (by
    match a with
    | ⟨0, _⟩ => exact (dh4b_r0 _ _).trans hk
    | ⟨1, _⟩ => exact dh4b_r1 _ _)
  rw [el, er]

/-- The two-layer perceptron on row `r` of `X`: the hidden layer `max (X W₁ + b₁) 0` (32 units), then `· W₂ + b₂`. -/
def mlp4 {n d : ℕ} (X : (⟨2, ![n, d]⟩ : Shape).Idx → EReal) (W1 : (⟨2, ![d, 32]⟩ : Shape).Idx → EReal)
    (b1 : (⟨2, ![1, 32]⟩ : Shape).Idx → EReal) (W2 : (⟨2, ![32, 1]⟩ : Shape).Idx → EReal)
    (b2 : (⟨2, ![1, 1]⟩ : Shape).Idx → EReal) (r : Fin n) : EReal :=
  (∑ k : Fin 32, max ((∑ j : Fin d, X (ix2 r j) * W1 (ix2 j k)) + b1 (ix2 0 k)) 0 * W2 (ix2 k 0)) + b2 (ix2 0 0)

/-- The perceptron's value on a row depends on that row only. -/
theorem mlp4_row {n n' d : ℕ} (X : (⟨2, ![n, d]⟩ : Shape).Idx → EReal) (X' : (⟨2, ![n', d]⟩ : Shape).Idx → EReal)
    (W1 : (⟨2, ![d, 32]⟩ : Shape).Idx → EReal) (b1 : (⟨2, ![1, 32]⟩ : Shape).Idx → EReal) (W2 : (⟨2, ![32, 1]⟩ : Shape).Idx → EReal)
    (b2 : (⟨2, ![1, 1]⟩ : Shape).Idx → EReal) (r : Fin n) (r' : Fin n') (h : ∀ j : Fin d, X (ix2 r j) = X' (ix2 r' j)) :
    mlp4 X W1 b1 W2 b2 r = mlp4 X' W1 b1 W2 b2 r' := by
  unfold mlp4
  simp only [h]

/-- The body's payload read at row `p` of the block is the perceptron on that row of the loaded blocks: a change of float
    format is the identity on the extended reals, and a matrix product accumulated into zero is the plain sum. -/
theorem pay4_apply (x0 : Vec Ideal S5000x66 .f32) (x1 : Vec Ideal S66x32 .f32) (x2 : Vec Ideal S1x32 .f32) (x3 : Vec Ideal S32x1 .f32) (x4 : Vec Ideal S1x1 .f32) (p : Fin 5000) (q : Fin 1) :
    k4_pay1 x0 x1 x2 x3 x4 (ix2 p q) = mlp4 x0 x1 x2 x3 x4 p := by
  obtain rfl : q = 0 := Subsingleton.elim _ _
  unfold k4_pay1 mlp4
  simp only [matmul]
  rw [addf_apply, Ideal.matmul_constant_zero_apply, dk4b_sum, broadcastTo_1b_ab_apply]
  congr 1
  · refine Finset.sum_congr rfl fun k _ => ?_
    rw [truncf_apply, truncf_apply, maximumf_apply, addf_apply, Ideal.matmul_constant_zero_apply, dk4a_sum, broadcastTo_1b_ab_apply, shapeCast_self, shapeCast_self, broadcast_apply]
    show max _ (Ideal.ofBits .f32 0x00000000#32) * _ = _
    rw [Ideal.ofBits_zero_f32]
    rfl
  · rw [shapeCast_self]

/-- The host expression the reference computes — dot, bias, `max · 0`, dot, bias over whole arrays — read at row `r`
    is the perceptron on that row. -/
theorem host4_apply (a0 : FVec Ideal Cert.ReferenceIdeal.S1000000x66 .f32) (a1 : FVec Ideal Cert.ReferenceIdeal.S66x32 .f32) (a2 : FVec Ideal Cert.ReferenceIdeal.S1x32 .f32) (a3 : FVec Ideal Cert.ReferenceIdeal.S32x1 .f32) (a4 : FVec Ideal Cert.ReferenceIdeal.S1x1 .f32) (r : Fin 1000000) (s : Fin 1) :
    (addf (F := Ideal) (Host.dotGeneral (F := Ideal) (φ₁ := .f32) (φ₂ := .f32) Cert.ReferenceIdeal.dot_S1000000x32_S32x1_S1000000x1_1_0_0_1_n_n none (maximumf (F := Ideal) (addf (F := Ideal) (Host.dotGeneral (F := Ideal) (φ₁ := .f32) (φ₂ := .f32) Cert.ReferenceIdeal.dot_S1000000x66_S66x32_S1000000x32_1_0_0_1_n_n none a0 a1) (broadcastInDim Cert.ReferenceIdeal.S1000000x32 ![0, 1] Cert.ReferenceIdeal.Facts₀.bcast_S1x32_S1000000x32_0_1 a2)) (broadcastInDim Cert.ReferenceIdeal.S1000000x32 ![] Cert.ReferenceIdeal.Facts₀.bcast_S_S1000000x32 (constant (F := Ideal) Cert.ReferenceIdeal.S_ .f32 0x00000000#32))) a3) (broadcastInDim Cert.ReferenceIdeal.S1000000x1 ![0, 1] Cert.ReferenceIdeal.Facts₀.bcast_S1x1_S1000000x1_0_1 a4) : FVec Ideal Cert.ReferenceIdeal.S1000000x1 .f32) (ix2 r s)
      = mlp4 a0 a1 a2 a3 a4 r := by
  obtain rfl : s = 0 := Subsingleton.elim _ _
  unfold mlp4
  simp only [Host.dotGeneral]
  rw [addf_apply, Ideal.dotGeneral_apply, dh4b_sum, broadcastInDim_oneRow_apply]
  congr 1
  refine Finset.sum_congr rfl fun k _ => ?_
  rw [maximumf_apply, addf_apply, Ideal.dotGeneral_apply, dh4a_sum, broadcastInDim_oneRow_apply]
  show max _ (Ideal.ofBits .f32 0x00000000#32) * _ = _
  rw [Ideal.ofBits_zero_f32]

variable (V : (c : Dev nD) → (b : Ref sig .tc) → Buf (Elt Ideal) ((c : Thread nD τ).loc b))

/-! ## From blocks to the array -/

/-- The index maps over the grid: the row block (window 0) and the output (window 5) are at block `t` at point `t`;
    the weights and biases (windows 1 to 4) are one block, the whole array. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 1's block is its whole array at every point. -/
theorem blk4_1 (c : Dev nD) (t : Fin cfg4.N) : (iblk4 V c 1 t : Vec Ideal S66x32 .f32) = V c main_arg10 := by
  obtain ⟨e00, e01, e10, e11, e20, e21, e30, e31, e40, e41, e50, e51⟩ := idx_facts4 t
  funext y
  show V c main_arg10 (((cfg4.win 1).blk t).view.emb y) = V c main_arg10 y
  refine congrArg _ (funext fun ax => Fin.ext ?_)
  match ax with
  | ⟨0, _⟩ => show win4_1.index t (0 : Fin 2) * 66 + 1 * (y 0).val = (y 0).val; omega
  | ⟨1, _⟩ => show win4_1.index t (1 : Fin 2) * 32 + 1 * (y 1).val = (y 1).val; omega

/-- Window 2's block is its whole array at every point. -/
theorem blk4_2 (c : Dev nD) (t : Fin cfg4.N) : (iblk4 V c 2 t : Vec Ideal S1x32 .f32) = V c main_v74 := by
  obtain ⟨e00, e01, e10, e11, e20, e21, e30, e31, e40, e41, e50, e51⟩ := idx_facts4 t
  funext y
  show V c main_v74 (((cfg4.win 2).blk t).view.emb y) = V c main_v74 y
  refine congrArg _ (funext fun ax => Fin.ext ?_)
  match ax with
  | ⟨0, _⟩ => show win4_2.index t (0 : Fin 2) * 1 + 1 * (y 0).val = (y 0).val; omega
  | ⟨1, _⟩ => show win4_2.index t (1 : Fin 2) * 32 + 1 * (y 1).val = (y 1).val; omega

/-- Window 3's block is its whole array at every point. -/
theorem blk4_3 (c : Dev nD) (t : Fin cfg4.N) : (iblk4 V c 3 t : Vec Ideal S32x1 .f32) = V c main_arg12 := by
  obtain ⟨e00, e01, e10, e11, e20, e21, e30, e31, e40, e41, e50, e51⟩ := idx_facts4 t
  funext y
  show V c main_arg12 (((cfg4.win 3).blk t).view.emb y) = V c main_arg12 y
  refine congrArg _ (funext fun ax => Fin.ext ?_)
  match ax with
  | ⟨0, _⟩ => show win4_3.index t (0 : Fin 2) * 32 + 1 * (y 0).val = (y 0).val; omega
  | ⟨1, _⟩ => show win4_3.index t (1 : Fin 2) * 1 + 1 * (y 1).val = (y 1).val; omega

/-- Window 4's block is its whole array at every point. -/
theorem blk4_4 (c : Dev nD) (t : Fin cfg4.N) : (iblk4 V c 4 t : Vec Ideal S1x1 .f32) = V c main_v75 := by
  obtain ⟨e00, e01, e10, e11, e20, e21, e30, e31, e40, e41, e50, e51⟩ := idx_facts4 t
  funext y
  show V c main_v75 (((cfg4.win 4).blk t).view.emb y) = V c main_v75 y
  refine congrArg _ (funext fun ax => Fin.ext ?_)
  match ax with
  | ⟨0, _⟩ => show win4_4.index t (0 : Fin 2) * 1 + 1 * (y 0).val = (y 0).val; omega
  | ⟨1, _⟩ => show win4_4.index t (1 : Fin 2) * 1 + 1 * (y 1).val = (y 1).val; omega

/-- Window 0's block at point `t` is rows `5000 t … 5000 t + 4999` of its array. -/
theorem blk4_0 (c : Dev nD) (t : Fin cfg4.N) (p : Fin 5000) (j : Fin 66) (r : Fin 1000000) (hr : r.val = t.val * 5000 + p.val) :
    (iblk4 V c 0 t : Vec Ideal S5000x66 .f32) (ix2 p j) = (V c main_v73 : FVec Ideal S1000000x66 .f32) (ix2 r j) := by
  obtain ⟨e00, e01, e10, e11, e20, e21, e30, e31, e40, e41, e50, e51⟩ := idx_facts4 t
  show V c main_v73 (((cfg4.win 0).blk t).view.emb (ix2 p j)) = V c main_v73 (ix2 r j)
  refine congrArg _ (funext fun ax => Fin.ext ?_)
  match ax with
  | ⟨0, _⟩ => show win4_0.index t (0 : Fin 2) * 5000 + 1 * p.val = r.val; omega
  | ⟨1, _⟩ => show win4_0.index t (1 : Fin 2) * 66 + 1 * j.val = j.val; omega

/-- Row `p` of the output's block at point `t` is row `5000 t + p` of its array. -/
theorem emb4_5 (t : Fin cfg4.N) (p : Fin 5000) (q : Fin 1) (r : Fin 1000000) (hr : r.val = t.val * 5000 + p.val) :
    ((cfg4.win 5).blk t).view.emb (ix2 p q) = (ix2 r q : S1000000x1.Idx) := by
  obtain ⟨e00, e01, e10, e11, e20, e21, e30, e31, e40, e41, e50, e51⟩ := idx_facts4 t
  refine funext fun ax => Fin.ext ?_
  match ax with
  | ⟨0, _⟩ => show win4_5.index t (0 : Fin 2) * 5000 + 1 * p.val = r.val; omega
  | ⟨1, _⟩ => show win4_5.index t (1 : Fin 2) * 1 + 1 * q.val = q.val; omega

/-- The region's result as one host expression of the arrays the region finds. -/
abbrev G4 (c : Dev nD) : FVec Ideal Cert.ReferenceIdeal.S1000000x1 .f32 :=
  (addf (F := Ideal) (Host.dotGeneral (F := Ideal) (φ₁ := .f32) (φ₂ := .f32) Cert.ReferenceIdeal.dot_S1000000x32_S32x1_S1000000x1_1_0_0_1_n_n none (maximumf (F := Ideal) (addf (F := Ideal) (Host.dotGeneral (F := Ideal) (φ₁ := .f32) (φ₂ := .f32) Cert.ReferenceIdeal.dot_S1000000x66_S66x32_S1000000x32_1_0_0_1_n_n none (V c main_v73) (V c main_arg10)) (broadcastInDim Cert.ReferenceIdeal.S1000000x32 ![0, 1] Cert.ReferenceIdeal.Facts₀.bcast_S1x32_S1000000x32_0_1 (V c main_v74))) (broadcastInDim Cert.ReferenceIdeal.S1000000x32 ![] Cert.ReferenceIdeal.Facts₀.bcast_S_S1000000x32 (constant (F := Ideal) Cert.ReferenceIdeal.S_ .f32 0x00000000#32))) (V c main_arg12)) (broadcastInDim Cert.ReferenceIdeal.S1000000x1 ![0, 1] Cert.ReferenceIdeal.Facts₀.bcast_S1x1_S1000000x1_0_1 (V c main_v75)) : FVec Ideal Cert.ReferenceIdeal.S1000000x1 .f32)

/-- What point `t` writes back is block `t` of that expression: the body computes the perceptron on the rows of its
    block, and those are rows `5000 t …` of the array. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 (F := Ideal) V c).after 5 t) = _
  rw [after4_5]
  unfold out4_5
  rw [View.canon_unit_zero hz4]
  simp only [View.ld_unit_zero (S := S5000x66) hz4, View.ld_unit_zero (S := S66x32) hz4, View.ld_unit_zero (S := S1x32) hz4, View.ld_unit_zero (S := S32x1) hz4, View.ld_unit_zero (S := S1x1) hz4]
  funext y
  obtain ⟨p, q, rfl⟩ : ∃ (p : Fin 5000) (q : Fin 1), y = ix2 p q := ⟨y 0, y 1, eq_ix2 y⟩
  have hN : cfg4.N = 200 := N_4
  have ht : t.val < 200 := hN ▸ t.isLt
  have hp : p.val < 5000 := p.isLt
  have hr : t.val * 5000 + p.val < 1000000 := by omega
  show k4_pay1 (iblk4 V c 0 t) (iblk4 V c 1 t) (iblk4 V c 2 t) (iblk4 V c 3 t) (iblk4 V c 4 t) (ix2 p q)
    = G4 V c (((cfg4.win 5).blk t).view.emb (ix2 p q))
  rw [emb4_5 t p q ⟨t.val * 5000 + p.val, hr⟩ rfl]
  refine (pay4_apply (iblk4 V c 0 t) (iblk4 V c 1 t) (iblk4 V c 2 t) (iblk4 V c 3 t) (iblk4 V c 4 t) p q).trans ?_
  refine Eq.trans ?_ (host4_apply (V c main_v73) (V c main_arg10) (V c main_v74) (V c main_arg12) (V c main_v75) ⟨t.val * 5000 + p.val, hr⟩ q).symm
  rw [blk4_1 V c t, blk4_2 V c t, blk4_3 V c t, blk4_4 V c t]
  exact mlp4_row _ _ _ _ _ _ p ⟨t.val * 5000 + p.val, hr⟩ fun j => blk4_0 V c t p j ⟨t.val * 5000 + p.val, hr⟩ rfl

/-- An index of the output array is in point `t`'s block iff each coordinate is in the block's range on its axis. -/
theorem mem_blk4 (t : Fin cfg4.N) (i : S1000000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v76).slice (win4_5.rect t)).set ↔ _
  rw [View.set_slice_whole, Rect.mem_set_unit]
  exact Iff.rfl

/-- Every row of the output array is in the block of the point `row / 5000`, and every point writes its block back. -/
theorem cover4 (i : S1000000x1.Idx) : ∃ t : Fin cfg4.N, (cfg4.win 5).flush t = true ∧ i ∈ ((cfg4.win 5).blk t).view.set := by
  have hN : cfg4.N = 200 := N_4
  have hi0 : (i 0).val < 1000000 := (i 0).isLt
  have hi1 : (i 1).val < 1 := (i 1).isLt
  have htl : (i 0).val / 5000 < cfg4.N := by rw [hN]; omega
  refine ⟨⟨(i 0).val / 5000, htl⟩, flush4_5 _, ?_⟩
  obtain ⟨e00, e01, e10, e11, e20, e21, e30, e31, e40, e41, e50, e51⟩ := idx_facts4 ⟨(i 0).val / 5000, htl⟩
  rw [mem_blk4]
  intro ax
  match ax with
  | ⟨0, _⟩ =>
    show win4_5.index ⟨(i 0).val / 5000, htl⟩ (0 : Fin 2) * 5000 ≤ (i 0).val ∧ (i 0).val < win4_5.index ⟨(i 0).val / 5000, htl⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, htl⟩ (1 : Fin 2) * 1 ≤ (i 1).val ∧ (i 1).val < win4_5.index ⟨(i 0).val / 5000, htl⟩ (1 : Fin 2) * 1 + 1
    omega

/-- THE OUTPUT ARRAY after the region is that one host expression of the arrays the region finds. -/
theorem final4 (c : Dev nD) : (dat4 (F := Ideal) V c).arrAt 5 cfg4.N
    = (addf (F := Ideal) (Host.dotGeneral (F := Ideal) (φ₁ := .f32) (φ₂ := .f32) Cert.ReferenceIdeal.dot_S1000000x32_S32x1_S1000000x1_1_0_0_1_n_n none (maximumf (F := Ideal) (addf (F := Ideal) (Host.dotGeneral (F := Ideal) (φ₁ := .f32) (φ₂ := .f32) Cert.ReferenceIdeal.dot_S1000000x66_S66x32_S1000000x32_1_0_0_1_n_n none (V c main_v73) (V c main_arg10)) (broadcastInDim Cert.ReferenceIdeal.S1000000x32 ![0, 1] Cert.ReferenceIdeal.Facts₀.bcast_S1x32_S1000000x32_0_1 (V c main_v74))) (broadcastInDim Cert.ReferenceIdeal.S1000000x32 ![] Cert.ReferenceIdeal.Facts₀.bcast_S_S1000000x32 (constant (F := Ideal) Cert.ReferenceIdeal.S_ .f32 0x00000000#32))) (V c main_arg12)) (broadcastInDim Cert.ReferenceIdeal.S1000000x1 ![0, 1] Cert.ReferenceIdeal.Facts₀.bcast_S1x1_S1000000x1_0_1 (V c main_v75)) : FVec Ideal Cert.ReferenceIdeal.S1000000x1 .f32) :=
  (dat4 (F := Ideal) V c).arrAt_eq_of_cover 5 (G4 V c) (fun t _ => flushed4_eq V c t) (cover4)

end Cert.KernelIdeal.Fr

end
-- ==== Proof.KI.Val5.lean ====
import proofs.«178605_j21560735825958_2_alg».proof.Proof.KI.Body5
import proofs.«178605_j21560735825958_2_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

/-!
# Region 5 at the ideal values: the output array as one host expression

The body computes, on each row of its block, the two-layer perceptron `max (x W₁ + b₁) 0 · W₂ + b₂`; the host
expression computes the same on each row of the whole array. Both are read at an index as the same double sum, the
blocks are matched with the rows of the arrays, and the blocks cover the output.
-/

theorem hz5 : (![0, 0] : Fin 2 → Nat) = fun _ => 0 := funext fun a => by fin_cases a <;> rfl

/-! The dot `dot_S5000x32_S32x32_S5000x32_1_0_0_1_n_n`: [5000, 32] by [32, 32], contracting the left operand's columns with the right
    operand's rows. At result index (p, c) and contraction position k the operands are read at (p, k) and (k, c). -/
theorem dk5a_l0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem dk5a_l1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem dk5a_r0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem dk5a_r1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl
/-- The contraction's sum re-indexed by the one contracted coordinate. -/
theorem dk5a_sum (l : S5000x32.Idx → EReal) (r : S32x32.Idx → EReal) (p : Fin 5000) (c : Fin 32) :
    ∑ q : dot_S5000x32_S32x32_S5000x32_1_0_0_1_n_n.contr.Idx, l (dot_S5000x32_S32x32_S5000x32_1_0_0_1_n_n.lhsIdx (ix2 p c) q) * r (dot_S5000x32_S32x32_S5000x32_1_0_0_1_n_n.rhsIdx (ix2 p c) q)
      = ∑ k : Fin 32, l (ix2 p k) * r (ix2 k c) := by
  rw [← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p c) ((contrEquiv1 dot_S5000x32_S32x32_S5000x32_1_0_0_1_n_n 32 rfl rfl).symm k) = ix2 p k := funext fun a => Fin.ext (by
    match a with
    | ⟨0, _⟩ => exact dk5a_l0 _ _
    | ⟨1, _⟩ => exact (dk5a_l1 _ _).trans hk)
  have er : dot_S5000x32_S32x32_S5000x32_1_0_0_1_n_n.rhsIdx (ix2 p c) ((contrEquiv1 dot_S5000x32_S32x32_S5000x32_1_0_0_1_n_n 32 rfl rfl).symm k) = ix2 k c := funext fun a => Fin.ext (by
    match a with
    | ⟨0, _⟩ => exact (dk5a_r0 _ _).trans hk
    | ⟨1, _⟩ => exact dk5a_r1 _ _)
  rw [el, er]

/-! The dot `dot_S5000x32_S32x1_S5000x1_1_0_0_1_n_n`: [5000, 32] by [32, 1], contracting the left operand's columns with the right
    operand's rows. At result index (p, c) and contraction position k the operands are read at (p, k) and (k, c). -/
theorem dk5b_l0 (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem dk5b_l1 (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
theorem dk5b_r0 (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
theorem dk5b_r1 (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl
/-- The contraction's sum re-indexed by the one contracted coordinate. -/
theorem dk5b_sum (l : S5000x32.Idx → EReal) (r : S32x1.Idx → EReal) (p : Fin 5000) (c : Fin 1) :
    ∑ q : dot_S5000x32_S32x1_S5000x1_1_0_0_1_n_n.contr.Idx, l (dot_S5000x32_S32x1_S5000x1_1_0_0_1_n_n.lhsIdx (ix2 p c) q) * r (dot_S5000x32_S32x1_S5000x1_1_0_0_1_n_n.rhsIdx (ix2 p c) q)
      = ∑ k : Fin 32, l (ix2 p k) * r (ix2 k c) := by
  rw [← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p c) ((contrEquiv1 dot_S5000x32_S32x1_S5000x1_1_0_0_1_n_n 32 rfl rfl).symm k) = ix2 p k := funext fun a => Fin.ext (by
    match a with
    | ⟨0, _⟩ => exact dk5b_l0 _ _
    | ⟨1, _⟩ => exact (dk5b_l1 _ _).trans hk)
  have er : dot_S5000x32_S32x1_S5000x1_1_0_0_1_n_n.rhsIdx (ix2 p c) ((contrEquiv1 dot_S5000x32_S32x1_S5000x1_1_0_0_1_n_n 32 rfl rfl).symm k) = ix2 k c := funext fun a => Fin.ext (by
    match a with
    | ⟨0, _⟩ => exact (dk5b_r0 _ _).trans hk
    | ⟨1, _⟩ => exact dk5b_r1 _ _)
  rw [el, er]

/-! The dot `Cert.ReferenceIdeal.dot_S50000x32_S32x32_S50000x32_1_0_0_1_n_n`: [50000, 32] by [32, 32], contracting the left operand's columns with the right
    operand's rows. At result index (p, c) and contraction position k the operands are read at (p, k) and (k, c). -/
theorem dh5a_l0 (i : Cert.ReferenceIdeal.S50000x32.Idx) (q : Cert.ReferenceIdeal.dot_S50000x32_S32x32_S50000x32_1_0_0_1_n_n.contr.Idx) : (Cert.ReferenceIdeal.dot_S50000x32_S32x32_S50000x32_1_0_0_1_n_n.lhsIdx i q 0).val = (i 0).val := by
  unfold DotDims.lhsIdx
  rw [dif_neg (show ¬(0 : Fin Cert.ReferenceIdeal.S50000x32.rank) ∈ Cert.ReferenceIdeal.dot_S50000x32_S32x32_S50000x32_1_0_0_1_n_n.lhsBatch by decide), dif_pos (show (0 : Fin Cert.ReferenceIdeal.S50000x32.rank) ∈ Cert.ReferenceIdeal.dot_S50000x32_S32x32_S50000x32_1_0_0_1_n_n.lhsNonContracting by decide)]
  rfl
theorem dh5a_l1 (i : Cert.ReferenceIdeal.S50000x32.Idx) (q : Cert.ReferenceIdeal.dot_S50000x32_S32x32_S50000x32_1_0_0_1_n_n.contr.Idx) : (Cert.ReferenceIdeal.dot_S50000x32_S32x32_S50000x32_1_0_0_1_n_n.lhsIdx i q 1).val = (q ⟨0, by decide⟩).val :=
  Cert.ReferenceIdeal.dot_S50000x32_S32x32_S50000x32_1_0_0_1_n_n.lhsIdx_val_of_single rfl i q
theorem dh5a_r0 (i : Cert.ReferenceIdeal.S50000x32.Idx) (q : Cert.ReferenceIdeal.dot_S50000x32_S32x32_S50000x32_1_0_0_1_n_n.contr.Idx) : (Cert.ReferenceIdeal.dot_S50000x32_S32x32_S50000x32_1_0_0_1_n_n.rhsIdx i q 0).val = (q ⟨0, by decide⟩).val :=
  Cert.ReferenceIdeal.dot_S50000x32_S32x32_S50000x32_1_0_0_1_n_n.rhsIdx_val_of_single rfl i q
theorem dh5a_r1 (i : Cert.ReferenceIdeal.S50000x32.Idx) (q : Cert.ReferenceIdeal.dot_S50000x32_S32x32_S50000x32_1_0_0_1_n_n.contr.Idx) : (Cert.ReferenceIdeal.dot_S50000x32_S32x32_S50000x32_1_0_0_1_n_n.rhsIdx i q 1).val = (i 1).val := by
  unfold DotDims.rhsIdx
  rw [dif_neg (show ¬(1 : Fin Cert.ReferenceIdeal.S32x32.rank) ∈ Cert.ReferenceIdeal.dot_S50000x32_S32x32_S50000x32_1_0_0_1_n_n.rhsBatch by decide), dif_pos (show (1 : Fin Cert.ReferenceIdeal.S32x32.rank) ∈ Cert.ReferenceIdeal.dot_S50000x32_S32x32_S50000x32_1_0_0_1_n_n.rhsNonContracting by decide)]
  rfl
/-- The contraction's sum re-indexed by the one contracted coordinate. -/
theorem dh5a_sum (l : Cert.ReferenceIdeal.S50000x32.Idx → EReal) (r : Cert.ReferenceIdeal.S32x32.Idx → EReal) (p : Fin 50000) (c : Fin 32) :
    ∑ q : Cert.ReferenceIdeal.dot_S50000x32_S32x32_S50000x32_1_0_0_1_n_n.contr.Idx, l (Cert.ReferenceIdeal.dot_S50000x32_S32x32_S50000x32_1_0_0_1_n_n.lhsIdx (ix2 p c) q) * r (Cert.ReferenceIdeal.dot_S50000x32_S32x32_S50000x32_1_0_0_1_n_n.rhsIdx (ix2 p c) q)
      = ∑ k : Fin 32, l (ix2 p k) * r (ix2 k c) := by
  rw [← Equiv.sum_comp (contrEquiv1 Cert.ReferenceIdeal.dot_S50000x32_S32x32_S50000x32_1_0_0_1_n_n 32 rfl rfl).symm]
  refine Finset.sum_congr rfl fun k _ => ?_
  have hk := contrEquiv1_symm_val Cert.ReferenceIdeal.dot_S50000x32_S32x32_S50000x32_1_0_0_1_n_n 32 rfl rfl k
  have el : Cert.ReferenceIdeal.dot_S50000x32_S32x32_S50000x32_1_0_0_1_n_n.lhsIdx (ix2 p c) ((contrEquiv1 Cert.ReferenceIdeal.dot_S50000x32_S32x32_S50000x32_1_0_0_1_n_n 32 rfl rfl).symm k) = ix2 p k := funext fun a => Fin.ext (by
    match a with
    | ⟨0, _⟩ => exact dh5a_l0 _ _
    | ⟨1, _⟩ => exact (dh5a_l1 _ _).trans hk)
  have er : Cert.ReferenceIdeal.dot_S50000x32_S32x32_S50000x32_1_0_0_1_n_n.rhsIdx (ix2 p c) ((contrEquiv1 Cert.ReferenceIdeal.dot_S50000x32_S32x32_S50000x32_1_0_0_1_n_n 32 rfl rfl).symm k) = ix2 k c := funext fun a => Fin.ext (by
    match a with
    | ⟨0, _⟩ => exact (dh5a_r0 _ _).trans hk
    | ⟨1, _⟩ => exact dh5a_r1 _ _)
  rw [el, er]

/-! The dot `Cert.ReferenceIdeal.dot_S50000x32_S32x1_S50000x1_1_0_0_1_n_n`: [50000, 32] by [32, 1], contracting the left operand's columns with the right
    operand's rows. At result index (p, c) and contraction position k the operands are read at (p, k) and (k, c). -/
theorem dh5b_l0 (i : Cert.ReferenceIdeal.S50000x1.Idx) (q : Cert.ReferenceIdeal.dot_S50000x32_S32x1_S50000x1_1_0_0_1_n_n.contr.Idx) : (Cert.ReferenceIdeal.dot_S50000x32_S32x1_S50000x1_1_0_0_1_n_n.lhsIdx i q 0).val = (i 0).val := by
  unfold DotDims.lhsIdx
  rw [dif_neg (show ¬(0 : Fin Cert.ReferenceIdeal.S50000x32.rank) ∈ Cert.ReferenceIdeal.dot_S50000x32_S32x1_S50000x1_1_0_0_1_n_n.lhsBatch by decide), dif_pos (show (0 : Fin Cert.ReferenceIdeal.S50000x32.rank) ∈ Cert.ReferenceIdeal.dot_S50000x32_S32x1_S50000x1_1_0_0_1_n_n.lhsNonContracting by decide)]
  rfl
theorem dh5b_l1 (i : Cert.ReferenceIdeal.S50000x1.Idx) (q : Cert.ReferenceIdeal.dot_S50000x32_S32x1_S50000x1_1_0_0_1_n_n.contr.Idx) : (Cert.ReferenceIdeal.dot_S50000x32_S32x1_S50000x1_1_0_0_1_n_n.lhsIdx i q 1).val = (q ⟨0, by decide⟩).val :=
  Cert.ReferenceIdeal.dot_S50000x32_S32x1_S50000x1_1_0_0_1_n_n.lhsIdx_val_of_single rfl i q
theorem dh5b_r0 (i : Cert.ReferenceIdeal.S50000x1.Idx) (q : Cert.ReferenceIdeal.dot_S50000x32_S32x1_S50000x1_1_0_0_1_n_n.contr.Idx) : (Cert.ReferenceIdeal.dot_S50000x32_S32x1_S50000x1_1_0_0_1_n_n.rhsIdx i q 0).val = (q ⟨0, by decide⟩).val :=
  Cert.ReferenceIdeal.dot_S50000x32_S32x1_S50000x1_1_0_0_1_n_n.rhsIdx_val_of_single rfl i q
theorem dh5b_r1 (i : Cert.ReferenceIdeal.S50000x1.Idx) (q : Cert.ReferenceIdeal.dot_S50000x32_S32x1_S50000x1_1_0_0_1_n_n.contr.Idx) : (Cert.ReferenceIdeal.dot_S50000x32_S32x1_S50000x1_1_0_0_1_n_n.rhsIdx i q 1).val = (i 1).val := by
  unfold DotDims.rhsIdx
  rw [dif_neg (show ¬(1 : Fin Cert.ReferenceIdeal.S32x1.rank) ∈ Cert.ReferenceIdeal.dot_S50000x32_S32x1_S50000x1_1_0_0_1_n_n.rhsBatch by decide), dif_pos (show (1 : Fin Cert.ReferenceIdeal.S32x1.rank) ∈ Cert.ReferenceIdeal.dot_S50000x32_S32x1_S50000x1_1_0_0_1_n_n.rhsNonContracting by decide)]
  rfl
/-- The contraction's sum re-indexed by the one contracted coordinate. -/
theorem dh5b_sum (l : Cert.ReferenceIdeal.S50000x32.Idx → EReal) (r : Cert.ReferenceIdeal.S32x1.Idx → EReal) (p : Fin 50000) (c : Fin 1) :
    ∑ q : Cert.ReferenceIdeal.dot_S50000x32_S32x1_S50000x1_1_0_0_1_n_n.contr.Idx, l (Cert.ReferenceIdeal.dot_S50000x32_S32x1_S50000x1_1_0_0_1_n_n.lhsIdx (ix2 p c) q) * r (Cert.ReferenceIdeal.dot_S50000x32_S32x1_S50000x1_1_0_0_1_n_n.rhsIdx (ix2 p c) q)
      = ∑ k : Fin 32, l (ix2 p k) * r (ix2 k c) := by
  rw [← Equiv.sum_comp (contrEquiv1 Cert.ReferenceIdeal.dot_S50000x32_S32x1_S50000x1_1_0_0_1_n_n 32 rfl rfl).symm]
  refine Finset.sum_congr rfl fun k _ => ?_
  have hk := contrEquiv1_symm_val Cert.ReferenceIdeal.dot_S50000x32_S32x1_S50000x1_1_0_0_1_n_n 32 rfl rfl k
  have el : Cert.ReferenceIdeal.dot_S50000x32_S32x1_S50000x1_1_0_0_1_n_n.lhsIdx (ix2 p c) ((contrEquiv1 Cert.ReferenceIdeal.dot_S50000x32_S32x1_S50000x1_1_0_0_1_n_n 32 rfl rfl).symm k) = ix2 p k := funext fun a => Fin.ext (by
    match a with
    | ⟨0, _⟩ => exact dh5b_l0 _ _
    | ⟨1, _⟩ => exact (dh5b_l1 _ _).trans hk)
  have er : Cert.ReferenceIdeal.dot_S50000x32_S32x1_S50000x1_1_0_0_1_n_n.rhsIdx (ix2 p c) ((contrEquiv1 Cert.ReferenceIdeal.dot_S50000x32_S32x1_S50000x1_1_0_0_1_n_n 32 rfl rfl).symm k) = ix2 k c := funext fun a => Fin.ext (by
    match a with
    | ⟨0, _⟩ => exact (dh5b_r0 _ _).trans hk
    | ⟨1, _⟩ => exact dh5b_r1 _ _)
  rw [el, er]

/-- The two-layer perceptron on row `r` of `X`: the hidden layer `max (X W₁ + b₁) 0` (32 units), then `· W₂ + b₂`. -/
def mlp5 {n d : ℕ} (X : (⟨2, ![n, d]⟩ : Shape).Idx → EReal) (W1 : (⟨2, ![d, 32]⟩ : Shape).Idx → EReal)
    (b1 : (⟨2, ![1, 32]⟩ : Shape).Idx → EReal) (W2 : (⟨2, ![32, 1]⟩ : Shape).Idx → EReal)
    (b2 : (⟨2, ![1, 1]⟩ : Shape).Idx → EReal) (r : Fin n) : EReal :=
  (∑ k : Fin 32, max ((∑ j : Fin d, X (ix2 r j) * W1 (ix2 j k)) + b1 (ix2 0 k)) 0 * W2 (ix2 k 0)) + b2 (ix2 0 0)

/-- The perceptron's value on a row depends on that row only. -/
theorem mlp5_row {n n' d : ℕ} (X : (⟨2, ![n, d]⟩ : Shape).Idx → EReal) (X' : (⟨2, ![n', d]⟩ : Shape).Idx → EReal)
    (W1 : (⟨2, ![d, 32]⟩ : Shape).Idx → EReal) (b1 : (⟨2, ![1, 32]⟩ : Shape).Idx → EReal) (W2 : (⟨2, ![32, 1]⟩ : Shape).Idx → EReal)
    (b2 : (⟨2, ![1, 1]⟩ : Shape).Idx → EReal) (r : Fin n) (r' : Fin n') (h : ∀ j : Fin d, X (ix2 r j) = X' (ix2 r' j)) :
    mlp5 X W1 b1 W2 b2 r = mlp5 X' W1 b1 W2 b2 r' := by
  unfold mlp5
  simp only [h]

/-- The body's payload read at row `p` of the block is the perceptron on that row of the loaded blocks: a change of float
    format is the identity on the extended reals, and a matrix product accumulated into zero is the plain sum. -/
theorem pay5_apply (x0 : Vec Ideal S5000x32 .f32) (x1 : Vec Ideal S32x32 .f32) (x2 : Vec Ideal S1x32 .f32) (x3 : Vec Ideal S32x1 .f32) (x4 : Vec Ideal S1x1 .f32) (p : Fin 5000) (q : Fin 1) :
    k5_pay1 x0 x1 x2 x3 x4 (ix2 p q) = mlp5 x0 x1 x2 x3 x4 p := by
  obtain rfl : q = 0 := Subsingleton.elim _ _
  unfold k5_pay1 mlp5
  simp only [matmul]
  rw [addf_apply, Ideal.matmul_constant_zero_apply, dk5b_sum, broadcastTo_1b_ab_apply]
  congr 1
  · refine Finset.sum_congr rfl fun k _ => ?_
    rw [truncf_apply, truncf_apply, maximumf_apply, addf_apply, Ideal.matmul_constant_zero_apply, dk5a_sum, broadcastTo_1b_ab_apply, shapeCast_self, shapeCast_self, broadcast_apply]
    show max _ (Ideal.ofBits .f32 0x00000000#32) * _ = _
    rw [Ideal.ofBits_zero_f32]
    rfl
  · rw [shapeCast_self]

/-- The host expression the reference computes — dot, bias, `max · 0`, dot, bias over whole arrays — read at row `r`
    is the perceptron on that row. -/
theorem host5_apply (a0 : FVec Ideal Cert.ReferenceIdeal.S50000x32 .f32) (a1 : FVec Ideal Cert.ReferenceIdeal.S32x32 .f32) (a2 : FVec Ideal Cert.ReferenceIdeal.S1x32 .f32) (a3 : FVec Ideal Cert.ReferenceIdeal.S32x1 .f32) (a4 : FVec Ideal Cert.ReferenceIdeal.S1x1 .f32) (r : Fin 50000) (s : Fin 1) :
    (addf (F := Ideal) (Host.dotGeneral (F := Ideal) (φ₁ := .f32) (φ₂ := .f32) Cert.ReferenceIdeal.dot_S50000x32_S32x1_S50000x1_1_0_0_1_n_n none (maximumf (F := Ideal) (addf (F := Ideal) (Host.dotGeneral (F := Ideal) (φ₁ := .f32) (φ₂ := .f32) Cert.ReferenceIdeal.dot_S50000x32_S32x32_S50000x32_1_0_0_1_n_n none a0 a1) (broadcastInDim Cert.ReferenceIdeal.S50000x32 ![0, 1] Cert.ReferenceIdeal.Facts₀.bcast_S1x32_S50000x32_0_1 a2)) (broadcastInDim Cert.ReferenceIdeal.S50000x32 ![] Cert.ReferenceIdeal.Facts₀.bcast_S_S50000x32 (constant (F := Ideal) Cert.ReferenceIdeal.S_ .f32 0x00000000#32))) a3) (broadcastInDim Cert.ReferenceIdeal.S50000x1 ![0, 1] Cert.ReferenceIdeal.Facts₀.bcast_S1x1_S50000x1_0_1 a4) : FVec Ideal Cert.ReferenceIdeal.S50000x1 .f32) (ix2 r s)
      = mlp5 a0 a1 a2 a3 a4 r := by
  obtain rfl : s = 0 := Subsingleton.elim _ _
  unfold mlp5
  simp only [Host.dotGeneral]
  rw [addf_apply, Ideal.dotGeneral_apply, dh5b_sum, broadcastInDim_oneRow_apply]
  congr 1
  refine Finset.sum_congr rfl fun k _ => ?_
  rw [maximumf_apply, addf_apply, Ideal.dotGeneral_apply, dh5a_sum, broadcastInDim_oneRow_apply]
  show max _ (Ideal.ofBits .f32 0x00000000#32) * _ = _
  rw [Ideal.ofBits_zero_f32]

variable (V : (c : Dev nD) → (b : Ref sig .tc) → Buf (Elt Ideal) ((c : Thread nD τ).loc b))

/-! ## From blocks to the array -/

/-- The index maps over the grid: the row block (window 0) and the output (window 5) are at block `t` at point `t`;
    the weights and biases (windows 1 to 4) are one block, the whole array. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 1's block is its whole array at every point. -/
theorem blk5_1 (c : Dev nD) (t : Fin cfg5.N) : (iblk5 V c 1 t : Vec Ideal S32x32 .f32) = V c main_arg14 := by
  obtain ⟨e00, e01, e10, e11, e20, e21, e30, e31, e40, e41, e50, e51⟩ := idx_facts5 t
  funext y
  show V c main_arg14 (((cfg5.win 1).blk t).view.emb y) = V c main_arg14 y
  refine congrArg _ (funext fun ax => Fin.ext ?_)
  match ax with
  | ⟨0, _⟩ => show win5_1.index t (0 : Fin 2) * 32 + 1 * (y 0).val = (y 0).val; omega
  | ⟨1, _⟩ => show win5_1.index t (1 : Fin 2) * 32 + 1 * (y 1).val = (y 1).val; omega

/-- Window 2's block is its whole array at every point. -/
theorem blk5_2 (c : Dev nD) (t : Fin cfg5.N) : (iblk5 V c 2 t : Vec Ideal S1x32 .f32) = V c main_v85 := by
  obtain ⟨e00, e01, e10, e11, e20, e21, e30, e31, e40, e41, e50, e51⟩ := idx_facts5 t
  funext y
  show V c main_v85 (((cfg5.win 2).blk t).view.emb y) = V c main_v85 y
  refine congrArg _ (funext fun ax => Fin.ext ?_)
  match ax with
  | ⟨0, _⟩ => show win5_2.index t (0 : Fin 2) * 1 + 1 * (y 0).val = (y 0).val; omega
  | ⟨1, _⟩ => show win5_2.index t (1 : Fin 2) * 32 + 1 * (y 1).val = (y 1).val; omega

/-- Window 3's block is its whole array at every point. -/
theorem blk5_3 (c : Dev nD) (t : Fin cfg5.N) : (iblk5 V c 3 t : Vec Ideal S32x1 .f32) = V c main_arg16 := by
  obtain ⟨e00, e01, e10, e11, e20, e21, e30, e31, e40, e41, e50, e51⟩ := idx_facts5 t
  funext y
  show V c main_arg16 (((cfg5.win 3).blk t).view.emb y) = V c main_arg16 y
  refine congrArg _ (funext fun ax => Fin.ext ?_)
  match ax with
  | ⟨0, _⟩ => show win5_3.index t (0 : Fin 2) * 32 + 1 * (y 0).val = (y 0).val; omega
  | ⟨1, _⟩ => show win5_3.index t (1 : Fin 2) * 1 + 1 * (y 1).val = (y 1).val; omega

/-- Window 4's block is its whole array at every point. -/
theorem blk5_4 (c : Dev nD) (t : Fin cfg5.N) : (iblk5 V c 4 t : Vec Ideal S1x1 .f32) = V c main_v86 := by
  obtain ⟨e00, e01, e10, e11, e20, e21, e30, e31, e40, e41, e50, e51⟩ := idx_facts5 t
  funext y
  show V c main_v86 (((cfg5.win 4).blk t).view.emb y) = V c main_v86 y
  refine congrArg _ (funext fun ax => Fin.ext ?_)
  match ax with
  | ⟨0, _⟩ => show win5_4.index t (0 : Fin 2) * 1 + 1 * (y 0).val = (y 0).val; omega
  | ⟨1, _⟩ => show win5_4.index t (1 : Fin 2) * 1 + 1 * (y 1).val = (y 1).val; omega

/-- Window 0's block at point `t` is rows `5000 t … 5000 t + 4999` of its array. -/
theorem blk5_0 (c : Dev nD) (t : Fin cfg5.N) (p : Fin 5000) (j : Fin 32) (r : Fin 50000) (hr : r.val = t.val * 5000 + p.val) :
    (iblk5 V c 0 t : Vec Ideal S5000x32 .f32) (ix2 p j) = (V c main_v84 : FVec Ideal S50000x32 .f32) (ix2 r j) := by
  obtain ⟨e00, e01, e10, e11, e20, e21, e30, e31, e40, e41, e50, e51⟩ := idx_facts5 t
  show V c main_v84 (((cfg5.win 0).blk t).view.emb (ix2 p j)) = V c main_v84 (ix2 r j)
  refine congrArg _ (funext fun ax => Fin.ext ?_)
  match ax with
  | ⟨0, _⟩ => show win5_0.index t (0 : Fin 2) * 5000 + 1 * p.val = r.val; omega
  | ⟨1, _⟩ => show win5_0.index t (1 : Fin 2) * 32 + 1 * j.val = j.val; omega

/-- Row `p` of the output's block at point `t` is row `5000 t + p` of its array. -/
theorem emb5_5 (t : Fin cfg5.N) (p : Fin 5000) (q : Fin 1) (r : Fin 50000) (hr : r.val = t.val * 5000 + p.val) :
    ((cfg5.win 5).blk t).view.emb (ix2 p q) = (ix2 r q : S50000x1.Idx) := by
  obtain ⟨e00, e01, e10, e11, e20, e21, e30, e31, e40, e41, e50, e51⟩ := idx_facts5 t
  refine funext fun ax => Fin.ext ?_
  match ax with
  | ⟨0, _⟩ => show win5_5.index t (0 : Fin 2) * 5000 + 1 * p.val = r.val; omega
  | ⟨1, _⟩ => show win5_5.index t (1 : Fin 2) * 1 + 1 * q.val = q.val; omega

/-- The region's result as one host expression of the arrays the region finds. -/
abbrev G5 (c : Dev nD) : FVec Ideal Cert.ReferenceIdeal.S50000x1 .f32 :=
  (addf (F := Ideal) (Host.dotGeneral (F := Ideal) (φ₁ := .f32) (φ₂ := .f32) Cert.ReferenceIdeal.dot_S50000x32_S32x1_S50000x1_1_0_0_1_n_n none (maximumf (F := Ideal) (addf (F := Ideal) (Host.dotGeneral (F := Ideal) (φ₁ := .f32) (φ₂ := .f32) Cert.ReferenceIdeal.dot_S50000x32_S32x32_S50000x32_1_0_0_1_n_n none (V c main_v84) (V c main_arg14)) (broadcastInDim Cert.ReferenceIdeal.S50000x32 ![0, 1] Cert.ReferenceIdeal.Facts₀.bcast_S1x32_S50000x32_0_1 (V c main_v85))) (broadcastInDim Cert.ReferenceIdeal.S50000x32 ![] Cert.ReferenceIdeal.Facts₀.bcast_S_S50000x32 (constant (F := Ideal) Cert.ReferenceIdeal.S_ .f32 0x00000000#32))) (V c main_arg16)) (broadcastInDim Cert.ReferenceIdeal.S50000x1 ![0, 1] Cert.ReferenceIdeal.Facts₀.bcast_S1x1_S50000x1_0_1 (V c main_v86)) : FVec Ideal Cert.ReferenceIdeal.S50000x1 .f32)

/-- What point `t` writes back is block `t` of that expression: the body computes the perceptron on the rows of its
    block, and those are rows `5000 t …` of the array. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz5]
  simp only [View.ld_unit_zero (S := S5000x32) hz5, View.ld_unit_zero (S := S32x32) hz5, View.ld_unit_zero (S := S1x32) hz5, View.ld_unit_zero (S := S32x1) hz5, View.ld_unit_zero (S := S1x1) hz5]
  funext y
  obtain ⟨p, q, rfl⟩ : ∃ (p : Fin 5000) (q : Fin 1), y = ix2 p q := ⟨y 0, y 1, eq_ix2 y⟩
  have hN : cfg5.N = 10 := N_5
  have ht : t.val < 10 := hN ▸ t.isLt
  have hp : p.val < 5000 := p.isLt
  have hr : t.val * 5000 + p.val < 50000 := by omega
  show k5_pay1 (iblk5 V c 0 t) (iblk5 V c 1 t) (iblk5 V c 2 t) (iblk5 V c 3 t) (iblk5 V c 4 t) (ix2 p q)
    = G5 V c (((cfg5.win 5).blk t).view.emb (ix2 p q))
  rw [emb5_5 t p q ⟨t.val * 5000 + p.val, hr⟩ rfl]
  refine (pay5_apply (iblk5 V c 0 t) (iblk5 V c 1 t) (iblk5 V c 2 t) (iblk5 V c 3 t) (iblk5 V c 4 t) p q).trans ?_
  refine Eq.trans ?_ (host5_apply (V c main_v84) (V c main_arg14) (V c main_v85) (V c main_arg16) (V c main_v86) ⟨t.val * 5000 + p.val, hr⟩ q).symm
  rw [blk5_1 V c t, blk5_2 V c t, blk5_3 V c t, blk5_4 V c t]
  exact mlp5_row _ _ _ _ _ _ p ⟨t.val * 5000 + p.val, hr⟩ fun j => blk5_0 V c t p j ⟨t.val * 5000 + p.val, hr⟩ rfl

/-- An index of the output array is in point `t`'s block iff each coordinate is in the block's range on its axis. -/
theorem mem_blk5 (t : Fin cfg5.N) (i : S50000x1.Idx) :
    i ∈ ((cfg5.win 5).blk t).view.set ↔ ∀ a : Fin 2, win5_5.index t a * S5000x1.size a ≤ (i a).val ∧ (i a).val < win5_5.index t a * S5000x1.size a + S5000x1.size a := by
  show i ∈ ((View.whole main_v87).slice (win5_5.rect t)).set ↔ _
  rw [View.set_slice_whole, Rect.mem_set_unit]
  exact Iff.rfl

/-- Every row of the output array is in the block of the point `row / 5000`, and every point writes its block back. -/
theorem cover5 (i : S50000x1.Idx) : ∃ t : Fin cfg5.N, (cfg5.win 5).flush t = true ∧ i ∈ ((cfg5.win 5).blk t).view.set := by
  have hN : cfg5.N = 10 := N_5
  have hi0 : (i 0).val < 50000 := (i 0).isLt
  have hi1 : (i 1).val < 1 := (i 1).isLt
  have htl : (i 0).val / 5000 < cfg5.N := by rw [hN]; omega
  refine ⟨⟨(i 0).val / 5000, htl⟩, flush5_5 _, ?_⟩
  obtain ⟨e00, e01, e10, e11, e20, e21, e30, e31, e40, e41, e50, e51⟩ := idx_facts5 ⟨(i 0).val / 5000, htl⟩
  rw [mem_blk5]
  intro ax
  match ax with
  | ⟨0, _⟩ =>
    show win5_5.index ⟨(i 0).val / 5000, htl⟩ (0 : Fin 2) * 5000 ≤ (i 0).val ∧ (i 0).val < win5_5.index ⟨(i 0).val / 5000, htl⟩ (0 : Fin 2) * 5000 + 5000
    rw [e50]
    show (i 0).val / 5000 * 5000 ≤ (i 0).val ∧ (i 0).val < (i 0).val / 5000 * 5000 + 5000
    omega
  | ⟨1, _⟩ =>
    show win5_5.index ⟨(i 0).val / 5000, htl⟩ (1 : Fin 2) * 1 ≤ (i 1).val ∧ (i 1).val < win5_5.index ⟨(i 0).val / 5000, htl⟩ (1 : Fin 2) * 1 + 1
    omega

/-- THE OUTPUT ARRAY after the region is that one host expression of the arrays the region finds. -/
theorem final5 (c : Dev nD) : (dat5 (F := Ideal) V c).arrAt 5 cfg5.N
    = (addf (F := Ideal) (Host.dotGeneral (F := Ideal) (φ₁ := .f32) (φ₂ := .f32) Cert.ReferenceIdeal.dot_S50000x32_S32x1_S50000x1_1_0_0_1_n_n none (maximumf (F := Ideal) (addf (F := Ideal) (Host.dotGeneral (F := Ideal) (φ₁ := .f32) (φ₂ := .f32) Cert.ReferenceIdeal.dot_S50000x32_S32x32_S50000x32_1_0_0_1_n_n none (V c main_v84) (V c main_arg14)) (broadcastInDim Cert.ReferenceIdeal.S50000x32 ![0, 1] Cert.ReferenceIdeal.Facts₀.bcast_S1x32_S50000x32_0_1 (V c main_v85))) (broadcastInDim Cert.ReferenceIdeal.S50000x32 ![] Cert.ReferenceIdeal.Facts₀.bcast_S_S50000x32 (constant (F := Ideal) Cert.ReferenceIdeal.S_ .f32 0x00000000#32))) (V c main_arg16)) (broadcastInDim Cert.ReferenceIdeal.S50000x1 ![0, 1] Cert.ReferenceIdeal.Facts₀.bcast_S1x1_S50000x1_0_1 (V c main_v86)) : FVec Ideal Cert.ReferenceIdeal.S50000x1 .f32) :=
  (dat5 (F := Ideal) V c).arrAt_eq_of_cover 5 (G5 V c) (fun t _ => flushed5_eq V c t) (cover5)

end Cert.KernelIdeal.Fr

end
-- ==== Proof.LibLayout.lean ====
/-
  Two spellings of one re-layout. Adding a unit axis to a vector — a reshape of [n] to [n, 1] or to [1, n] — and
  the broadcast_in_dim that sends the vector's one axis to the non-unit axis of the same result shape are the same
  function: element (r, 0) (respectively (0, r)) of either is element r of the vector.
-/
import Idealize.ShloMosaic.Lib.Pipeline.Value
import Idealize.ShloMosaic.Lib.ValueIdx
import Idealize.ShloMosaic.Lib.ValueLayout

noncomputable section

namespace Cert.LibLayout

open Idealize.ShloMosaic

variable {α : Type}

/-- [n] → [n, 1]: the reshape is the broadcast along axis 0; entry (r, 0) of either is entry r of the vector. -/
theorem shapeCast_col_eq_broadcastInDim (n : Nat) (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  let k : (⟨1, ![n]⟩ : Shape).Idx := fun a => ⟨(j 0).val, by
    have ha : a = 0 := Subsingleton.elim _ _
    subst ha
    show (j 0).val < n
    exact (j 0).isLt⟩
  rw [shapeCast_apply v h j k ?_, broadcastInDim_apply ![0] hb v j k ?_]
  · intro a
    have ha : a = 0 := Subsingleton.elim _ _
    subst ha
    by_cases h1 : (⟨1, ![n]⟩ : Shape).size 0 = 1
    · rw [if_pos h1]
      have : (j 0).val < n := (j 0).isLt
      have h1' : n = 1 := h1
      show (j 0).val = 0
      omega
    · rw [if_neg h1]; rfl
  · rw [Shape.rowMajor_val_one, Shape.rowMajor_val_two]
    show (j 0).val = (j 0).val * 1 + (j 1).val
    omega

/-- [n] → [1, n]: the reshape is the broadcast along axis 1; entry (0, r) of either is entry r of the vector. -/
theorem shapeCast_row_eq_broadcastInDim (n : Nat) (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  let k : (⟨1, ![n]⟩ : Shape).Idx := fun a => ⟨(j 1).val, by
    have ha : a = 0 := Subsingleton.elim _ _
    subst ha
    show (j 1).val < n
    exact (j 1).isLt⟩
  rw [shapeCast_apply v h j k ?_, broadcastInDim_apply ![1] hb v j k ?_]
  · intro a
    have ha : a = 0 := Subsingleton.elim _ _
    subst ha
    by_cases h1 : (⟨1, ![n]⟩ : Shape).size 0 = 1
    · rw [if_pos h1]
      have : (j 1).val < n := (j 1).isLt
      have h1' : n = 1 := h1
      show (j 1).val = 0
      omega
    · rw [if_neg h1]; rfl
  · rw [Shape.rowMajor_val_one, Shape.rowMajor_val_two]
    show (j 1).val = (j 0).val * n + (j 1).val
    rw [hj0]; omega

end Cert.LibLayout

end
-- ==== Proof.KI.Bridge.lean ====
/-
  The kernel's host values and region results, boundary by boundary, are the reference's values. Between two
  regions the kernel's program applies the very operations the reference applies (slices of the edge list, the
  degree by a scatter-add of ones, its inverse square root, the row gathers and the scatter-add of the scaled
  messages, the concatenation of the gathered embeddings with the edge features); a region's result is the host
  expression the reference computes in its place (a matrix product; the sum of the aggregate, the self-loop term and
  the bias, clamped at zero; two layers of products with a bias and a clamp between them). The only re-spellings are a
  vector given a unit axis by a reshape on one side and by a broadcast on the other. So each boundary value of the
  kernel is the reference's value of the same quantity, as a function of the argument arrays.
-/
import proofs.«178605_j21560735825958_2_alg».proof.Proof.KI.Run
import proofs.«178605_j21560735825958_2_alg».proof.Proof.KI.Val0
import proofs.«178605_j21560735825958_2_alg».proof.Proof.KI.Val1
import proofs.«178605_j21560735825958_2_alg».proof.Proof.KI.Val2
import proofs.«178605_j21560735825958_2_alg».proof.Proof.KI.Val3
import proofs.«178605_j21560735825958_2_alg».proof.Proof.KI.Val4
import proofs.«178605_j21560735825958_2_alg».proof.Proof.KI.Val5
import proofs.«178605_j21560735825958_2_alg».proof.Proof.Gen.ReferenceIdeal.Read
import proofs.«178605_j21560735825958_2_alg».proof.Proof.LibLayout
import Idealize.ShloMosaic.Lib.StableHlo.Run

set_option maxRecDepth 16384
set_option maxHeartbeats 4000000

noncomputable section

namespace Cert.KernelIdeal.Fr

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (c : Dev nD)

/-! ## A stretch leaves what it does not write -/

theorem B1_of (r : Ref sig .tc) (h : r ∉ hostOps0_W) : B1 m c r = m ((c : Thread nD τ).loc r) :=
  StableHlo.after_of_writes_sub hostOps0 _ hostOps0_writes h
theorem B3_of (r : Ref sig .tc) (h : r ∉ hostOps1_W) : B3 m c r = B2 m c r :=
  StableHlo.after_of_writes_sub hostOps1 _ hostOps1_writes h
theorem B6_of (r : Ref sig .tc) (h : r ∉ hostOps3_W) : B6 m c r = B5 m c r :=
  StableHlo.after_of_writes_sub hostOps3 _ hostOps3_writes h
theorem B8_of (r : Ref sig .tc) (h : r ∉ hostOps4_W) : B8 m c r = B7 m c r :=
  StableHlo.after_of_writes_sub hostOps4 _ hostOps4_writes h
theorem B10_of (r : Ref sig .tc) (h : r ∉ hostOps5_W) : B10 m c r = B9 m c r :=
  StableHlo.after_of_writes_sub hostOps5 _ hostOps5_writes h
theorem B12_of' (r : Ref sig .tc) (h : r ∉ hostOps6_W) : B12 m c r = B11 m c r :=
  StableHlo.after_of_writes_sub hostOps6 _ hostOps6_writes h

/-! ## The first stretch: edge endpoints, degree, its inverse square root, the edge weights -/

theorem k_v1_v1 : B1 m c main_v1 = Cert.ReferenceIdeal.Read.val_main_v1 (F := Ideal) (m ((c : Thread nD τ).loc main_arg1)) := by
  show StableHlo.after hostOps0 (fun b => m (c, b)) (Proc.devRef .tc main_v1) = _
  dsimp only [hostOps0]
  after_results_simp <;> rfl

theorem k_v3_v3 : B1 m c main_v3 = Cert.ReferenceIdeal.Read.val_main_v3 (F := Ideal) (m ((c : Thread nD τ).loc main_arg1)) := by
  show StableHlo.after hostOps0 (fun b => m (c, b)) (Proc.devRef .tc main_v3) = _
  dsimp only [hostOps0]
  after_results_simp <;> rfl

/-- The inverse square root of the degree, as the reference's first layer computes it, -/
theorem k_v10_v11 : B1 m c main_v10 = Cert.ReferenceIdeal.Read.val_main_v11 (F := Ideal) (m ((c : Thread nD τ).loc main_arg1)) := by
  show StableHlo.after hostOps0 (fun b => m (c, b)) (Proc.devRef .tc main_v10) = _
  dsimp only [hostOps0]
  after_results_simp <;> rfl

/-- and as its second layer computes it again: the same operations of the same edge list. -/
theorem k_v10_v56 : B1 m c main_v10 = Cert.ReferenceIdeal.Read.val_main_v56 (F := Ideal) (m ((c : Thread nD τ).loc main_arg1)) := by
  show StableHlo.after hostOps0 (fun b => m (c, b)) (Proc.devRef .tc main_v10) = _
  dsimp only [hostOps0]
  after_results_simp <;> rfl

/-- The squared inverse root as a column: the kernel reshapes where the reference broadcasts. -/
theorem k_v12_v41 : B1 m c main_v12 = Cert.ReferenceIdeal.Read.val_main_v41 (F := Ideal) (m ((c : Thread nD τ).loc main_arg1)) := by
  have e : B1 m c main_v12 = shapeCast S100000x1 (Cert.ReferenceIdeal.Read.val_main_v40 (F := Ideal) (m ((c : Thread nD τ).loc main_arg1))) shapeCasts_S100000_S100000x1 := by
    show StableHlo.after hostOps0 (fun b => m (c, b)) (Proc.devRef .tc main_v12) = _
    dsimp only [hostOps0]
    after_results_simp <;> rfl
  exact e.trans (Cert.LibLayout.shapeCast_col_eq_broadcastInDim 100000 _ _ _)
theorem k_v12_v86 : B1 m c main_v12 = Cert.ReferenceIdeal.Read.val_main_v86 (F := Ideal) (m ((c : Thread nD τ).loc main_arg1)) := by
  have e : B1 m c main_v12 = shapeCast S100000x1 (Cert.ReferenceIdeal.Read.val_main_v85 (F := Ideal) (m ((c : Thread nD τ).loc main_arg1))) shapeCasts_S100000_S100000x1 := by
    show StableHlo.after hostOps0 (fun b => m (c, b)) (Proc.devRef .tc main_v12) = _
    dsimp only [hostOps0]
    after_results_simp <;> rfl
  exact e.trans (Cert.LibLayout.shapeCast_col_eq_broadcastInDim 100000 _ _ _)
/-- The edge weights as a column, likewise. -/
theorem k_v28_v34 : B1 m c main_v28 = Cert.ReferenceIdeal.Read.val_main_v34 (F := Ideal) (m ((c : Thread nD τ).loc main_arg1)) := by
  have e : B1 m c main_v28 = shapeCast S3200000x1 (Cert.ReferenceIdeal.Read.val_main_v26 (F := Ideal) (m ((c : Thread nD τ).loc main_arg1))) shapeCasts_S3200000_S3200000x1 := by
    show StableHlo.after hostOps0 (fun b => m (c, b)) (Proc.devRef .tc main_v28) = _
    dsimp only [hostOps0]
    after_results_simp <;> rfl
  exact e.trans (Cert.LibLayout.shapeCast_col_eq_broadcastInDim 3200000 _ _ _)
theorem k_v28_v79 : B1 m c main_v28 = Cert.ReferenceIdeal.Read.val_main_v79 (F := Ideal) (m ((c : Thread nD τ).loc main_arg1)) := by
  have e : B1 m c main_v28 = shapeCast S3200000x1 (Cert.ReferenceIdeal.Read.val_main_v71 (F := Ideal) (m ((c : Thread nD τ).loc main_arg1))) shapeCasts_S3200000_S3200000x1 := by
    show StableHlo.after hostOps0 (fun b => m (c, b)) (Proc.devRef .tc main_v28) = _
    dsimp only [hostOps0]
    after_results_simp <;> rfl
  exact e.trans (Cert.LibLayout.shapeCast_col_eq_broadcastInDim 3200000 _ _ _)

/-! ## Layer 1 -/

/-- The first product. -/
theorem k_v29 : B2 m c main_v29 = Cert.ReferenceIdeal.Read.val_main_v4 (F := Ideal) (m ((c : Thread nD τ).loc main_arg0)) (m ((c : Thread nD τ).loc main_arg6)) := by
  rw [B2_self]; unfold o2; rw [final0 (Vt (B1 m)) c]
  dsimp only [Vt]
  rw [B1_of m c main_arg0 (by decide), B1_of m c main_arg6 (by decide)]
  rfl
/-- The aggregate of the scaled messages. -/
theorem k_v41 : B3 m c main_v41 = Cert.ReferenceIdeal.Read.val_main_v39 (F := Ideal) (m ((c : Thread nD τ).loc main_arg0)) (m ((c : Thread nD τ).loc main_arg1)) (m ((c : Thread nD τ).loc main_arg6)) := by
  show StableHlo.after hostOps1 (B2 m c) (Proc.devRef .tc main_v41) = _
  dsimp only [hostOps1]
  after_results_simp
  rw [B2_ne m c main_v3 (by decide), B2_ne m c main_v1 (by decide), B2_ne m c main_v28 (by decide), k_v29 m c, k_v3_v3 m c, k_v1_v1 m c, k_v28_v34 m c]
  rfl

/-- The bias as a row: a reshape here, a broadcast there. -/
theorem k_v42 : B3 m c main_v42 = Cert.ReferenceIdeal.Read.val_main_v45 (F := Ideal) (m ((c : Thread nD τ).loc main_arg7)) := by
  have e : B3 m c main_v42 = shapeCast S1x32 (m ((c : Thread nD τ).loc main_arg7)) shapeCasts_S32_S1x32 := by
    show StableHlo.after hostOps1 (B2 m c) (Proc.devRef .tc main_v42) = _
    dsimp only [hostOps1]
    after_results_simp
    rw [B2_ne m c main_arg7 (by decide), B1_of m c main_arg7 (by decide)]
    rfl
  exact e.trans (Cert.LibLayout.shapeCast_row_eq_broadcastInDim 32 _ _ _)
/-- The first layer's embeddings. -/
theorem k_v43 : B4 m c main_v43 = Cert.ReferenceIdeal.Read.val_main_v48 (F := Ideal) (m ((c : Thread nD τ).loc main_arg0)) (m ((c : Thread nD τ).loc main_arg1)) (m ((c : Thread nD τ).loc main_arg6)) (m ((c : Thread nD τ).loc main_arg7)) := by
  rw [B4_self]; unfold o4; rw [final1 (Vt (B3 m)) c]
  dsimp only [Vt]
  rw [k_v41 m c, k_v42 m c, B3_of m c main_v29 (by decide), k_v29 m c, B3_of m c main_v12 (by decide), B2_ne m c main_v12 (by decide), k_v12_v41 m c]
  rfl

/-! ## Layer 2 -/

theorem k_v44 : B5 m c main_v44 = Cert.ReferenceIdeal.Read.val_main_v49 (F := Ideal) (m ((c : Thread nD τ).loc main_arg0)) (m ((c : Thread nD τ).loc main_arg1)) (m ((c : Thread nD τ).loc main_arg6)) (m ((c : Thread nD τ).loc main_arg7)) (m ((c : Thread nD τ).loc main_arg8)) := by
  rw [B5_self]; unfold o5; rw [final2 (Vt (B4 m)) c]
  dsimp only [Vt]
  rw [k_v43 m c, B4_ne m c main_arg8 (by decide), B3_of m c main_arg8 (by decide), B2_ne m c main_arg8 (by decide), B1_of m c main_arg8 (by decide)]
  rfl
theorem k_v56 : B6 m c main_v56 = Cert.ReferenceIdeal.Read.val_main_v84 (F := Ideal) (m ((c : Thread nD τ).loc main_arg0)) (m ((c : Thread nD τ).loc main_arg1)) (m ((c : Thread nD τ).loc main_arg6)) (m ((c : Thread nD τ).loc main_arg7)) (m ((c : Thread nD τ).loc main_arg8)) := by
  show StableHlo.after hostOps3 (B5 m c) (Proc.devRef .tc main_v56) = _
  dsimp only [hostOps3]
  after_results_simp
  rw [B5_ne m c main_v3 (by decide), B4_ne m c main_v3 (by decide), B3_of m c main_v3 (by decide), B2_ne m c main_v3 (by decide), B5_ne m c main_v1 (by decide), B4_ne m c main_v1 (by decide), B3_of m c main_v1 (by decide), B2_ne m c main_v1 (by decide), B5_ne m c main_v28 (by decide), B4_ne m c main_v28 (by decide), B3_of m c main_v28 (by decide), B2_ne m c main_v28 (by decide), k_v44 m c, k_v3_v3 m c, k_v1_v1 m c, k_v28_v79 m c]
  rfl

theorem k_v57 : B6 m c main_v57 = Cert.ReferenceIdeal.Read.val_main_v90 (F := Ideal) (m ((c : Thread nD τ).loc main_arg9)) := by
  have e : B6 m c main_v57 = shapeCast S1x32 (m ((c : Thread nD τ).loc main_arg9)) shapeCasts_S32_S1x32 := by
    show StableHlo.after hostOps3 (B5 m c) (Proc.devRef .tc main_v57) = _
    dsimp only [hostOps3]
    after_results_simp
    rw [B5_ne m c main_arg9 (by decide), B4_ne m c main_arg9 (by decide), B3_of m c main_arg9 (by decide), B2_ne m c main_arg9 (by decide), B1_of m c main_arg9 (by decide)]
    rfl
  exact e.trans (Cert.LibLayout.shapeCast_row_eq_broadcastInDim 32 _ _ _)
/-- The second layer's embeddings. -/
theorem k_v58 : B7 m c main_v58 = Cert.ReferenceIdeal.Read.val_main_v93 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  rw [B7_self]; unfold o7; rw [final3 (Vt (B6 m)) c]
  dsimp only [Vt]
  rw [k_v56 m c, k_v57 m c, B6_of m c main_v44 (by decide), k_v44 m c,
    B6_of m c main_v12 (by decide), B5_ne m c main_v12 (by decide), B4_ne m c main_v12 (by decide), B3_of m c main_v12 (by decide), B2_ne m c main_v12 (by decide), k_v12_v86 m c]
  rfl

/-! ## The edge head -/

/-- The two gathered embedding tables of the edge head, -/
theorem k_v65 : B8 m c main_v65 = Cert.ReferenceIdeal.Read.val_main_v100 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  show StableHlo.after hostOps4 (B7 m c) (Proc.devRef .tc main_v65) = _
  dsimp only [hostOps4]
  after_results_simp
  rw [k_v58 m c, B7_ne m c main_arg2 (by decide), B6_of m c main_arg2 (by decide), B5_ne m c main_arg2 (by decide), B4_ne m c main_arg2 (by decide), B3_of m c main_arg2 (by decide), B2_ne m c main_arg2 (by decide), B1_of m c main_arg2 (by decide)]
  rfl

theorem k_v72 : B8 m c main_v72 = Cert.ReferenceIdeal.Read.val_main_v107 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) := by
  show StableHlo.after hostOps4 (B7 m c) (Proc.devRef .tc main_v72) = _
  dsimp only [hostOps4]
  after_results_simp
  rw [k_v58 m c, B7_ne m c main_arg3 (by decide), B6_of m c main_arg3 (by decide), B5_ne m c main_arg3 (by decide), B4_ne m c main_arg3 (by decide), B3_of m c main_arg3 (by decide), B2_ne m c main_arg3 (by decide), B1_of m c main_arg3 (by decide)]
  rfl

/-- and their concatenation with the edge features: the three operands are not written again within the stretch. -/
theorem k_v73_split : B8 m c main_v73 = concatenate S1000000x66 1 [⟨S1000000x32, B8 m c main_v65⟩, ⟨S1000000x32, B8 m c main_v72⟩, ⟨S1000000x2, B8 m c main_arg4⟩] concatenates_S1000000x32_S1000000x32_S1000000x2_S1000000x66_d1 := by
  unfold B8
  dsimp only [hostOps4]
  simp (disch := decide) only [after_cons, after_nil, reshape_result_ne', nary_result_ne', nary_result']
  rfl
theorem k_v73 : B8 m c main_v73 = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  rw [k_v73_split m c, k_v65 m c, k_v72 m c, B8_of m c main_arg4 (by decide), B7_ne m c main_arg4 (by decide), B6_of m c main_arg4 (by decide), B5_ne m c main_arg4 (by decide), B4_ne m c main_arg4 (by decide), B3_of m c main_arg4 (by decide), B2_ne m c main_arg4 (by decide), B1_of m c main_arg4 (by decide)]
  rfl

theorem k_v74 : B8 m c main_v74 = Cert.ReferenceIdeal.Read.val_main_v110 (F := Ideal) (m ((c : Thread nD τ).loc main_arg11)) := by
  have e : B8 m c main_v74 = shapeCast S1x32 (m ((c : Thread nD τ).loc main_arg11)) shapeCasts_S32_S1x32 := by
    show StableHlo.after hostOps4 (B7 m c) (Proc.devRef .tc main_v74) = _
    dsimp only [hostOps4]
    after_results_simp
    rw [B7_ne m c main_arg11 (by decide), B6_of m c main_arg11 (by decide), B5_ne m c main_arg11 (by decide), B4_ne m c main_arg11 (by decide), B3_of m c main_arg11 (by decide), B2_ne m c main_arg11 (by decide), B1_of m c main_arg11 (by decide)]
    rfl
  exact e.trans (Cert.LibLayout.shapeCast_row_eq_broadcastInDim 32 _ _ _)
theorem k_v75 : B8 m c main_v75 = Cert.ReferenceIdeal.Read.val_main_v115 (F := Ideal) (m ((c : Thread nD τ).loc main_arg13)) := by
  have e : B8 m c main_v75 = shapeCast S1x1 (m ((c : Thread nD τ).loc main_arg13)) shapeCasts_S1_S1x1 := by
    show StableHlo.after hostOps4 (B7 m c) (Proc.devRef .tc main_v75) = _
    dsimp only [hostOps4]
    after_results_simp
    rw [B7_ne m c main_arg13 (by decide), B6_of m c main_arg13 (by decide), B5_ne m c main_arg13 (by decide), B4_ne m c main_arg13 (by decide), B3_of m c main_arg13 (by decide), B2_ne m c main_arg13 (by decide), B1_of m c main_arg13 (by decide)]
    rfl
  exact e.trans (Cert.LibLayout.shapeCast_row_eq_broadcastInDim 1 _ _ _)
theorem k_v76 : B9 m c main_v76 = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [B9_self]; unfold o9; rw [final4 (Vt (B8 m)) c]
  dsimp only [Vt]
  rw [k_v73 m c, k_v74 m c, k_v75 m c,
    B8_of m c main_arg10 (by decide), B7_ne m c main_arg10 (by decide), B6_of m c main_arg10 (by decide), B5_ne m c main_arg10 (by decide), B4_ne m c main_arg10 (by decide), B3_of m c main_arg10 (by decide), B2_ne m c main_arg10 (by decide), B1_of m c main_arg10 (by decide),
    B8_of m c main_arg12 (by decide), B7_ne m c main_arg12 (by decide), B6_of m c main_arg12 (by decide), B5_ne m c main_arg12 (by decide), B4_ne m c main_arg12 (by decide), B3_of m c main_arg12 (by decide), B2_ne m c main_arg12 (by decide), B1_of m c main_arg12 (by decide)]
  rfl
/-- The first result: the edge predictions, flattened. -/
theorem k_v77' : B10 m c main_v77 = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps5 (B9 m c) (Proc.devRef .tc main_v77) = _
  dsimp only [hostOps5]
  after_results_simp
  rw [k_v76 m c]
  rfl

theorem k_v77 : B12 m c main_v77 = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [B12_of' m c main_v77 (by decide), B11_ne m c main_v77 (by decide)]; exact k_v77' m c

/-! ## The gene head -/

theorem k_v84 : B10 m c main_v84 = Cert.ReferenceIdeal.Read.val_main_v125 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (B9 m c) (Proc.devRef .tc main_v84) = _
  dsimp only [hostOps5]
  after_results_simp
  rw [B9_ne m c main_v58 (by decide), B8_of m c main_v58 (by decide), k_v58 m c, B9_ne m c main_arg5 (by decide), B8_of m c main_arg5 (by decide), B7_ne m c main_arg5 (by decide), B6_of m c main_arg5 (by decide), B5_ne m c main_arg5 (by decide), B4_ne m c main_arg5 (by decide), B3_of m c main_arg5 (by decide), B2_ne m c main_arg5 (by decide), B1_of m c main_arg5 (by decide)]
  rfl

theorem k_v85 : B10 m c main_v85 = Cert.ReferenceIdeal.Read.val_main_v127 (F := Ideal) (m ((c : Thread nD τ).loc main_arg15)) := by
  have e : B10 m c main_v85 = shapeCast S1x32 (m ((c : Thread nD τ).loc main_arg15)) shapeCasts_S32_S1x32 := by
    show StableHlo.after hostOps5 (B9 m c) (Proc.devRef .tc main_v85) = _
    dsimp only [hostOps5]
    after_results_simp
    rw [B9_ne m c main_arg15 (by decide), B8_of m c main_arg15 (by decide), B7_ne m c main_arg15 (by decide), B6_of m c main_arg15 (by decide), B5_ne m c main_arg15 (by decide), B4_ne m c main_arg15 (by decide), B3_of m c main_arg15 (by decide), B2_ne m c main_arg15 (by decide), B1_of m c main_arg15 (by decide)]
    rfl
  exact e.trans (Cert.LibLayout.shapeCast_row_eq_broadcastInDim 32 _ _ _)
theorem k_v86 : B10 m c main_v86 = Cert.ReferenceIdeal.Read.val_main_v132 (F := Ideal) (m ((c : Thread nD τ).loc main_arg17)) := by
  have e : B10 m c main_v86 = shapeCast S1x1 (m ((c : Thread nD τ).loc main_arg17)) shapeCasts_S1_S1x1 := by
    show StableHlo.after hostOps5 (B9 m c) (Proc.devRef .tc main_v86) = _
    dsimp only [hostOps5]
    after_results_simp
    rw [B9_ne m c main_arg17 (by decide), B8_of m c main_arg17 (by decide), B7_ne m c main_arg17 (by decide), B6_of m c main_arg17 (by decide), B5_ne m c main_arg17 (by decide), B4_ne m c main_arg17 (by decide), B3_of m c main_arg17 (by decide), B2_ne m c main_arg17 (by decide), B1_of m c main_arg17 (by decide)]
    rfl
  exact e.trans (Cert.LibLayout.shapeCast_row_eq_broadcastInDim 1 _ _ _)
theorem k_v87 : B11 m c main_v87 = Cert.ReferenceIdeal.Read.val_main_v134 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) := by
  rw [B11_self]; unfold o11; rw [final5 (Vt (B10 m)) c]
  dsimp only [Vt]
  rw [k_v84 m c, k_v85 m c, k_v86 m c,
    B10_of m c main_arg14 (by decide), B9_ne m c main_arg14 (by decide), B8_of m c main_arg14 (by decide), B7_ne m c main_arg14 (by decide), B6_of m c main_arg14 (by decide), B5_ne m c main_arg14 (by decide), B4_ne m c main_arg14 (by decide), B3_of m c main_arg14 (by decide), B2_ne m c main_arg14 (by decide), B1_of m c main_arg14 (by decide),
    B10_of m c main_arg16 (by decide), B9_ne m c main_arg16 (by decide), B8_of m c main_arg16 (by decide), B7_ne m c main_arg16 (by decide), B6_of m c main_arg16 (by decide), B5_ne m c main_arg16 (by decide), B4_ne m c main_arg16 (by decide), B3_of m c main_arg16 (by decide), B2_ne m c main_arg16 (by decide), B1_of m c main_arg16 (by decide)]
  rfl
/-- The second result: the gene predictions, flattened. -/
theorem k_v88 : B12 m c main_v88 = Cert.ReferenceIdeal.Read.val_main_v135 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) := by
  show StableHlo.after hostOps6 (B11 m c) (Proc.devRef .tc main_v88) = _
  dsimp only [hostOps6]
  after_results_simp
  rw [k_v87 m c]
  rfl

end Cert.KernelIdeal.Fr

end
-- ==== Proof.lean ====
/-
  The five claims of this certificate. The three programs run to the end, fault nowhere and leave their argument
  arrays unchanged: the two kernel programs as twelve items each (seven stretches of host operations, six kernel
  regions), the reference as one stretch of host operations. The idealization rewrote nothing. And at the ideal
  instance the kernel program's two results are the reference's: each region's result array is the host expression
  the reference computes in its place, and everything between the regions is the same operations on both sides.
-/
import proofs.«178605_j21560735825958_2_alg».proof.Defs
import proofs.«178605_j21560735825958_2_alg».proof.Proof.Gen.Kernel
import proofs.«178605_j21560735825958_2_alg».proof.Proof.Gen.KernelIdeal
import proofs.«178605_j21560735825958_2_alg».proof.Proof.Gen.ReferenceIdeal
import proofs.«178605_j21560735825958_2_alg».proof.Proof.Gen.Pre_finite_inputs
import proofs.«178605_j21560735825958_2_alg».proof.Proof.Gen.ReferenceIdeal.Read
import proofs.«178605_j21560735825958_2_alg».proof.Proof.K.Run
import proofs.«178605_j21560735825958_2_alg».proof.Proof.KI.Run
import proofs.«178605_j21560735825958_2_alg».proof.Proof.KI.Bridge
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the reference's two values of the argument arrays. -/
theorem algebraic : Cert.algebraic_KernelIdeal_ReferenceIdeal := by
  intro m ρ m' ρ' _ hagree
  refine ⟨fun c => Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v135 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ⟨?_, ?_, ?_⟩) (Cert.KernelIdeal.Fr.run_main m ρ)
    · exact (h c _ (Cert.KernelIdeal.Fr.mem_uc Cert.KernelIdeal.main_v77 (by decide))).trans (Cert.KernelIdeal.Fr.k_v77 m c)
    · exact (h c _ (Cert.KernelIdeal.Fr.mem_uc Cert.KernelIdeal.main_v88 (by decide))).trans (Cert.KernelIdeal.Fr.k_v88 m c)
    · exact ⟨(h c _ (Cert.KernelIdeal.Fr.mem_uc Cert.KernelIdeal.main_arg0 (by decide))).trans (Cert.KernelIdeal.Fr.B12_main_arg0 m c),
        (h c _ (Cert.KernelIdeal.Fr.mem_uc Cert.KernelIdeal.main_arg1 (by decide))).trans (Cert.KernelIdeal.Fr.B12_main_arg1 m c),
        (h c _ (Cert.KernelIdeal.Fr.mem_uc Cert.KernelIdeal.main_arg2 (by decide))).trans (Cert.KernelIdeal.Fr.B12_main_arg2 m c),
        (h c _ (Cert.KernelIdeal.Fr.mem_uc Cert.KernelIdeal.main_arg3 (by decide))).trans (Cert.KernelIdeal.Fr.B12_main_arg3 m c),
        (h c _ (Cert.KernelIdeal.Fr.mem_uc Cert.KernelIdeal.main_arg4 (by decide))).trans (Cert.KernelIdeal.Fr.B12_main_arg4 m c),
        (h c _ (Cert.KernelIdeal.Fr.mem_uc Cert.KernelIdeal.main_arg5 (by decide))).trans (Cert.KernelIdeal.Fr.B12_main_arg5 m c),
        (h c _ (Cert.KernelIdeal.Fr.mem_uc Cert.KernelIdeal.main_arg6 (by decide))).trans (Cert.KernelIdeal.Fr.B12_main_arg6 m c),
        (h c _ (Cert.KernelIdeal.Fr.mem_uc Cert.KernelIdeal.main_arg7 (by decide))).trans (Cert.KernelIdeal.Fr.B12_main_arg7 m c),
        (h c _ (Cert.KernelIdeal.Fr.mem_uc Cert.KernelIdeal.main_arg8 (by decide))).trans (Cert.KernelIdeal.Fr.B12_main_arg8 m c),
        (h c _ (Cert.KernelIdeal.Fr.mem_uc Cert.KernelIdeal.main_arg9 (by decide))).trans (Cert.KernelIdeal.Fr.B12_main_arg9 m c),
        (h c _ (Cert.KernelIdeal.Fr.mem_uc Cert.KernelIdeal.main_arg10 (by decide))).trans (Cert.KernelIdeal.Fr.B12_main_arg10 m c),
        (h c _ (Cert.KernelIdeal.Fr.mem_uc Cert.KernelIdeal.main_arg11 (by decide))).trans (Cert.KernelIdeal.Fr.B12_main_arg11 m c),
        (h c _ (Cert.KernelIdeal.Fr.mem_uc Cert.KernelIdeal.main_arg12 (by decide))).trans (Cert.KernelIdeal.Fr.B12_main_arg12 m c),
        (h c _ (Cert.KernelIdeal.Fr.mem_uc Cert.KernelIdeal.main_arg13 (by decide))).trans (Cert.KernelIdeal.Fr.B12_main_arg13 m c),
        (h c _ (Cert.KernelIdeal.Fr.mem_uc Cert.KernelIdeal.main_arg14 (by decide))).trans (Cert.KernelIdeal.Fr.B12_main_arg14 m c),
        (h c _ (Cert.KernelIdeal.Fr.mem_uc Cert.KernelIdeal.main_arg15 (by decide))).trans (Cert.KernelIdeal.Fr.B12_main_arg15 m c),
        (h c _ (Cert.KernelIdeal.Fr.mem_uc Cert.KernelIdeal.main_arg16 (by decide))).trans (Cert.KernelIdeal.Fr.B12_main_arg16 m c),
        (h c _ (Cert.KernelIdeal.Fr.mem_uc Cert.KernelIdeal.main_arg17 (by decide))).trans (Cert.KernelIdeal.Fr.B12_main_arg17 m c)⟩
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v118_eq, (hagree c).1, (hagree c).2.1, (hagree c).2.2.1, (hagree c).2.2.2.1, (hagree c).2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    · rw [(h c).2.1, Cert.ReferenceIdeal.Read.val_main_v135_eq, (hagree c).1, (hagree c).2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
